-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x32x256 : Shape := ⟨4, ![16, 64, 32, 256]⟩
abbrev S64 : Shape := ⟨1, ![64]⟩
abbrev S_ : Shape := ⟨0, ![]⟩

class Facts : Prop where
  bcast_S_S16x64x32x256 : S_.BroadcastsInDim S16x64x32x256 (![] : Fin 0 → Fin S16x64x32x256.rank)
  reducesTo_S16x64x32x256_S_d0_1_2_3 : S16x64x32x256.ReducesTo [0, 1, 2, 3] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S16x64x32x256 .f32) (main_arg1 : FVec F S16x64x32x256 .f32) (main_arg2 : FVec F S16x64x32x256 .f32) (main_arg3 : FVec F S64 .f32) (main_arg4 : FVec F S64 .f32) : IVec S_ 1 :=
  let main_v0 : FVec F S16x64x32x256 .f32 := Host.absf main_arg0
  let main_cst : FVec F S_ .f32 := constant S_ .f32 0x7F800000#32
  let main_v1 : FVec F S16x64x32x256 .f32 := broadcastInDim S16x64x32x256 ![] bcast_S_S16x64x32x256 main_cst
  let main_v2 : IVec S16x64x32x256 1 := cmpf .olt main_v0 main_v1
  let main_c : IVec S_ 1 := constantI S_ 1 1#1
  let main_v3 : IVec S_ 1 := (fun x v => Host.reduce IntOp.andi x v reducesTo_S16x64x32x256_S_d0_1_2_3 h_S_) main_v2 main_c
  let main_v4 : FVec F S16x64x32x256 .f32 := Host.absf main_arg1
  let main_cst_0 : FVec F S_ .f32 := constant S_ .f32 0x7F800000#32
  let main_v5 : FVec F S16x64x32x256 .f32 := broadcastInDim S16x64x32x256 ![] bcast_S_S16x64x32x256 main_cst_0
  let main_v6 : IVec S16x64x32x256 1 := cmpf .olt main_v4 main_v5
  let main_c_1 : IVec S_ 1 := constantI S_ 1 1#1
  let main_v7 : IVec S_ 1 := (fun x v => Host.reduce IntOp.andi x v reducesTo_S16x64x32x256_S_d0_1_2_3 h_S_) main_v6 main_c_1
  let main_v8 : IVec S_ 1 := andi main_v3 main_v7
  let main_v9 : FVec F S16x64x32x256 .f32 := Host.absf main_arg2
  let main_cst_2 : FVec F S_ .f32 := constant S_ .f32 0x7F800000#32
  let main_v10 : FVec F S16x64x32x256 .f32 := broadcastInDim S16x64x32x256 ![] bcast_S_S16x64x32x256 main_cst_2
  let main_v11 : IVec S16x64x32x256 1 := cmpf .olt main_v9 main_v10
  let main_c_3 : IVec S_ 1 := constantI S_ 1 1#1
  let main_v12 : IVec S_ 1 := (fun x v => Host.reduce IntOp.andi x v reducesTo_S16x64x32x256_S_d0_1_2_3 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S16x64x32x256 : Shape := ⟨4, ![16, 64, 32, 256]⟩
abbrev S64 : Shape := ⟨1, ![64]⟩
abbrev S1x128 : Shape := ⟨2, ![1, 128]⟩
abbrev S16x1x32x256 : Shape := ⟨4, ![16, 1, 32, 256]⟩
abbrev S16x32x256 : Shape := ⟨3, ![16, 32, 256]⟩
abbrev S16x256x256 : Shape := ⟨3, ![16, 256, 256]⟩
abbrev S16x256 : Shape := ⟨2, ![16, 256]⟩
abbrev S16x256x1 : Shape := ⟨3, ![16, 256, 1]⟩
abbrev S1x16x32x256 : Shape := ⟨4, ![1, 16, 32, 256]⟩
abbrev S1 : Shape := ⟨1, ![1]⟩
abbrev S1x1x1x1 : Shape := ⟨4, ![1, 1, 1, 1]⟩
abbrev S1x64 : Shape := ⟨2, ![1, 64]⟩
abbrev S_ : Shape := ⟨0, ![]⟩
abbrev S1x64x1x1 : Shape := ⟨4, ![1, 64, 1, 1]⟩
abbrev S16x8x32x256 : Shape := ⟨4, ![16, 8, 32, 256]⟩
abbrev S1x8x1x1 : Shape := ⟨4, ![1, 8, 1, 1]⟩

abbrev nBuf : Space → Nat
  | .hbm => 30
  | .vmem => 20
  | .smem => 0
  | _ => 0

abbrev bufTy : (tb : Table) → Fin (tcTables nBuf tb) → BufTy
  | .hbm, ⟨0, _⟩ => ⟨S16x64x32x256, .f32⟩
  | .hbm, ⟨1, _⟩ => ⟨S16x64x32x256, .f32⟩
  | .hbm, ⟨2, _⟩ => ⟨S16x64x32x256, .f32⟩
  | .hbm, ⟨3, _⟩ => ⟨S64, .f32⟩
  | .hbm, ⟨4, _⟩ => ⟨S64, .f32⟩
  | .hbm, ⟨5, _⟩ => ⟨S16x64x32x256, .f32⟩
  | .hbm, ⟨6, _⟩ => ⟨S1x128, .f32⟩
  | .hbm, ⟨7, _⟩ => ⟨S1x128, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S1x64x1x1, .f32⟩
  | .hbm, ⟨28, _⟩ => ⟨S1x64x1x1, .f32⟩
  | .hbm, ⟨29, _⟩ => ⟨S16x64x32x256, .f32⟩
  | .local _ .vmem, ⟨0, _⟩ => ⟨S16x1x32x256, .f32⟩
  | .local _ .vmem, ⟨1, _⟩ => ⟨S16x1x32x256, .f32⟩
  | .local _ .vmem, ⟨2, _⟩ => ⟨S16x1x32x256, .f32⟩
  | .local _ .vmem, ⟨3, _⟩ => ⟨S16x1x32x256, .f32⟩
  | .local _ .vmem, ⟨4, _⟩ => ⟨S16x1x32x256, .f32⟩
  | .local _ .vmem, ⟨5, _⟩ => ⟨S16x1x32x256, .f32⟩
  | .local _ .vmem, ⟨6, _⟩ => ⟨S16x1x32x256, .f32⟩
  | .local _ .vmem, ⟨7, _⟩ => ⟨S16x1x32x256, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S16x8x32x256, .f32⟩
  | .local _ .vmem, ⟨13, _⟩ => ⟨S16x8x32x256, .f32⟩
  | .local _ .vmem, ⟨14, _⟩ => ⟨S1x8x1x1, .f32⟩
  | .local _ .vmem, ⟨15, _⟩ => ⟨S1x8x1x1, .f32⟩
  | .local _ .vmem, ⟨16, _⟩ => ⟨S1x8x1x1, .f32⟩
  | .local _ .vmem, ⟨17, _⟩ => ⟨S1x8x1x1, .f32⟩
  | .local _ .vmem, ⟨18, _⟩ => ⟨S16x8x32x256, .f32⟩
  | .local _ .vmem, ⟨19, _⟩ => ⟨S16x8x32x256, .f32⟩
  | _, _ => ⟨S16x64x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x1x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 2 → Memref sig .tc .vmem S16x8x32x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x8x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x8x32x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S16x1x32x256_S16x1x32x256_0_0_0_0 : ∀ a, (![0, 0, 0, 0] : Fin 4 → Nat) a + S16x1x32x256.size a ≤ S16x1x32x256.size a
  h_S16x1x32x256 : 0 < S16x1x32x256.numel
  shapeCasts_S16x1x32x256_S16x32x256 : S16x1x32x256.ShapeCasts S16x32x256
  reduces_S16x256x256_S16x256 : S16x256x256.Reduces [2] S16x256
  shapeCasts_S16x256_S16x256x1 : S16x256.ShapeCasts S16x256x1
  broadcasts_S16x256x1_S16x256x256 : S16x256x1.Broadcasts S16x256x256
  shapeCasts_S16x32x256_S16x1x32x256 : S16x32x256.ShapeCasts S16x1x32x256
  shapeCasts_S16x32x256_S1x16x32x256 : S16x32x256.ShapeCasts S1x16x32x256
  reduces_S1x16x32x256_S1 : S1x16x32x256.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  iota_S1x128_d1_w32 : S1x128.Iotas .tc 32 [1]
  natLt_1_32 : 1 < 32
  slices_S1x128_S1x64_0_0 : S1x128.Slices ![0, 0] S1x64
  shapeCasts_S1x64_S64 : S1x64.ShapeCasts S64
  bcast_S_S64 : S_.BroadcastsInDim S64 (![] : Fin 0 → Fin S64.rank)
  shapeCasts_S64_S1x64x1x1 : S64.ShapeCasts S1x64x1x1
  inb_S16x8x32x256_S16x8x32x256_0_0_0_0 : ∀ a, (![0, 0, 0, 0] : Fin 4 → Nat) a + S16x8x32x256.size a ≤ S16x8x32x256.size a
  h_S16x8x32x256 : 0 < S16x8x32x256.numel
  shapeCasts_S16x8x32x256_S16x8x32x256 : S16x8x32x256.ShapeCasts S16x8x32x256
  inb_S1x8x1x1_S1x8x1x1_0_0_0_0 : ∀ a, (![0, 0, 0, 0] : Fin 4 → Nat) a + S1x8x1x1.size a ≤ S1x8x1x1.size a
  h_S1x8x1x1 : 0 < S1x8x1x1.numel
  shapeCasts_S1x8x1x1_S1x8x1x1 : S1x8x1x1.ShapeCasts S1x8x1x1
  broadcasts_S1x8x1x1_S16x8x32x256 : S1x8x1x1.Broadcasts S16x8x32x256
  dot_S16x32x256_S16x32x256_S16x256x256_1_1_2_2_0_0_wf : DotDims.WF S16x32x256 S16x32x256 S16x256x256 [1] [1] [2] [2] [0] [0]
  dot_S16x32x256_S16x256x256_S16x32x256_2_2_1_1_0_0_wf : DotDims.WF S16x32x256 S16x256x256 S16x32x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1x32x256.size a ≤ S16x64x32x256.size a
  hwx0_0 : ∀ i : grid0.Coords, EltTy.bits .f32 = 32 ∨ (Rect.block (s := S16x64x32x256) S16x1x32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1x32x256.size a ≤ S16x64x32x256.size a
  hwx0_1 : ∀ i : grid0.Coords, EltTy.bits .f32 = 32 ∨ (Rect.block (s := S16x64x32x256) S16x1x32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1x32x256.size a ≤ S16x64x32x256.size a
  hwx0_2 : ∀ i : grid0.Coords, EltTy.bits .f32 = 32 ∨ (Rect.block (s := S16x64x32x256) S16x1x32x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1x32x256.size a ≤ S16x64x32x256.size a
  hwx0_3 : ∀ i : grid0.Coords, EltTy.bits .f32 = 32 ∨ (Rect.block (s := S16x64x32x256) S16x1x32x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x8x32x256.size a ≤ S16x64x32x256.size a
  hwx1_0 : ∀ i : grid1.Coords, EltTy.bits .f32 = 32 ∨ (Rect.block (s := S16x64x32x256) S16x8x32x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8x1x1.size a ≤ S1x64x1x1.size a
  hwx1_1 : ∀ i : grid1.Coords, EltTy.bits .f32 = 32 ∨ (Rect.block (s := S1x64x1x1) S1x8x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x1x1.size a ≤ S1x64x1x1.size a
  hwx1_2 : ∀ i : grid1.Coords, EltTy.bits .f32 = 32 ∨ (Rect.block (s := S1x64x1x1) S1x8x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x8x32x256.size a ≤ S16x64x32x256.size a
  hwx1_3 : ∀ i : grid1.Coords, EltTy.bits .f32 = 32 ∨ (Rect.block (s := S16x64x32x256) S16x8x32x256.size (cc1_transform_3 i) (hinb1_3 i)).WholeWords (EltTy.packing .f32)

variable [Facts₀]

def dot_S16x32x256_S16x32x256_S16x256x256_1_1_2_2_0_0 : DotDims S16x32x256 S16x32x256 S16x256x256 where
  lhsContracting := [1]
  rhsContracting := [1]
  lhsNonContracting := [2]
  rhsNonContracting := [2]
  lhsBatch := [0]
  rhsBatch := [0]
  wf := dot_S16x32x256_S16x32x256_S16x256x256_1_1_2_2_0_0_wf
def dot_S16x32x256_S16x256x256_S16x32x256_2_2_1_1_0_0 : DotDims S16x32x256 S16x256x256 S16x32x256 where
  lhsContracting := [2]
  rhsContracting := [2]
  lhsNonContracting := [1]
  rhsNonContracting := [1]
  lhsBatch := [0]
  rhsBatch := [0]
  wf := dot_S16x32x256_S16x256x256_S16x32x256_2_2_1_1_0_0_wf

abbrev win0_0 : Pipeline.Window sig grid0 :=
  Pipeline.Window.ofSpec (Memref.whole main_arg0) S16x1x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x1x32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x1x32x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S16x1x32x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0_0) S16x8x32x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x8x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x8x1x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S16x8x32x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x64x32x256 : Shape := ⟨4, ![16, 64, 32, 256]⟩
abbrev S64 : Shape := ⟨1, ![64]⟩
abbrev S16x64x256x256 : Shape := ⟨4, ![16, 64, 256, 256]⟩
abbrev S_ : Shape := ⟨0, ![]⟩
abbrev S16x64x256 : Shape := ⟨3, ![16, 64, 256]⟩
abbrev S16x64x256x1 : Shape := ⟨4, ![16, 64, 256, 1]⟩
abbrev S1x64x1x1 : Shape := ⟨4, ![1, 64, 1, 1]⟩

abbrev nBuf : Space → Nat
  | .hbm => 75
  | .vmem => 0
  | .smem => 0
  | _ => 0

abbrev bufTy : (tb : Table) → Fin (tcTables nBuf tb) → BufTy
  | .hbm, ⟨0, _⟩ => ⟨S16x64x32x256, .f32⟩
  | .hbm, ⟨1, _⟩ => ⟨S16x64x32x256, .f32⟩
  | .hbm, ⟨2, _⟩ => ⟨S16x64x32x256, .f32⟩
  | .hbm, ⟨3, _⟩ => ⟨S64, .f32⟩
  | .hbm, ⟨4, _⟩ => ⟨S64, .f32⟩
  | .hbm, ⟨5, _⟩ => ⟨S16x64x256x256, .f32⟩
  | .hbm, ⟨6, _⟩ => ⟨S_, .f32⟩
  | .hbm, ⟨7, _⟩ => ⟨S16x64x256, .f32⟩
  | .hbm, ⟨8, _⟩ => ⟨S_, .f32⟩
  | .hbm, ⟨9, _⟩ => ⟨S16x64x256, .f32⟩
  | .hbm, ⟨10, _⟩ => ⟨S16x64x256, .f32⟩
  | .hbm, ⟨11, _⟩ => ⟨S16x64x256x1, .f32⟩
  | .hbm, ⟨12, _⟩ => ⟨S16x64x256x256, .f32⟩
  | .hbm, ⟨13, _⟩ => ⟨S16x64x256x256, .f32⟩
  | .hbm, ⟨14, _⟩ => ⟨S16x64x256x256, .f32⟩
  | .hbm, ⟨15, _⟩ => ⟨S_, .f32⟩
  | .hbm, ⟨16, _⟩ => ⟨S16x64x256, .f32⟩
  | .hbm, ⟨17, _⟩ => ⟨S16x64x256x1, .f32⟩
  | .hbm, ⟨18, _⟩ => ⟨S16x64x256x256, .f32⟩
  | .hbm, ⟨19, _⟩ => ⟨S16x64x256x256, .f32⟩
  | .hbm, ⟨20, _⟩ => ⟨S16x64x32x256, .f32⟩
  | .hbm, ⟨21, _⟩ => ⟨S16x64x32x256, .f32⟩
  | .hbm, ⟨22, _⟩ => ⟨S_, .f32⟩
  | .hbm, ⟨23, _⟩ => ⟨S64, .f32⟩
  | .hbm, ⟨24, _⟩ => ⟨S1x64x1x1, .f32⟩
  | .hbm, ⟨25, _⟩ => ⟨S_, .f32⟩
  | .hbm, ⟨26, _⟩ => ⟨S1x64x1x1, .f32⟩
  | .hbm, ⟨27, _⟩ => ⟨S1x64x1x1, .f32⟩
  | .hbm, ⟨28, _⟩ => ⟨S_, .i32⟩
  | .hbm, ⟨29, _⟩ => ⟨S_, .f32⟩
  | .hbm, ⟨30, _⟩ => ⟨S64, .f32⟩
  | .hbm, ⟨31, _⟩ => ⟨S1x64x1x1, .f32⟩
  | .hbm, ⟨32, _⟩ => ⟨S_, .f32⟩
  | .hbm, ⟨33, _⟩ => ⟨S1x64x1x1, .f32⟩
  | .hbm, ⟨34, _⟩ => ⟨S1x64x1x1, .f32⟩
  | .hbm, ⟨35, _⟩ => ⟨S16x64x32x256, .f32⟩
  | .hbm, ⟨36, _⟩ => ⟨S16x64x32x256, .f32⟩
  | .hbm, ⟨37, _⟩ => ⟨S16x64x32x256, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S64, .f32⟩
  | .hbm, ⟨43, _⟩ => ⟨S1x64x1x1, .f32⟩
  | .hbm, ⟨44, _⟩ => ⟨S1x64x1x1, .f32⟩
  | .hbm, ⟨45, _⟩ => ⟨S1x64x1x1, .f32⟩
  | .hbm, ⟨46, _⟩ => ⟨S_, .f32⟩
  | .hbm, ⟨47, _⟩ => ⟨S_, .i1⟩
  | .hbm, ⟨48, _⟩ => ⟨S_, .f32⟩
  | .hbm, ⟨49, _⟩ => ⟨S_, .f32⟩
  | .hbm, ⟨50, _⟩ => ⟨S1x64x1x1, .f32⟩
  | .hbm, ⟨51, _⟩ => ⟨S1x64x1x1, .f32⟩
  | .hbm, ⟨52, _⟩ => ⟨S16x64x32x256, .f32⟩
  | .hbm, ⟨53, _⟩ => ⟨S16x64x32x256, .f32⟩
  | .hbm, ⟨54, _⟩ => ⟨S_, .f32⟩
  | .hbm, ⟨55, _⟩ => ⟨S1x64x1x1, .f32⟩
  | .hbm, ⟨56, _⟩ => ⟨S1x64x1x1, .f32⟩
  | .hbm, ⟨57, _⟩ => ⟨S1x64x1x1, .f32⟩
  | .hbm, ⟨58, _⟩ => ⟨S16x64x32x256, .f32⟩
  | .hbm, ⟨59, _⟩ => ⟨S16x64x32x256, .f32⟩
  | .hbm, ⟨60, _⟩ => ⟨S1x64x1x1, .f32⟩
  | .hbm, ⟨61, _⟩ => ⟨S16x64x32x256, .f32⟩
  | .hbm, ⟨62, _⟩ => ⟨S16x64x32x256, .f32⟩
  | .hbm, ⟨63, _⟩ => ⟨S1x64x1x1, .f32⟩
  | .hbm, ⟨64, _⟩ => ⟨S16x64x32x256, .f32⟩
  | .hbm, ⟨65, _⟩ => ⟨S16x64x32x256, .f32⟩
  | .hbm, ⟨66, _⟩ => ⟨S16x64x32x256, .f32⟩
  | .hbm, ⟨67, _⟩ => ⟨S16x64x32x256, .f32⟩
  | .hbm, ⟨68, _⟩ => ⟨S_, .f32⟩
  | .hbm, ⟨69, _⟩ => ⟨S16x64x32x256, .f32⟩
  | .hbm, ⟨70, _⟩ => ⟨S16x64x32x256, .f32⟩
  | .hbm, ⟨71, _⟩ => ⟨S_, .f32⟩
  | .hbm, ⟨72, _⟩ => ⟨S16x64x32x256, .f32⟩
  | .hbm, ⟨73, _⟩ => ⟨S16x64x32x256, .f32⟩
  | .hbm, ⟨74, _⟩ => ⟨S16x64x32x256, .f32⟩
  | _, _ => ⟨S16x64x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_cst_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_cst_1 : Ref sig .tc := ⟨.hbm, 39, rfl⟩
abbrev main_call0_v8 : Ref sig .tc := ⟨.hbm, 40, rfl⟩
abbrev main_call0_cst_2 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_v12 : Ref sig .tc := ⟨.hbm, 45, rfl⟩
abbrev main_call0_cst_3 : Ref sig .tc := ⟨.hbm, 46, rfl⟩
abbrev main_call0_v13 : Ref sig .tc := ⟨.hbm, 47, rfl⟩
abbrev main_call0_cst_4 : Ref sig .tc := ⟨.hbm, 48, rfl⟩
abbrev main_call0_call0_v0 : Ref sig .tc := ⟨.hbm, 49, rfl⟩
abbrev main_call0_call0_v1 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_4 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_5 : Ref sig .tc := ⟨.hbm, 68, rfl⟩
abbrev main_v34 : Ref sig .tc := ⟨.hbm, 69, rfl⟩
abbrev main_v35 : Ref sig .tc := ⟨.hbm, 70, rfl⟩
abbrev main_cst_6 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩

abbrev nD : Nat := 1
abbrev τ : Topo := Topo.v7x

variable {F : FTy → Type} [FloatOps F]

class Facts₀ : Prop where
  reducesTo_S16x64x256x256_S16x64x256_d3 : S16x64x256x256.ReducesTo [3] S16x64x256
  h_S_ : 0 < S_.numel
  bcast_S_S16x64x256 : S_.BroadcastsInDim S16x64x256 (![] : Fin 0 → Fin S16x64x256.rank)
  bcast_S16x64x256_S16x64x256x1_0_1_2 : S16x64x256.BroadcastsInDim S16x64x256x1 (![0, 1, 2] : Fin 3 → Fin S16x64x256x1.rank)
  bcast_S16x64x256x1_S16x64x256x256_0_1_2_3 : S16x64x256x1.BroadcastsInDim S16x64x256x256 (![0, 1, 2, 3] : Fin 4 → Fin S16x64x256x256.rank)
  reducesTo_S16x64x32x256_S64_d0_2_3 : S16x64x32x256.ReducesTo [0, 2, 3] S64
  bcast_S64_S1x64x1x1_1 : S64.BroadcastsInDim S1x64x1x1 (![1] : Fin 1 → Fin S1x64x1x1.rank)
  bcast_S_S1x64x1x1 : S_.BroadcastsInDim S1x64x1x1 (![] : Fin 0 → Fin S1x64x1x1.rank)
  bcast_S1x64x1x1_S16x64x32x256_0_1_2_3 : S1x64x1x1.BroadcastsInDim S16x64x32x256 (![0, 1, 2, 3] : Fin 4 → Fin S16x64x32x256.rank)
  bcast_S_S16x64x32x256 : S_.BroadcastsInDim S16x64x32x256 (![] : Fin 0 → Fin S16x64x32x256.rank)
  dot_S16x64x32x256_S16x64x32x256_S16x64x256x256_2_2_3_3_01_01_wf : DotDims.WF S16x64x32x256 S16x64x32x256 S16x64x256x256 [2] [2] [3] [3] [0, 1] [0, 1]
  dot_S16x64x32x256_S16x64x256x256_S16x64x32x256_3_3_2_2_01_01_wf : DotDims.WF S16x64x32x256 S16x64x256x256 S16x64x32x256 [3] [3] [2] [2] [0, 1] [0, 1]

variable [Facts₀]

def dot_S16x64x32x256_S16x64x32x256_S16x64x256x256_2_2_3_3_01_01 : DotDims S16x64x32x256 S16x64x32x256 S16x64x256x256 where
  lhsContracting := [2]
  rhsContracting := [2]
  lhsNonContracting := [3]
  rhsNonContracting := [3]
  lhsBatch := [0, 1]
  rhsBatch := [0, 1]
  wf := dot_S16x64x32x256_S16x64x32x256_S16x64x256x256_2_2_3_3_01_01_wf
def dot_S16x64x32x256_S16x64x256x256_S16x64x32x256_3_3_2_2_01_01 : DotDims S16x64x32x256 S16x64x256x256 S16x64x32x256 where
  lhsContracting := [3]
  rhsContracting := [3]
  lhsNonContracting := [2]
  rhsNonContracting := [2]
  lhsBatch := [0, 1]
  rhsBatch := [0, 1]
  wf := dot_S16x64x32x256_S16x64x256x256_S16x64x32x256_3_3_2_2_01_01_wf

class Facts : Prop extends Facts₀ where

variable [Facts]
-- ==== Proof.KernelR0A.lean ====
/-
  The first kernel (the per-channel attention block with its running channel sums) run at the grid's FIRST point:
  the branch that zeroes the two running-sum buffers is taken, so those buffers may hold anything on entry.
  Shared here: the branch condition in closed form over the 64 grid points, the staging buffers by name, and the
  region's untouched rest written out buffer by buffer.
-/
import proofs.«133421_j61701500174555_1_alg».proof.Proof.Gen.Kernel.Launch
import proofs.«133421_j61701500174555_1_alg».proof.Proof.Gen.Kernel.Skeleton
import proofs.«133421_j61701500174555_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The condition under which the body zeroes its two running-sum buffers: the grid coordinate is 0. -/
abbrev cond0_0 (i : grid0.Coords) : Prop := (Scalar.cmpi .ne (Scalar.extui (Scalar.cmpi .eq (BitVec.ofNat 32 (i 0).val) 0#32)) 0#32) = 1#1
/-- It holds at the first of the 64 points only. -/
theorem hcond0_0 : ∀ t : Fin cfg0.N, cond0_0 (grid0.coords t) ↔ t.val = 0 :=
  (by decide +kernel : ∀ t : Fin grid0.N, cond0_0 (grid0.coords t) ↔ t.val = 0)

/-- No window of the first kernel is idle at any point: every input is read and every output stored whole at every point. -/
theorem liveAt0 : ∀ (w : Fin 6) (t : Fin cfg0.N), cfg0.idle w (grid0.coords t) = false := by decide +kernel

abbrev ms0_0 (t : Fin cfg0.N) : Memref sig .tc .vmem S16x1x32x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1x32x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x1x32x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x1x32x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
/-- The two running-sum buffers (sum and sum of squares, one lane per channel). -/
abbrev scM0_0 : Memref sig .tc .vmem S1x128 .f32 := Memref.whole cc0_scratch0
abbrev scM0_1 : Memref sig .tc .vmem S1x128 .f32 := Memref.whole cc0_scratch1
abbrev VO0_3 : View sig .tc .vmem S16x1x32x256 .f32 := (Memref.whole cc0_stg3_0 : Memref sig .tc .vmem S16x1x32x256 .f32).view
abbrev VO0_4 : View sig .tc .vmem S1x128 .f32 := (Memref.whole cc0_stg4_0 : Memref sig .tc .vmem S1x128 .f32).view
abbrev VO0_5 : View sig .tc .vmem S1x128 .f32 := (Memref.whole cc0_stg5_0 : Memref sig .tc .vmem S1x128 .f32).view
abbrev VS0_0 : View sig .tc .vmem S1x128 .f32 := scM0_0.view
abbrev VS0_1 : View sig .tc .vmem S1x128 .f32 := scM0_1.view

/-- The second kernel's eight staging buffers, which the first kernel never touches, each at some contents. -/
abbrev restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the region's invariant holds when nothing is tracked: the two running-sum buffers at some contents, the
    second kernel's staging buffers at some contents, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restS0 c) ∗ (∃ r, prngReg c r)) := by
  unfold Pipeline.ΦA; rw [scopedRest0_eq]; simp only [scM0_0, scM0_1, owns_whole]; try rfl

set_option maxHeartbeats 2000000 in
/-- The body at the first point, on whole buffers: the three input blocks at given contents, everything else at
    anything; it ends with the inputs as they were and each other buffer at its stores, as pieces (last first)
    that the run finds. -/
noncomputable def kernelRun0_A (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 x1 x2 : Vec F S16x1x32x256 .f32) :
    Σ' (L3 : List (View.Piece (Elt F) S16x1x32x256 .f32)) (L4 : List (View.Piece (Elt F) S1x128 .f32)) (L5 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__attn_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    iexists _; iexact H7

end Cert.Kernel.Hand

end
-- ==== Proof.KernelR0B.lean ====
/-
  The first kernel run at every LATER point (grid coordinate ≠ 0): the zeroing branch is skipped, so the two
  running-sum buffers enter at what the point before left in them, and leave at those contents plus this point's
  contribution.
-/
import proofs.«133421_j61701500174555_1_alg».proof.Proof.KernelR0A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
/-- The body at a later point, on whole buffers: the three input blocks and the two running-sum buffers at given
    contents, the three output buffers at anything; it ends with the inputs as they were and each other buffer at its
    stores, as pieces (last first) that the run finds. -/
noncomputable def kernelRun0_B (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 x1 x2 : Vec F S16x1x32x256 .f32) (xs0 xs1 : Vec F S1x128 .f32) :
    Σ' (L3 : List (View.Piece (Elt F) S16x1x32x256 .f32)) (L4 : List (View.Piece (Elt F) S1x128 .f32)) (L5 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__attn_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2
    obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    iexists _; iexact H7

end Cert.Kernel.Hand

end
-- ==== Proof.KernelR0.lean ====
/-
  The first kernel over its 64 grid points (one channel each), at a parameter V: the contents of the core's buffers when
  the kernel is entered. Per point: what the body leaves in the output block (attention plus residual for that channel),
  in the two statistics windows, and in the two running-sum buffers it carries from point to point; the region's
  invariant names those two buffers' contents after every point; then the per-point obligation.
-/
import proofs.«133421_j61701500174555_1_alg».proof.Proof.KernelR0B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at point t, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves, buffer by buffer: the run's pieces cover the buffer, so they read back as its contents -/

theorem cover0_A_3 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 : Vec F S16x1x32x256 .f32) (y : S16x1x32x256.Idx) :
    ∃ pc ∈ (kernelRun0_A c i arg1 harg1 arg2 harg2 arg3 harg3 arg4 harg4 arg5 harg5 arg6 harg6 arg7 harg7 arg8 harg8 hc0 x0 x1 x2).1, y ∈ pc.1.set :=
  View.cover_of_tiledL (kernelRun0_A c i arg1 harg1 arg2 harg2 arg3 harg3 arg4 harg4 arg5 harg5 arg6 harg6 arg7 harg7 arg8 harg8 hc0 x0 x1 x2).1 S16x1x32x256.size (by sl_kernel_rfl) y
def out0_A_3 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 : Vec F S16x1x32x256 .f32) : Vec F S16x1x32x256 .f32 :=
  VO0_3.read (Elt F) (VO0_3.writes (Elt F) VO0_3.junk (kernelRun0_A c i arg1 harg1 arg2 harg2 arg3 harg3 arg4 harg4 arg5 harg5 arg6 harg6 arg7 harg7 arg8 harg8 hc0 x0 x1 x2).1)
theorem cover0_A_4 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 : Vec F S16x1x32x256 .f32) (y : S1x128.Idx) :
    ∃ pc ∈ (kernelRun0_A c i arg1 harg1 arg2 harg2 arg3 harg3 arg4 harg4 arg5 harg5 arg6 harg6 arg7 harg7 arg8 harg8 hc0 x0 x1 x2).2.1, y ∈ pc.1.set :=
  View.cover_of_tiledL (kernelRun0_A c i arg1 harg1 arg2 harg2 arg3 harg3 arg4 harg4 arg5 harg5 arg6 harg6 arg7 harg7 arg8 harg8 hc0 x0 x1 x2).2.1 S1x128.size (by sl_kernel_rfl) y
def out0_A_4 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 : Vec F S16x1x32x256 .f32) : Vec F S1x128 .f32 :=
  VO0_4.read (Elt F) (VO0_4.writes (Elt F) VO0_4.junk (kernelRun0_A c i arg1 harg1 arg2 harg2 arg3 harg3 arg4 harg4 arg5 harg5 arg6 harg6 arg7 harg7 arg8 harg8 hc0 x0 x1 x2).2.1)
theorem cover0_A_5 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 : Vec F S16x1x32x256 .f32) (y : S1x128.Idx) :
    ∃ pc ∈ (kernelRun0_A c i arg1 harg1 arg2 harg2 arg3 harg3 arg4 harg4 arg5 harg5 arg6 harg6 arg7 harg7 arg8 harg8 hc0 x0 x1 x2).2.2.1, y ∈ pc.1.set :=
  View.cover_of_tiledL (kernelRun0_A c i arg1 harg1 arg2 harg2 arg3 harg3 arg4 harg4 arg5 harg5 arg6 harg6 arg7 harg7 arg8 harg8 hc0 x0 x1 x2).2.2.1 S1x128.size (by sl_kernel_rfl) y
def out0_A_5 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 : Vec F S16x1x32x256 .f32) : Vec F S1x128 .f32 :=
  VO0_5.read (Elt F) (VO0_5.writes (Elt F) VO0_5.junk (kernelRun0_A c i arg1 harg1 arg2 harg2 arg3 harg3 arg4 harg4 arg5 harg5 arg6 harg6 arg7 harg7 arg8 harg8 hc0 x0 x1 x2).2.2.1)
theorem scover0_A_0 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 : Vec F S16x1x32x256 .f32) (y : S1x128.Idx) :
    ∃ pc ∈ (kernelRun0_A c i arg1 harg1 arg2 harg2 arg3 harg3 arg4 harg4 arg5 harg5 arg6 harg6 arg7 harg7 arg8 harg8 hc0 x0 x1 x2).2.2.2.1, y ∈ pc.1.set :=
  View.cover_of_tiledL (kernelRun0_A c i arg1 harg1 arg2 harg2 arg3 harg3 arg4 harg4 arg5 harg5 arg6 harg6 arg7 harg7 arg8 harg8 hc0 x0 x1 x2).2.2.2.1 S1x128.size (by sl_kernel_rfl) y
def sout0_A_0 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 : Vec F S16x1x32x256 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 hc0 x0 x1 x2).2.2.2.1)
theorem scover0_A_1 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 : Vec F S16x1x32x256 .f32) (y : S1x128.Idx) :
    ∃ pc ∈ (kernelRun0_A c i arg1 harg1 arg2 harg2 arg3 harg3 arg4 harg4 arg5 harg5 arg6 harg6 arg7 harg7 arg8 harg8 hc0 x0 x1 x2).2.2.2.2.1, y ∈ pc.1.set :=
  View.cover_of_tiledL (kernelRun0_A c i arg1 harg1 arg2 harg2 arg3 harg3 arg4 harg4 arg5 harg5 arg6 harg6 arg7 harg7 arg8 harg8 hc0 x0 x1 x2).2.2.2.2.1 S1x128.size (by sl_kernel_rfl) y
def sout0_A_1 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 : Vec F S16x1x32x256 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 hc0 x0 x1 x2).2.2.2.2.1)

theorem cover0_B_3 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 : Vec F S16x1x32x256 .f32) (xs0 xs1 : Vec F S1x128 .f32) (y : S16x1x32x256.Idx) :
    ∃ pc ∈ (kernelRun0_B c i arg1 harg1 arg2 harg2 arg3 harg3 arg4 harg4 arg5 harg5 arg6 harg6 arg7 harg7 arg8 harg8 hc0 x0 x1 x2 xs0 xs1).1, y ∈ pc.1.set :=
  View.cover_of_tiledL (kernelRun0_B c i arg1 harg1 arg2 harg2 arg3 harg3 arg4 harg4 arg5 harg5 arg6 harg6 arg7 harg7 arg8 harg8 hc0 x0 x1 x2 xs0 xs1).1 S16x1x32x256.size (by sl_kernel_rfl) y
def out0_B_3 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 : Vec F S16x1x32x256 .f32) (xs0 xs1 : Vec F S1x128 .f32) : Vec F S16x1x32x256 .f32 :=
  VO0_3.read (Elt F) (VO0_3.writes (Elt F) VO0_3.junk (kernelRun0_B c i arg1 harg1 arg2 harg2 arg3 harg3 arg4 harg4 arg5 harg5 arg6 harg6 arg7 harg7 arg8 harg8 hc0 x0 x1 x2 xs0 xs1).1)
theorem cover0_B_4 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 : Vec F S16x1x32x256 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 hc0 x0 x1 x2 xs0 xs1).2.1, y ∈ pc.1.set :=
  View.cover_of_tiledL (kernelRun0_B c i arg1 harg1 arg2 harg2 arg3 harg3 arg4 harg4 arg5 harg5 arg6 harg6 arg7 harg7 arg8 harg8 hc0 x0 x1 x2 xs0 xs1).2.1 S1x128.size (by sl_kernel_rfl) y
def out0_B_4 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 : Vec F S16x1x32x256 .f32) (xs0 xs1 : Vec F S1x128 .f32) : Vec F S1x128 .f32 :=
  VO0_4.read (Elt F) (VO0_4.writes (Elt F) VO0_4.junk (kernelRun0_B c i arg1 harg1 arg2 harg2 arg3 harg3 arg4 harg4 arg5 harg5 arg6 harg6 arg7 harg7 arg8 harg8 hc0 x0 x1 x2 xs0 xs1).2.1)
theorem cover0_B_5 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 : Vec F S16x1x32x256 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 hc0 x0 x1 x2 xs0 xs1).2.2.1, y ∈ pc.1.set :=
  View.cover_of_tiledL (kernelRun0_B c i arg1 harg1 arg2 harg2 arg3 harg3 arg4 harg4 arg5 harg5 arg6 harg6 arg7 harg7 arg8 harg8 hc0 x0 x1 x2 xs0 xs1).2.2.1 S1x128.size (by sl_kernel_rfl) y
def out0_B_5 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 : Vec F S16x1x32x256 .f32) (xs0 xs1 : Vec F S1x128 .f32) : Vec F S1x128 .f32 :=
  VO0_5.read (Elt F) (VO0_5.writes (Elt F) VO0_5.junk (kernelRun0_B c i arg1 harg1 arg2 harg2 arg3 harg3 arg4 harg4 arg5 harg5 arg6 harg6 arg7 harg7 arg8 harg8 hc0 x0 x1 x2 xs0 xs1).2.2.1)
theorem scover0_B_0 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 : Vec F S16x1x32x256 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 hc0 x0 x1 x2 xs0 xs1).2.2.2.1, y ∈ pc.1.set :=
  View.cover_of_tiledL (kernelRun0_B c i arg1 harg1 arg2 harg2 arg3 harg3 arg4 harg4 arg5 harg5 arg6 harg6 arg7 harg7 arg8 harg8 hc0 x0 x1 x2 xs0 xs1).2.2.2.1 S1x128.size (by sl_kernel_rfl) y
def sout0_B_0 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 : Vec F S16x1x32x256 .f32) (xs0 xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 hc0 x0 x1 x2 xs0 xs1).2.2.2.1)
theorem scover0_B_1 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 : Vec F S16x1x32x256 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 hc0 x0 x1 x2 xs0 xs1).2.2.2.2.1, y ∈ pc.1.set :=
  View.cover_of_tiledL (kernelRun0_B c i arg1 harg1 arg2 harg2 arg3 harg3 arg4 harg4 arg5 harg5 arg6 harg6 arg7 harg7 arg8 harg8 hc0 x0 x1 x2 xs0 xs1).2.2.2.2.1 S1x128.size (by sl_kernel_rfl) y
def sout0_B_1 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 : Vec F S16x1x32x256 .f32) (xs0 xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 hc0 x0 x1 x2 xs0 xs1).2.2.2.2.1)

/-! ## Point by point -/

/-- What the three output buffers and the two carried running-sum buffers hold after the body at position n
    (output block, sum window, sum-of-squares window, running sum, running sum of squares): at the first point the
    zeroing case, afterwards the accumulating case over what the point before left in the two running-sum buffers. -/
def outsAt0 (c : Dev nD) : (n : ℕ) → n < cfg0.N → Vec F S16x1x32x256 .f32 × Vec F S1x128 .f32 × Vec F S1x128 .f32 × Vec F S1x128 .f32 × Vec F S1x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk0 V c 0 ⟨0, hn⟩) (iblk0 V c 1 ⟨0, hn⟩) (iblk0 V c 2 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk0 V c 0 ⟨0, hn⟩) (iblk0 V c 1 ⟨0, hn⟩) (iblk0 V c 2 ⟨0, hn⟩))
  | n + 1, hn => (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2)

theorem outsAt0_A (c : Dev nD) (t : Fin cfg0.N) (h0 : t.val = 0) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk0 V c 0 t) (iblk0 V c 1 t) (iblk0 V c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk0 V c 0 t) (iblk0 V c 1 t) (iblk0 V c 2 t)) := by
  obtain ⟨n, hn⟩ := t
  cases n with
  | zero => exact rfl
  | succ n => exact absurd h0 (Nat.succ_ne_zero n)

theorem outsAt0_B (c : Dev nD) (t : Fin cfg0.N) (h0 : ¬t.val = 0) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact rfl

/-- The region's invariant before position n: before the first point nothing is named; afterwards the two running-sum
    buffers are held at what the point before left in them, beside the untouched rest and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ restS0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ restS0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ restS0 c) ∗ (∃ r, prngReg c r)) := by
  cases n with
  | zero => exact absurd rfl hz
  | succ n => rfl

/-- The proof data of the first kernel on core c. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem leaves0 (c : Dev nD) (w : Fin 6) (t : Fin cfg0.N) :
    (dat0 V c).leavesExact w t = owns (c : Thread nD τ) ((cfg0.win w).stage (cfg0.slots t w)) fullShare ((dat0 V c).after w t) := by
  unfold Dat.leavesExact; rw [liveAt0 w t]; try rfl

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0 V c 0 t, leaves0 V c 1 t, leaves0 V c 2 t, leaves0 V c 3 t, leaves0 V c 4 t, leaves0 V c 5 t,
    after0_0, after0_1, after0_2, after0_3, after0_4, after0_5]
  by_cases h0 : t.val = 0
  · rw [outsAt0_A V c t h0]
    unfold out0_A_3 out0_A_4 out0_A_5 sout0_A_0 sout0_A_1; (try dsimp only)
    rw [PhiS_castSucc V c t, PhiS_zero V c _ _ h0, PhiA0_eq]
    iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ ((hcond0_0 t).mpr h0) (iblk0 V c 0 t) (iblk0 V c 1 t) (iblk0 V c 2 t)).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _ _ _ _ _)
  · rw [outsAt0_B V c t h0]
    unfold out0_B_3 out0_B_4 out0_B_5 sout0_B_0 sout0_B_1; (try dsimp only)
    rw [PhiS_castSucc V c t, PhiS_pos V c _ _ h0]
    iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ _ _ (fun h => h0 ((hcond0_0 t).mp h)) (iblk0 V c 0 t) (iblk0 V c 1 t) (iblk0 V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- What the launch hands the kernel is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the untracked one back: the running-sum buffers' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.Kernel.Hand

end
-- ==== Proof.KernelR1.lean ====
/-
  The second kernel: on one chunk of eight channels it maps every entry x to y · logistic y with y = x · scale + shift,
  scale and shift one number per channel. Its body loads its three input blocks whole and stores its output block whole,
  so what it leaves in the output's buffer is one function of the three blocks; stated at a parameter V, the contents of
  the core's buffers when this kernel is entered.
-/
import proofs.«133421_j61701500174555_1_alg».proof.Proof.Gen.Kernel.Launch
import proofs.«133421_j61701500174555_1_alg».proof.Proof.Gen.Kernel.Skeleton
import proofs.«133421_j61701500174555_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at point t, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S16x8x32x256 := Rect.unit (s := S16x8x32x256) ![0, 0, 0, 0] S16x8x32x256.size inb_S16x8x32x256_S16x8x32x256_0_0_0_0
abbrev r1_1 : Rect S1x8x1x1 := Rect.unit (s := S1x8x1x1) ![0, 0, 0, 0] S1x8x1x1.size inb_S1x8x1x1_S1x8x1x1_0_0_0_0

/-- The output block after the body, from the three input blocks: its one store. -/
def out1_3 (x0 : Vec F S16x8x32x256 .f32) (x1 x2 : Vec F S1x8x1x1 .f32) : Vec F S16x8x32x256 .f32 :=
  View.canon [⟨r1_0, k1_pay1 (View.ld x0 r1_0) (View.ld x1 r1_1) (View.ld x2 r1_1)⟩]

theorem cover1_3 (p0 : Vec F S16x8x32x256 .f32) (y : S16x8x32x256.Idx) :
    ∃ pc ∈ ([⟨r1_0, p0⟩] : List (View.Piece (Elt F) S16x8x32x256 .f32)), y ∈ pc.1.set :=
  View.cover_of_tiled [⟨r1_0, p0⟩] S16x8x32x256.size (by rfl) y

set_option maxHeartbeats 1000000 in
theorem sound_kernel1 (c : Dev nD) (E : Set ℕ) (i : grid1.Coords) (arg1 : Memref sig .tc .vmem S16x8x32x256 .f32) (harg1 : arg1.IsWhole) (arg2 : Memref sig .tc .vmem S1x8x1x1 .f32) (harg2 : arg2.IsWhole) (arg3 : Memref sig .tc .vmem S1x8x1x1 .f32) (harg3 : arg3.IsWhole) (arg4 : Memref sig .tc .vmem S16x8x32x256 .f32) (harg4 : arg4.IsWhole)
    (x0 : Vec F S16x8x32x256 .f32) (x1 x2 : Vec F S1x8x1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__bn_swish_kernel i arg1 harg1 arg2 harg2 arg3 harg3 arg4 harg4) K := by
  simp only [cc1__bn_swish_kernel_eq_skeleton]; unfold cc1__bn_swish_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the second kernel on core c: its arrays as it finds them; after the body at point t each input's
    buffer at its block and the output's at the body's function of the three input blocks. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KernelRun.lean ====
/-
  The whole program as three segments — the first kernel, the 21 host operations that turn the two running sums into a
  per-channel scale and shift, the second kernel — composed from the launch to the return. The contents of the core's
  buffers at each boundary are a fold from the launch memory: a kernel's arrays at what its write-backs leave, a host
  stretch's results at the operations' values. Every weakly fair execution terminates; the five argument arrays end as
  launched, and the result array ends at what the second kernel's write-backs leave.
-/
import proofs.«133421_j61701500174555_1_alg».proof.Proof.KernelR0
import proofs.«133421_j61701500174555_1_alg».proof.Proof.KernelR1
import proofs.«133421_j61701500174555_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b
/-- After the first kernel: its arrays at what the pipeline leaves, every other buffer as entered. -/
def W1 (c : Dev nD) : Valuation τ sig (Elt F) :=
  Pipeline.withArrays spec0 c (W0 m ρ c) fun w => (dat0 (U0 m ρ) c).arrAt w cfg0.N
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev U1 : (c : Dev nD) → (b : Ref sig .tc) → Buf (Elt F) ((c : Thread nD τ).loc b) := fun c b => W1 m ρ c b
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)

/-- After the host operations between the two kernels. -/
abbrev W2 (c : Dev nD) : Valuation τ sig (Elt F) := StableHlo.after hostOps1 (W1 m ρ c)
abbrev U2 : (c : Dev nD) → (b : Ref sig .tc) → Buf (Elt F) ((c : Thread nD τ).loc b) := fun c b => W2 m ρ c b
theorem W2_of (c : Dev nD) (r : Ref sig .tc) (h : r ∉ (hostOps1_W : List (Ref sig .tc))) : W2 m ρ c r = W1 m ρ c r :=
  StableHlo.after_of_writes_sub hostOps1 _ hostOps1_writes h

/-- After the second kernel. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of m ρ c main_arg0 (by decide)
    _ = W0 m ρ c (Proc.devRef .tc main_arg0) := (W1_arr m ρ c 0).trans (((dat0 (U0 m ρ) c).arrAt_in 0 rfl _).trans (A_eq0 (U0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of m ρ c main_arg1 (by decide)
    _ = W0 m ρ c (Proc.devRef .tc main_arg1) := (W1_arr m ρ c 1).trans (((dat0 (U0 m ρ) c).arrAt_in 1 rfl _).trans (A_eq0 (U0 m ρ) c 1))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of m ρ c main_arg2 (by decide)
    _ = W0 m ρ c (Proc.devRef .tc main_arg2) := (W1_arr m ρ c 2).trans (((dat0 (U0 m ρ) c).arrAt_in 2 rfl _).trans (A_eq0 (U0 m ρ) c 2))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of m ρ c main_arg3 (by decide)
    _ = W0 m ρ c (Proc.devRef .tc main_arg3) := W1_of_ne m ρ c main_arg3 (by decide)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of m ρ c main_arg4 (by decide)
    _ = W0 m ρ c (Proc.devRef .tc main_arg4) := W1_of_ne m ρ c main_arg4 (by decide)
    _ = m ((c : Thread nD τ).loc main_arg4) := rfl

/-! ## The proof data family and the thread state -/

abbrev adm0 : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) adm0 p) c
  | ⟨0, _⟩ => fun c => dat0 (U0 m ρ) c
  | ⟨1, _⟩ => fun c => dat1 (U2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
def reg0 : Pipeline.RegionSeg (pcfgs (F := F)) adm0 (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (U0 m ρ c)
  hentry c := by
    rw [Pipeline.ownSems0_none]
    have hsplit := Pipeline.arrays_of_unscopedBufs (p := 0) (pcfgs (F := F)) adm0 (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (U0 m ρ) c)
    unfold Pipeline.ΦA
    iintro ⟨Hp, -, Hr⟩
    isplitl [Hr]; · iexact Hr
    iexact Hp
  hout c := by
    refine BIBase.Entails.trans (hout0 (U0 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm0 (Ix := Unit) (Name := ℕ) (U := Pipeline.UD sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm0 (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (U2 m ρ c)
  hentry c := by
    rw [Pipeline.ownSems0_none]
    have hsplit := Pipeline.arrays_of_unscopedBufs (p := 1) (pcfgs (F := F)) adm0 (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm0 (Ix := Unit) (Name := ℕ) (U := Pipeline.UD sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segsH : List (Pipeline.Seg (pcfgs (F := F)) adm0 (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segsH m ρ) := (main_chain c).trans (by chain_rfl)

set_option backward.isDefEq.respectTransparency.types false in
/-- THE RUN: from any memory with zero counters every weakly fair execution of the program terminates, nothing
    faulting; the result array ends at what the second kernel's write-backs leave, the arguments as launched. -/
theorem run : θ_run defs (onTc (τ := τ) (main (F := F))) ⟨m, fun _ => 0, ρ⟩ (fun r => ∀ c : Dev nD,
      r.2.mem ((c.tc : Thread nD τ).loc main_v19) = (dat1 (U2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm0 (pdats m ρ) () cellOf_inj embL defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v19 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.Kernel.Hand

end
-- ==== Proof.KernelIdealR0A.lean ====
/-
  The first kernel (the per-channel attention block with its running channel sums) run at the grid's FIRST point:
  the branch that zeroes the two running-sum buffers is taken, so those buffers may hold anything on entry.
  Shared here: the branch condition in closed form over the 64 grid points, the staging buffers by name, and the
  region's untouched rest written out buffer by buffer.
-/
import proofs.«133421_j61701500174555_1_alg».proof.Proof.Gen.KernelIdeal.Launch
import proofs.«133421_j61701500174555_1_alg».proof.Proof.Gen.KernelIdeal.Skeleton
import proofs.«133421_j61701500174555_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The condition under which the body zeroes its two running-sum buffers: the grid coordinate is 0. -/
abbrev cond0_0 (i : grid0.Coords) : Prop := (Scalar.cmpi .ne (Scalar.extui (Scalar.cmpi .eq (BitVec.ofNat 32 (i 0).val) 0#32)) 0#32) = 1#1
/-- It holds at the first of the 64 points only. -/
theorem hcond0_0 : ∀ t : Fin cfg0.N, cond0_0 (grid0.coords t) ↔ t.val = 0 :=
  (by decide +kernel : ∀ t : Fin grid0.N, cond0_0 (grid0.coords t) ↔ t.val = 0)

/-- No window of the first kernel is idle at any point: every input is read and every output stored whole at every point. -/
theorem liveAt0 : ∀ (w : Fin 6) (t : Fin cfg0.N), cfg0.idle w (grid0.coords t) = false := by decide +kernel

abbrev ms0_0 (t : Fin cfg0.N) : Memref sig .tc .vmem S16x1x32x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1x32x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x1x32x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x1x32x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
/-- The two running-sum buffers (sum and sum of squares, one lane per channel). -/
abbrev scM0_0 : Memref sig .tc .vmem S1x128 .f32 := Memref.whole cc0_scratch0
abbrev scM0_1 : Memref sig .tc .vmem S1x128 .f32 := Memref.whole cc0_scratch1
abbrev VO0_3 : View sig .tc .vmem S16x1x32x256 .f32 := (Memref.whole cc0_stg3_0 : Memref sig .tc .vmem S16x1x32x256 .f32).view
abbrev VO0_4 : View sig .tc .vmem S1x128 .f32 := (Memref.whole cc0_stg4_0 : Memref sig .tc .vmem S1x128 .f32).view
abbrev VO0_5 : View sig .tc .vmem S1x128 .f32 := (Memref.whole cc0_stg5_0 : Memref sig .tc .vmem S1x128 .f32).view
abbrev VS0_0 : View sig .tc .vmem S1x128 .f32 := scM0_0.view
abbrev VS0_1 : View sig .tc .vmem S1x128 .f32 := scM0_1.view

/-- The second kernel's eight staging buffers, which the first kernel never touches, each at some contents. -/
abbrev restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the region's invariant holds when nothing is tracked: the two running-sum buffers at some contents, the
    second kernel's staging buffers at some contents, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restS0 c) ∗ (∃ r, prngReg c r)) := by
  unfold Pipeline.ΦA; rw [scopedRest0_eq]; simp only [scM0_0, scM0_1, owns_whole]; try rfl

set_option maxHeartbeats 2000000 in
/-- The body at the first point, on whole buffers: the three input blocks at given contents, everything else at
    anything; it ends with the inputs as they were and each other buffer at its stores, as pieces (last first)
    that the run finds. -/
noncomputable def kernelRun0_A (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i)
    (x0 x1 x2 : Vec F S16x1x32x256 .f32) :
    Σ' (L3 : List (View.Piece (Elt F) S16x1x32x256 .f32)) (L4 : List (View.Piece (Elt F) S1x128 .f32)) (L5 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__attn_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    iexists _; iexact H7

end Cert.KernelIdeal.Hand

end
-- ==== Proof.KernelIdealR0B.lean ====
/-
  The first kernel run at every LATER point (grid coordinate ≠ 0): the zeroing branch is skipped, so the two
  running-sum buffers enter at what the point before left in them, and leave at those contents plus this point's
  contribution.
-/
import proofs.«133421_j61701500174555_1_alg».proof.Proof.KernelIdealR0A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
/-- The body at a later point, on whole buffers: the three input blocks and the two running-sum buffers at given
    contents, the three output buffers at anything; it ends with the inputs as they were and each other buffer at its
    stores, as pieces (last first) that the run finds. -/
noncomputable def kernelRun0_B (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i)
    (x0 x1 x2 : Vec F S16x1x32x256 .f32) (xs0 xs1 : Vec F S1x128 .f32) :
    Σ' (L3 : List (View.Piece (Elt F) S16x1x32x256 .f32)) (L4 : List (View.Piece (Elt F) S1x128 .f32)) (L5 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__attn_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2
    obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    iexists _; iexact H7

end Cert.KernelIdeal.Hand

end
-- ==== Proof.KernelIdealR0.lean ====
/-
  The first kernel over its 64 grid points (one channel each), at a parameter V: the contents of the core's buffers when
  the kernel is entered. Per point: what the body leaves in the output block (attention plus residual for that channel),
  in the two statistics windows, and in the two running-sum buffers it carries from point to point; the region's
  invariant names those two buffers' contents after every point; then the per-point obligation.
-/
import proofs.«133421_j61701500174555_1_alg».proof.Proof.KernelIdealR0B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at point t, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves, buffer by buffer: the run's pieces cover the buffer, so they read back as its contents -/

theorem cover0_A_3 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 : Vec F S16x1x32x256 .f32) (y : S16x1x32x256.Idx) :
    ∃ pc ∈ (kernelRun0_A c i arg1 harg1 arg2 harg2 arg3 harg3 arg4 harg4 arg5 harg5 arg6 harg6 arg7 harg7 arg8 harg8 hc0 x0 x1 x2).1, y ∈ pc.1.set :=
  View.cover_of_tiledL (kernelRun0_A c i arg1 harg1 arg2 harg2 arg3 harg3 arg4 harg4 arg5 harg5 arg6 harg6 arg7 harg7 arg8 harg8 hc0 x0 x1 x2).1 S16x1x32x256.size (by sl_kernel_rfl) y
def out0_A_3 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 : Vec F S16x1x32x256 .f32) : Vec F S16x1x32x256 .f32 :=
  VO0_3.read (Elt F) (VO0_3.writes (Elt F) VO0_3.junk (kernelRun0_A c i arg1 harg1 arg2 harg2 arg3 harg3 arg4 harg4 arg5 harg5 arg6 harg6 arg7 harg7 arg8 harg8 hc0 x0 x1 x2).1)
theorem cover0_A_4 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 : Vec F S16x1x32x256 .f32) (y : S1x128.Idx) :
    ∃ pc ∈ (kernelRun0_A c i arg1 harg1 arg2 harg2 arg3 harg3 arg4 harg4 arg5 harg5 arg6 harg6 arg7 harg7 arg8 harg8 hc0 x0 x1 x2).2.1, y ∈ pc.1.set :=
  View.cover_of_tiledL (kernelRun0_A c i arg1 harg1 arg2 harg2 arg3 harg3 arg4 harg4 arg5 harg5 arg6 harg6 arg7 harg7 arg8 harg8 hc0 x0 x1 x2).2.1 S1x128.size (by sl_kernel_rfl) y
def out0_A_4 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 : Vec F S16x1x32x256 .f32) : Vec F S1x128 .f32 :=
  VO0_4.read (Elt F) (VO0_4.writes (Elt F) VO0_4.junk (kernelRun0_A c i arg1 harg1 arg2 harg2 arg3 harg3 arg4 harg4 arg5 harg5 arg6 harg6 arg7 harg7 arg8 harg8 hc0 x0 x1 x2).2.1)
theorem cover0_A_5 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 : Vec F S16x1x32x256 .f32) (y : S1x128.Idx) :
    ∃ pc ∈ (kernelRun0_A c i arg1 harg1 arg2 harg2 arg3 harg3 arg4 harg4 arg5 harg5 arg6 harg6 arg7 harg7 arg8 harg8 hc0 x0 x1 x2).2.2.1, y ∈ pc.1.set :=
  View.cover_of_tiledL (kernelRun0_A c i arg1 harg1 arg2 harg2 arg3 harg3 arg4 harg4 arg5 harg5 arg6 harg6 arg7 harg7 arg8 harg8 hc0 x0 x1 x2).2.2.1 S1x128.size (by sl_kernel_rfl) y
def out0_A_5 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 : Vec F S16x1x32x256 .f32) : Vec F S1x128 .f32 :=
  VO0_5.read (Elt F) (VO0_5.writes (Elt F) VO0_5.junk (kernelRun0_A c i arg1 harg1 arg2 harg2 arg3 harg3 arg4 harg4 arg5 harg5 arg6 harg6 arg7 harg7 arg8 harg8 hc0 x0 x1 x2).2.2.1)
theorem scover0_A_0 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 : Vec F S16x1x32x256 .f32) (y : S1x128.Idx) :
    ∃ pc ∈ (kernelRun0_A c i arg1 harg1 arg2 harg2 arg3 harg3 arg4 harg4 arg5 harg5 arg6 harg6 arg7 harg7 arg8 harg8 hc0 x0 x1 x2).2.2.2.1, y ∈ pc.1.set :=
  View.cover_of_tiledL (kernelRun0_A c i arg1 harg1 arg2 harg2 arg3 harg3 arg4 harg4 arg5 harg5 arg6 harg6 arg7 harg7 arg8 harg8 hc0 x0 x1 x2).2.2.2.1 S1x128.size (by sl_kernel_rfl) y
def sout0_A_0 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 : Vec F S16x1x32x256 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 hc0 x0 x1 x2).2.2.2.1)
theorem scover0_A_1 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 : Vec F S16x1x32x256 .f32) (y : S1x128.Idx) :
    ∃ pc ∈ (kernelRun0_A c i arg1 harg1 arg2 harg2 arg3 harg3 arg4 harg4 arg5 harg5 arg6 harg6 arg7 harg7 arg8 harg8 hc0 x0 x1 x2).2.2.2.2.1, y ∈ pc.1.set :=
  View.cover_of_tiledL (kernelRun0_A c i arg1 harg1 arg2 harg2 arg3 harg3 arg4 harg4 arg5 harg5 arg6 harg6 arg7 harg7 arg8 harg8 hc0 x0 x1 x2).2.2.2.2.1 S1x128.size (by sl_kernel_rfl) y
def sout0_A_1 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 : Vec F S16x1x32x256 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 hc0 x0 x1 x2).2.2.2.2.1)

theorem cover0_B_3 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 : Vec F S16x1x32x256 .f32) (xs0 xs1 : Vec F S1x128 .f32) (y : S16x1x32x256.Idx) :
    ∃ pc ∈ (kernelRun0_B c i arg1 harg1 arg2 harg2 arg3 harg3 arg4 harg4 arg5 harg5 arg6 harg6 arg7 harg7 arg8 harg8 hc0 x0 x1 x2 xs0 xs1).1, y ∈ pc.1.set :=
  View.cover_of_tiledL (kernelRun0_B c i arg1 harg1 arg2 harg2 arg3 harg3 arg4 harg4 arg5 harg5 arg6 harg6 arg7 harg7 arg8 harg8 hc0 x0 x1 x2 xs0 xs1).1 S16x1x32x256.size (by sl_kernel_rfl) y
def out0_B_3 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 : Vec F S16x1x32x256 .f32) (xs0 xs1 : Vec F S1x128 .f32) : Vec F S16x1x32x256 .f32 :=
  VO0_3.read (Elt F) (VO0_3.writes (Elt F) VO0_3.junk (kernelRun0_B c i arg1 harg1 arg2 harg2 arg3 harg3 arg4 harg4 arg5 harg5 arg6 harg6 arg7 harg7 arg8 harg8 hc0 x0 x1 x2 xs0 xs1).1)
theorem cover0_B_4 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 : Vec F S16x1x32x256 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 hc0 x0 x1 x2 xs0 xs1).2.1, y ∈ pc.1.set :=
  View.cover_of_tiledL (kernelRun0_B c i arg1 harg1 arg2 harg2 arg3 harg3 arg4 harg4 arg5 harg5 arg6 harg6 arg7 harg7 arg8 harg8 hc0 x0 x1 x2 xs0 xs1).2.1 S1x128.size (by sl_kernel_rfl) y
def out0_B_4 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 : Vec F S16x1x32x256 .f32) (xs0 xs1 : Vec F S1x128 .f32) : Vec F S1x128 .f32 :=
  VO0_4.read (Elt F) (VO0_4.writes (Elt F) VO0_4.junk (kernelRun0_B c i arg1 harg1 arg2 harg2 arg3 harg3 arg4 harg4 arg5 harg5 arg6 harg6 arg7 harg7 arg8 harg8 hc0 x0 x1 x2 xs0 xs1).2.1)
theorem cover0_B_5 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 : Vec F S16x1x32x256 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 hc0 x0 x1 x2 xs0 xs1).2.2.1, y ∈ pc.1.set :=
  View.cover_of_tiledL (kernelRun0_B c i arg1 harg1 arg2 harg2 arg3 harg3 arg4 harg4 arg5 harg5 arg6 harg6 arg7 harg7 arg8 harg8 hc0 x0 x1 x2 xs0 xs1).2.2.1 S1x128.size (by sl_kernel_rfl) y
def out0_B_5 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 : Vec F S16x1x32x256 .f32) (xs0 xs1 : Vec F S1x128 .f32) : Vec F S1x128 .f32 :=
  VO0_5.read (Elt F) (VO0_5.writes (Elt F) VO0_5.junk (kernelRun0_B c i arg1 harg1 arg2 harg2 arg3 harg3 arg4 harg4 arg5 harg5 arg6 harg6 arg7 harg7 arg8 harg8 hc0 x0 x1 x2 xs0 xs1).2.2.1)
theorem scover0_B_0 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 : Vec F S16x1x32x256 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 hc0 x0 x1 x2 xs0 xs1).2.2.2.1, y ∈ pc.1.set :=
  View.cover_of_tiledL (kernelRun0_B c i arg1 harg1 arg2 harg2 arg3 harg3 arg4 harg4 arg5 harg5 arg6 harg6 arg7 harg7 arg8 harg8 hc0 x0 x1 x2 xs0 xs1).2.2.2.1 S1x128.size (by sl_kernel_rfl) y
def sout0_B_0 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 : Vec F S16x1x32x256 .f32) (xs0 xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 hc0 x0 x1 x2 xs0 xs1).2.2.2.1)
theorem scover0_B_1 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 : Vec F S16x1x32x256 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 hc0 x0 x1 x2 xs0 xs1).2.2.2.2.1, y ∈ pc.1.set :=
  View.cover_of_tiledL (kernelRun0_B c i arg1 harg1 arg2 harg2 arg3 harg3 arg4 harg4 arg5 harg5 arg6 harg6 arg7 harg7 arg8 harg8 hc0 x0 x1 x2 xs0 xs1).2.2.2.2.1 S1x128.size (by sl_kernel_rfl) y
def sout0_B_1 (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 : Vec F S16x1x32x256 .f32) (xs0 xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 hc0 x0 x1 x2 xs0 xs1).2.2.2.2.1)

/-! ## Point by point -/

/-- What the three output buffers and the two carried running-sum buffers hold after the body at position n
    (output block, sum window, sum-of-squares window, running sum, running sum of squares): at the first point the
    zeroing case, afterwards the accumulating case over what the point before left in the two running-sum buffers. -/
def outsAt0 (c : Dev nD) : (n : ℕ) → n < cfg0.N → Vec F S16x1x32x256 .f32 × Vec F S1x128 .f32 × Vec F S1x128 .f32 × Vec F S1x128 .f32 × Vec F S1x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk0 V c 0 ⟨0, hn⟩) (iblk0 V c 1 ⟨0, hn⟩) (iblk0 V c 2 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr rfl) (iblk0 V c 0 ⟨0, hn⟩) (iblk0 V c 1 ⟨0, hn⟩) (iblk0 V c 2 ⟨0, hn⟩))
  | n + 1, hn => (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.2.1 (outsAt0 c n (Nat.lt_of_succ_lt hn)).2.2.2.2)

theorem outsAt0_A (c : Dev nD) (t : Fin cfg0.N) (h0 : t.val = 0) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk0 V c 0 t) (iblk0 V c 1 t) (iblk0 V c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk0 V c 0 t) (iblk0 V c 1 t) (iblk0 V c 2 t)) := by
  obtain ⟨n, hn⟩ := t
  cases n with
  | zero => exact rfl
  | succ n => exact absurd h0 (Nat.succ_ne_zero n)

theorem outsAt0_B (c : Dev nD) (t : Fin cfg0.N) (h0 : ¬t.val = 0) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact rfl

/-- The region's invariant before position n: before the first point nothing is named; afterwards the two running-sum
    buffers are held at what the point before left in them, beside the untouched rest and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ restS0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ restS0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ restS0 c) ∗ (∃ r, prngReg c r)) := by
  cases n with
  | zero => exact absurd rfl hz
  | succ n => rfl

/-- The proof data of the first kernel on core c. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

theorem leaves0 (c : Dev nD) (w : Fin 6) (t : Fin cfg0.N) :
    (dat0 V c).leavesExact w t = owns (c : Thread nD τ) ((cfg0.win w).stage (cfg0.slots t w)) fullShare ((dat0 V c).after w t) := by
  unfold Dat.leavesExact; rw [liveAt0 w t]; try rfl

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0 V c 0 t, leaves0 V c 1 t, leaves0 V c 2 t, leaves0 V c 3 t, leaves0 V c 4 t, leaves0 V c 5 t,
    after0_0, after0_1, after0_2, after0_3, after0_4, after0_5]
  by_cases h0 : t.val = 0
  · rw [outsAt0_A V c t h0]
    unfold out0_A_3 out0_A_4 out0_A_5 sout0_A_0 sout0_A_1; (try dsimp only)
    rw [PhiS_castSucc V c t, PhiS_zero V c _ _ h0, PhiA0_eq]
    iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ ((hcond0_0 t).mpr h0) (iblk0 V c 0 t) (iblk0 V c 1 t) (iblk0 V c 2 t)).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _ _ _ _ _)
  · rw [outsAt0_B V c t h0]
    unfold out0_B_3 out0_B_4 out0_B_5 sout0_B_0 sout0_B_1; (try dsimp only)
    rw [PhiS_castSucc V c t, PhiS_pos V c _ _ h0]
    iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ _ _ (fun h => h0 ((hcond0_0 t).mp h)) (iblk0 V c 0 t) (iblk0 V c 1 t) (iblk0 V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 HR Hg]
    · isplitl [HS0 HS1 HR]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- What the launch hands the kernel is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the untracked one back: the running-sum buffers' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Hand

end
-- ==== Proof.KernelIdealR1.lean ====
/-
  The second kernel: on one chunk of eight channels it maps every entry x to y · logistic y with y = x · scale + shift,
  scale and shift one number per channel. Its body loads its three input blocks whole and stores its output block whole,
  so what it leaves in the output's buffer is one function of the three blocks; stated at a parameter V, the contents of
  the core's buffers when this kernel is entered.
-/
import proofs.«133421_j61701500174555_1_alg».proof.Proof.Gen.KernelIdeal.Launch
import proofs.«133421_j61701500174555_1_alg».proof.Proof.Gen.KernelIdeal.Skeleton
import proofs.«133421_j61701500174555_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window w's block at point t, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S16x8x32x256 := Rect.unit (s := S16x8x32x256) ![0, 0, 0, 0] S16x8x32x256.size inb_S16x8x32x256_S16x8x32x256_0_0_0_0
abbrev r1_1 : Rect S1x8x1x1 := Rect.unit (s := S1x8x1x1) ![0, 0, 0, 0] S1x8x1x1.size inb_S1x8x1x1_S1x8x1x1_0_0_0_0

/-- The output block after the body, from the three input blocks: its one store. -/
def out1_3 (x0 : Vec F S16x8x32x256 .f32) (x1 x2 : Vec F S1x8x1x1 .f32) : Vec F S16x8x32x256 .f32 :=
  View.canon [⟨r1_0, k1_pay1 (View.ld x0 r1_0) (View.ld x1 r1_1) (View.ld x2 r1_1)⟩]

theorem cover1_3 (p0 : Vec F S16x8x32x256 .f32) (y : S16x8x32x256.Idx) :
    ∃ pc ∈ ([⟨r1_0, p0⟩] : List (View.Piece (Elt F) S16x8x32x256 .f32)), y ∈ pc.1.set :=
  View.cover_of_tiled [⟨r1_0, p0⟩] S16x8x32x256.size (by rfl) y

set_option maxHeartbeats 1000000 in
theorem sound_kernel1 (c : Dev nD) (E : Set ℕ) (i : grid1.Coords) (arg1 : Memref sig .tc .vmem S16x8x32x256 .f32) (harg1 : arg1.IsWhole) (arg2 : Memref sig .tc .vmem S1x8x1x1 .f32) (harg2 : arg2.IsWhole) (arg3 : Memref sig .tc .vmem S1x8x1x1 .f32) (harg3 : arg3.IsWhole) (arg4 : Memref sig .tc .vmem S16x8x32x256 .f32) (harg4 : arg4.IsWhole)
    (x0 : Vec F S16x8x32x256 .f32) (x1 x2 : Vec F S1x8x1x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__bn_swish_kernel i arg1 harg1 arg2 harg2 arg3 harg3 arg4 harg4) K := by
  simp only [cc1__bn_swish_kernel_eq_skeleton]; unfold cc1__bn_swish_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the second kernel on core c: its arrays as it finds them; after the body at point t each input's
    buffer at its block and the output's at the body's function of the three input blocks. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdealRun.lean ====
/-
  The whole program as three segments — the first kernel, the 21 host operations that turn the two running sums into a
  per-channel scale and shift, the second kernel — composed from the launch to the return. The contents of the core's
  buffers at each boundary are a fold from the launch memory: a kernel's arrays at what its write-backs leave, a host
  stretch's results at the operations' values. Every weakly fair execution terminates; the five argument arrays end as
  launched, and the result array ends at what the second kernel's write-backs leave.
-/
import proofs.«133421_j61701500174555_1_alg».proof.Proof.KernelIdealR0
import proofs.«133421_j61701500174555_1_alg».proof.Proof.KernelIdealR1
import proofs.«133421_j61701500174555_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b
/-- After the first kernel: its arrays at what the pipeline leaves, every other buffer as entered. -/
def W1 (c : Dev nD) : Valuation τ sig (Elt F) :=
  Pipeline.withArrays spec0 c (W0 m ρ c) fun w => (dat0 (U0 m ρ) c).arrAt w cfg0.N
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev U1 : (c : Dev nD) → (b : Ref sig .tc) → Buf (Elt F) ((c : Thread nD τ).loc b) := fun c b => W1 m ρ c b
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)

/-- After the host operations between the two kernels. -/
abbrev W2 (c : Dev nD) : Valuation τ sig (Elt F) := StableHlo.after hostOps1 (W1 m ρ c)
abbrev U2 : (c : Dev nD) → (b : Ref sig .tc) → Buf (Elt F) ((c : Thread nD τ).loc b) := fun c b => W2 m ρ c b
theorem W2_of (c : Dev nD) (r : Ref sig .tc) (h : r ∉ (hostOps1_W : List (Ref sig .tc))) : W2 m ρ c r = W1 m ρ c r :=
  StableHlo.after_of_writes_sub hostOps1 _ hostOps1_writes h

/-- After the second kernel. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of m ρ c main_arg0 (by decide)
    _ = W0 m ρ c (Proc.devRef .tc main_arg0) := (W1_arr m ρ c 0).trans (((dat0 (U0 m ρ) c).arrAt_in 0 rfl _).trans (A_eq0 (U0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of m ρ c main_arg1 (by decide)
    _ = W0 m ρ c (Proc.devRef .tc main_arg1) := (W1_arr m ρ c 1).trans (((dat0 (U0 m ρ) c).arrAt_in 1 rfl _).trans (A_eq0 (U0 m ρ) c 1))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of m ρ c main_arg2 (by decide)
    _ = W0 m ρ c (Proc.devRef .tc main_arg2) := (W1_arr m ρ c 2).trans (((dat0 (U0 m ρ) c).arrAt_in 2 rfl _).trans (A_eq0 (U0 m ρ) c 2))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of m ρ c main_arg3 (by decide)
    _ = W0 m ρ c (Proc.devRef .tc main_arg3) := W1_of_ne m ρ c main_arg3 (by decide)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of m ρ c main_arg4 (by decide)
    _ = W0 m ρ c (Proc.devRef .tc main_arg4) := W1_of_ne m ρ c main_arg4 (by decide)
    _ = m ((c : Thread nD τ).loc main_arg4) := rfl

/-! ## The proof data family and the thread state -/

abbrev adm0 : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) adm0 p) c
  | ⟨0, _⟩ => fun c => dat0 (U0 m ρ) c
  | ⟨1, _⟩ => fun c => dat1 (U2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
def reg0 : Pipeline.RegionSeg (pcfgs (F := F)) adm0 (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (U0 m ρ c)
  hentry c := by
    rw [Pipeline.ownSems0_none]
    have hsplit := Pipeline.arrays_of_unscopedBufs (p := 0) (pcfgs (F := F)) adm0 (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (U0 m ρ) c)
    unfold Pipeline.ΦA
    iintro ⟨Hp, -, Hr⟩
    isplitl [Hr]; · iexact Hr
    iexact Hp
  hout c := by
    refine BIBase.Entails.trans (hout0 (U0 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm0 (Ix := Unit) (Name := ℕ) (U := Pipeline.UD sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm0 (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (U2 m ρ c)
  hentry c := by
    rw [Pipeline.ownSems0_none]
    have hsplit := Pipeline.arrays_of_unscopedBufs (p := 1) (pcfgs (F := F)) adm0 (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm0 (Ix := Unit) (Name := ℕ) (U := Pipeline.UD sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segsH : List (Pipeline.Seg (pcfgs (F := F)) adm0 (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segsH m ρ) := (main_chain c).trans (by chain_rfl)

set_option backward.isDefEq.respectTransparency.types false in
/-- THE RUN: from any memory with zero counters every weakly fair execution of the program terminates, nothing
    faulting; the result array ends at what the second kernel's write-backs leave, the arguments as launched. -/
theorem run : θ_run defs (onTc (τ := τ) (main (F := F))) ⟨m, fun _ => 0, ρ⟩ (fun r => ∀ c : Dev nD,
      r.2.mem ((c.tc : Thread nD τ).loc main_v19) = (dat1 (U2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm0 (pdats m ρ) () cellOf_inj embL defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v19 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.Hand

end
-- ==== Proof.KIPieces.lean ====
/-
  What each case of the first kernel's body leaves, buffer by buffer, as a term of the loaded blocks: the output block is
  the attention payload of the three input blocks; each running-sum buffer is its previous contents (zero at the first
  point) plus the one-hot lane vector of the grid coordinate times this point's total; each statistics window is a copy of
  its running-sum buffer.
-/
import proofs.«133421_j61701500174555_1_alg».proof.Proof.KernelIdealR0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem hzP2 : (![0, 0] : Fin 2 → Nat) = fun _ => 0 := funext fun a => by fin_cases a <;> rfl
theorem hzP4 : (![0, 0, 0, 0] : Fin 4 → Nat) = fun _ => 0 := funext fun a => by fin_cases a <;> rfl

theorem out0_A_3_eq (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 : Vec F S16x1x32x256 .f32) :
    out0_A_3 c i arg1 harg1 arg2 harg2 arg3 harg3 arg4 harg4 arg5 harg5 arg6 harg6 arg7 harg7 arg8 harg8 hc0 x0 x1 x2 = k0_pay7 x0 x1 x2 := by
  unfold out0_A_3
  rw [View.read_writes_eq_canon _ _ _ (cover0_A_3 c i arg1 harg1 arg2 harg2 arg3 harg3 arg4 harg4 arg5 harg5 arg6 harg6 arg7 harg7 arg8 harg8 hc0 x0 x1 x2)]
  unfold kernelRun0_A
  dsimp only
  try sl_unfold_words
  rw [View.canon_unit_zero hzP4]
  simp only [View.readAt_eq_ld, harg1.read_unread, harg2.read_unread, harg3.read_unread, harg7.read_unread, harg8.read_unread, View.ld_unit_zero (S := S16x1x32x256) hzP4, View.ld_unit_zero (S := S1x128) hzP2]

theorem sout0_A_0_eq (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 : Vec F S16x1x32x256 .f32) :
    sout0_A_0 c i arg1 harg1 arg2 harg2 arg3 harg3 arg4 harg4 arg5 harg5 arg6 harg6 arg7 harg7 arg8 harg8 hc0 x0 x1 x2 = k0_pay2 (BitVec.ofNat 32 (i 0).val) (k0_pay8 x0 x1 x2) k0_pay4 := by
  unfold sout0_A_0
  rw [View.read_writes_eq_canon _ _ _ (scover0_A_0 c i arg1 harg1 arg2 harg2 arg3 harg3 arg4 harg4 arg5 harg5 arg6 harg6 arg7 harg7 arg8 harg8 hc0 x0 x1 x2)]
  unfold kernelRun0_A
  dsimp only
  try sl_unfold_words
  rw [View.canon_cons_unit_zero (S := S1x128) hzP2, View.readCov_unit_zero (S := S1x128) _ hzP2]
  simp only [View.readAt_eq_ld, harg1.read_unread, harg2.read_unread, harg3.read_unread, harg7.read_unread, harg8.read_unread, View.ld_unit_zero (S := S16x1x32x256) hzP4, View.ld_unit_zero (S := S1x128) hzP2]

theorem sout0_A_1_eq (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 : Vec F S16x1x32x256 .f32) :
    sout0_A_1 c i arg1 harg1 arg2 harg2 arg3 harg3 arg4 harg4 arg5 harg5 arg6 harg6 arg7 harg7 arg8 harg8 hc0 x0 x1 x2 = k0_pay3 (BitVec.ofNat 32 (i 0).val) (k0_pay9 x0 x1 x2) k0_pay5 := by
  unfold sout0_A_1
  rw [View.read_writes_eq_canon _ _ _ (scover0_A_1 c i arg1 harg1 arg2 harg2 arg3 harg3 arg4 harg4 arg5 harg5 arg6 harg6 arg7 harg7 arg8 harg8 hc0 x0 x1 x2)]
  unfold kernelRun0_A
  dsimp only
  try sl_unfold_words
  rw [View.canon_cons_unit_zero (S := S1x128) hzP2, View.readCov_unit_zero (S := S1x128) _ hzP2]
  simp only [View.readAt_eq_ld, harg1.read_unread, harg2.read_unread, harg3.read_unread, harg7.read_unread, harg8.read_unread, View.ld_unit_zero (S := S16x1x32x256) hzP4, View.ld_unit_zero (S := S1x128) hzP2]

theorem out0_B_3_eq (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 : Vec F S16x1x32x256 .f32) (xs0 xs1 : Vec F S1x128 .f32) :
    out0_B_3 c i arg1 harg1 arg2 harg2 arg3 harg3 arg4 harg4 arg5 harg5 arg6 harg6 arg7 harg7 arg8 harg8 hc0 x0 x1 x2 xs0 xs1 = k0_pay7 x0 x1 x2 := by
  unfold out0_B_3
  rw [View.read_writes_eq_canon _ _ _ (cover0_B_3 c i arg1 harg1 arg2 harg2 arg3 harg3 arg4 harg4 arg5 harg5 arg6 harg6 arg7 harg7 arg8 harg8 hc0 x0 x1 x2 xs0 xs1)]
  unfold kernelRun0_B
  dsimp only
  try sl_unfold_words
  rw [View.canon_unit_zero hzP4]
  simp only [View.readAt_eq_ld, harg1.read_unread, harg2.read_unread, harg3.read_unread, harg7.read_unread, harg8.read_unread, View.ld_unit_zero (S := S16x1x32x256) hzP4, View.ld_unit_zero (S := S1x128) hzP2]

theorem sout0_B_0_eq (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 : Vec F S16x1x32x256 .f32) (xs0 xs1 : Vec F S1x128 .f32) :
    sout0_B_0 c i arg1 harg1 arg2 harg2 arg3 harg3 arg4 harg4 arg5 harg5 arg6 harg6 arg7 harg7 arg8 harg8 hc0 x0 x1 x2 xs0 xs1 = k0_pay2 (BitVec.ofNat 32 (i 0).val) (k0_pay8 x0 x1 x2) xs0 := by
  unfold sout0_B_0
  rw [View.read_writes_eq_canon _ _ _ (scover0_B_0 c i arg1 harg1 arg2 harg2 arg3 harg3 arg4 harg4 arg5 harg5 arg6 harg6 arg7 harg7 arg8 harg8 hc0 x0 x1 x2 xs0 xs1)]
  unfold kernelRun0_B
  dsimp only
  try sl_unfold_words
  rw [View.canon_unit_zero hzP2]
  simp only [View.readAt_eq_ld, harg1.read_unread, harg2.read_unread, harg3.read_unread, harg7.read_unread, harg8.read_unread, View.ld_unit_zero (S := S16x1x32x256) hzP4, View.ld_unit_zero (S := S1x128) hzP2]

theorem sout0_B_1_eq (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 : Vec F S16x1x32x256 .f32) (xs0 xs1 : Vec F S1x128 .f32) :
    sout0_B_1 c i arg1 harg1 arg2 harg2 arg3 harg3 arg4 harg4 arg5 harg5 arg6 harg6 arg7 harg7 arg8 harg8 hc0 x0 x1 x2 xs0 xs1 = k0_pay3 (BitVec.ofNat 32 (i 0).val) (k0_pay9 x0 x1 x2) xs1 := by
  unfold sout0_B_1
  rw [View.read_writes_eq_canon _ _ _ (scover0_B_1 c i arg1 harg1 arg2 harg2 arg3 harg3 arg4 harg4 arg5 harg5 arg6 harg6 arg7 harg7 arg8 harg8 hc0 x0 x1 x2 xs0 xs1)]
  unfold kernelRun0_B
  dsimp only
  try sl_unfold_words
  rw [View.canon_unit_zero hzP2]
  simp only [View.readAt_eq_ld, harg1.read_unread, harg2.read_unread, harg3.read_unread, harg7.read_unread, harg8.read_unread, View.ld_unit_zero (S := S16x1x32x256) hzP4, View.ld_unit_zero (S := S1x128) hzP2]

/-- A load of the whole buffer after stores the last of which was a whole-buffer store reads that store's payload. -/
theorem readCov_cons_unit_zero {Val : EltTy → Type} [∀ e, Nonempty (Val e)] {S : Shape} {e : EltTy} {sig' : RefSig} {κ : Kind} {sp : Space}
    (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨(⟨Rect.unit (fun _ => 0) S.size inb, w⟩ : View.Piece Val S e), by simp, by
    show y ∈ (Rect.whole S).set; rw [Rect.set_whole]; exact Finset.mem_univ y⟩), View.canon_cons_unit_zero rfl, View.ld_unit_zero rfl]

theorem out0_A_4_eq (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 : Vec F S16x1x32x256 .f32) :
    out0_A_4 c i arg1 harg1 arg2 harg2 arg3 harg3 arg4 harg4 arg5 harg5 arg6 harg6 arg7 harg7 arg8 harg8 hc0 x0 x1 x2 = k0_pay2 (BitVec.ofNat 32 (i 0).val) (k0_pay8 x0 x1 x2) k0_pay4 := by
  unfold out0_A_4
  rw [View.read_writes_eq_canon _ _ _ (cover0_A_4 c i arg1 harg1 arg2 harg2 arg3 harg3 arg4 harg4 arg5 harg5 arg6 harg6 arg7 harg7 arg8 harg8 hc0 x0 x1 x2)]
  unfold kernelRun0_A
  dsimp only
  try sl_unfold_words
  rw [View.canon_unit_zero hzP2, readCov_cons_unit_zero _ hzP2, View.readCov_unit_zero (S := S1x128) _ hzP2]
  simp only [View.readAt_eq_ld, harg1.read_unread, harg2.read_unread, harg3.read_unread, harg7.read_unread, harg8.read_unread, View.ld_unit_zero (S := S16x1x32x256) hzP4, View.ld_unit_zero (S := S1x128) hzP2]

theorem out0_A_5_eq (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond0_0 i) (x0 x1 x2 : Vec F S16x1x32x256 .f32) :
    out0_A_5 c i arg1 harg1 arg2 harg2 arg3 harg3 arg4 harg4 arg5 harg5 arg6 harg6 arg7 harg7 arg8 harg8 hc0 x0 x1 x2 = k0_pay3 (BitVec.ofNat 32 (i 0).val) (k0_pay9 x0 x1 x2) k0_pay5 := by
  unfold out0_A_5
  rw [View.read_writes_eq_canon _ _ _ (cover0_A_5 c i arg1 harg1 arg2 harg2 arg3 harg3 arg4 harg4 arg5 harg5 arg6 harg6 arg7 harg7 arg8 harg8 hc0 x0 x1 x2)]
  unfold kernelRun0_A
  dsimp only
  try sl_unfold_words
  rw [View.canon_unit_zero hzP2, readCov_cons_unit_zero _ hzP2, View.readCov_unit_zero (S := S1x128) _ hzP2]
  simp only [View.readAt_eq_ld, harg1.read_unread, harg2.read_unread, harg3.read_unread, harg7.read_unread, harg8.read_unread, View.ld_unit_zero (S := S16x1x32x256) hzP4, View.ld_unit_zero (S := S1x128) hzP2]

theorem out0_B_4_eq (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 : Vec F S16x1x32x256 .f32) (xs0 xs1 : Vec F S1x128 .f32) :
    out0_B_4 c i arg1 harg1 arg2 harg2 arg3 harg3 arg4 harg4 arg5 harg5 arg6 harg6 arg7 harg7 arg8 harg8 hc0 x0 x1 x2 xs0 xs1 = k0_pay2 (BitVec.ofNat 32 (i 0).val) (k0_pay8 x0 x1 x2) xs0 := by
  unfold out0_B_4
  rw [View.read_writes_eq_canon _ _ _ (cover0_B_4 c i arg1 harg1 arg2 harg2 arg3 harg3 arg4 harg4 arg5 harg5 arg6 harg6 arg7 harg7 arg8 harg8 hc0 x0 x1 x2 xs0 xs1)]
  unfold kernelRun0_B
  dsimp only
  try sl_unfold_words
  rw [View.canon_unit_zero hzP2, readCov_cons_unit_zero _ hzP2]
  simp only [View.readAt_eq_ld, harg1.read_unread, harg2.read_unread, harg3.read_unread, harg7.read_unread, harg8.read_unread, View.ld_unit_zero (S := S16x1x32x256) hzP4, View.ld_unit_zero (S := S1x128) hzP2]

theorem out0_B_5_eq (c : Dev nD) (i : grid0.Coords) (arg1 : Memref sig .tc .vmem S16x1x32x256 .f32) (harg1 : arg1.IsWhole) (arg2 : Memref sig .tc .vmem S16x1x32x256 .f32) (harg2 : arg2.IsWhole) (arg3 : Memref sig .tc .vmem S16x1x32x256 .f32) (harg3 : arg3.IsWhole) (arg4 : Memref sig .tc .vmem S16x1x32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond0_0 i) (x0 x1 x2 : Vec F S16x1x32x256 .f32) (xs0 xs1 : Vec F S1x128 .f32) :
    out0_B_5 c i arg1 harg1 arg2 harg2 arg3 harg3 arg4 harg4 arg5 harg5 arg6 harg6 arg7 harg7 arg8 harg8 hc0 x0 x1 x2 xs0 xs1 = k0_pay3 (BitVec.ofNat 32 (i 0).val) (k0_pay9 x0 x1 x2) xs1 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 xs0 xs1)]
  unfold kernelRun0_B
  dsimp only
  try sl_unfold_words
  rw [View.canon_unit_zero hzP2, readCov_cons_unit_zero _ hzP2]
  simp only [View.readAt_eq_ld, harg1.read_unread, harg2.read_unread, harg3.read_unread, harg7.read_unread, harg8.read_unread, View.ld_unit_zero (S := S16x1x32x256) hzP4, View.ld_unit_zero (S := S1x128) hzP2]

end Cert.KernelIdeal.Hand

end
-- ==== Proof.Spec.lean ====
/-
  The mathematics both programs compute, index by index over the extended reals.

  For arrays Q, K, V of shape [16, 64, 32, 256] (batch b, channel c, row h, column w) and per-channel vectors γ, β:
    score(b,c,w,v) = Σ_h Q(b,c,h,w) · K(b,c,h,v)                       (a 256 × 256 table per (b,c))
    prob(b,c,w,v)  = exp(score − max_v score) / Σ_v exp(score − max_v score)   (softmax along v)
    X(b,c,h,w)     = Σ_v V(b,c,h,v) · prob(b,c,w,v) + V(b,c,h,w)        (attention output plus the residual)
  and then a batch normalisation of X per channel (statistics over b, h, w: 16·32·256 = 131072 entries) followed by
  x ↦ x · logistic x.  The two programs spell the normalisation differently:
    * one pass:  mean = S/N, var = SS/N − mean², scale = γ·rsqrt(var + ε), shift = β − mean·scale, xn = X·scale + shift
    * two pass:  mean = S/N, var = Σ(X − mean)²/(N − 0), xn = ((X − mean)·rsqrt(var + ε))·γ + β
  with S = Σ X, SS = Σ X², and the last step written as xn · logistic xn or as xn · (1 / (1 + exp(−xn))).
  The float literals stay as their words (N = 0x48000000 = 131072, ε = 0x3727C5AC, 1 = 0x3F800000).
-/
import Idealize.ShloMosaic.PureOps.Ideal
import Idealize.ShloMosaic.Lib.ValueIdx

noncomputable section

namespace Cert.AttnBN

open Idealize.ShloMosaic Idealize.ShloMosaic.ValueIdx

/-- The shape [16, 64, 32, 256] of the three big arguments and of the result. -/
abbrev A4 : Shape := ⟨4, ![16, 64, 32, 256]⟩
/-- The shape [64] of the two per-channel arguments. -/
abbrev A1 : Shape := ⟨1, ![64]⟩

variable (Q K V : A4.Idx → EReal) (γ β : A1.Idx → EReal)

/-- score(b,c,w,v) = Σ_h Q(b,c,h,w) · K(b,c,h,v). -/
def score (b : Fin 16) (c : Fin 64) (w v : Fin 256) : EReal :=
  ∑ h : Fin 32, Q (ix4 b c h w) * K (ix4 b c h v)

/-- The row maximum max_v score(b,c,w,v), folded from −∞. -/
def rowMax (b : Fin 16) (c : Fin 64) (w : Fin 256) : EReal :=
  (Finset.univ : Finset (Fin 256)).fold max ⊥ (fun v => score Q K b c w v)

/-- exp(score − rowMax). -/
def ex (b : Fin 16) (c : Fin 64) (w v : Fin 256) : EReal :=
  Ideal.exp (score Q K b c w v - rowMax Q K b c w)

/-- The softmax denominator Σ_v exp(score − rowMax). -/
def den (b : Fin 16) (c : Fin 64) (w : Fin 256) : EReal :=
  ∑ v : Fin 256, ex Q K b c w v

/-- The softmax weight. -/
def prob (b : Fin 16) (c : Fin 64) (w v : Fin 256) : EReal :=
  Ideal.div (ex Q K b c w v) (den Q K b c w)

/-- Attention output plus residual, by coordinates. -/
def Xc (b : Fin 16) (c : Fin 64) (h : Fin 32) (w : Fin 256) : EReal :=
  (∑ v : Fin 256, V (ix4 b c h v) * prob Q K b c w v) + V (ix4 b c h w)

/-- The same as an array. -/
def X : A4.Idx → EReal := fun i => Xc Q K V (i 0) (i 1) (i 2) (i 3)

/-- The sum over batch, row and column of channel `c` of an array of shape [16, 64, 32, 256]. -/
def chanSum (f : A4.Idx → EReal) (c : Fin 64) : EReal :=
  ∑ b : Fin 16, ∑ h : Fin 32, ∑ w : Fin 256, f (ix4 b c h w)

/-- The count 131072 = 16·32·256 as the f32 word both programs divide by. -/
def cN : EReal := Ideal.ofBits .f32 0x48000000#32
/-- The batch-norm epsilon as its f32 word. -/
def cEps : EReal := Ideal.ofBits .f32 0x3727C5AC#32
/-- The f32 word of 1. -/
def cOne : EReal := Ideal.ofBits .f32 0x3F800000#32

/-! ### One-pass spelling (sums of X and of X², folded scale and shift, the logistic as one operation) -/

def meanK (c : Fin 64) : EReal := Ideal.div (chanSum (X Q K V) c) cN
def msqK (c : Fin 64) : EReal := Ideal.div (chanSum (fun i => X Q K V i * X Q K V i) c) cN
def varK (c : Fin 64) : EReal := msqK Q K V c - meanK Q K V c * meanK Q K V c
def scaleK (c : Fin 64) : EReal := γ (ix1 c) * Ideal.rsqrt (varK Q K V c + cEps)
def shiftK (c : Fin 64) : EReal := β (ix1 c) - meanK Q K V c * scaleK Q K V γ c
def xnK (i : A4.Idx) : EReal := X Q K V i * scaleK Q K V γ (i 1) + shiftK Q K V γ β (i 1)
/-- The result in the one-pass spelling. -/
def outK : A4.Idx → EReal := fun i => xnK Q K V γ β i * Ideal.logistic (xnK Q K V γ β i)

/-! ### Two-pass spelling (centred squares, the affine map applied last, the logistic expanded) -/

def meanR (c : Fin 64) : EReal := Ideal.div (chanSum (X Q K V) c) cN
/-- The divisor N − 0 of the centred second moment (the zero is the integer 0 converted). -/
def cN' : EReal := cN - (((0#32 : BitVec 32).toInt : ℝ) : EReal)
def varR (c : Fin 64) : EReal :=
  Ideal.div (chanSum (fun i => (X Q K V i - meanR Q K V (i 1)) * (X Q K V i - meanR Q K V (i 1))) c) cN'
def xnR (i : A4.Idx) : EReal :=
  ((X Q K V i - meanR Q K V (i 1)) * Ideal.rsqrt (varR Q K V (i 1) + cEps)) * γ (ix1 (i 1)) + β (ix1 (i 1))
/-- The result in the two-pass spelling. -/
def outR : A4.Idx → EReal := fun i =>
  xnR Q K V γ β i * Ideal.div cOne (cOne + Ideal.exp (-(xnR Q K V γ β i)))

end Cert.AttnBN

end
-- ==== Proof.PayAttn.lean ====
/-
  The attention block of the first kernel, read at an index over the extended reals.

  The body takes the three loaded blocks x0, x1, x2 of shape [16,1,32,256] (channel c of Q, K, V), views each as
  [16,32,256], and computes
    S(b,w,v) = Σ_h x0(b,h,w) · x1(b,h,v)                       (a product contracted over the row axis)
    m(b,w)   = max(−∞, max_v S(b,w,v))                         (a lane maximum started from −∞)
    E(b,w,v) = exp(S(b,w,v) − m(b,w)),   D(b,w) = Σ_v E(b,w,v)
    P(b,w,v) = E(b,w,v) / D(b,w)
    out(b,h,w) = Σ_v x2(b,h,v) · P(b,w,v) + x2(b,h,w)           (a product contracted over the column axis, plus the residual).
  Each non-pointwise step is read at an index by one small lemma (a cast that drops or adds a unit axis keeps the
  row-major position; a one-axis reduction ranges over the inserted coordinate; a product into the zero accumulator is the
  sum over its one contracted axis), and the chain is the specification's Xc at channel c.
-/
import proofs.«133421_j61701500174555_1_alg».proof.Proof.Gen.KernelIdeal.Skeleton
import proofs.«133421_j61701500174555_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay.Attn

open Cert.KernelIdeal Cert.KernelIdeal.Gen Cert.AttnBN Idealize.ShloMosaic Idealize.ShloMosaic.ValueIdx

/-! ### The two products' operand indices, axis by axis

For the first product (batch axis 0, contracted row axis 1, free column axes) the result index (b,w,v) with
contraction coordinate k reads the operands at (b,k,w) and (b,k,v); for the second (batch axis 0, free axis 1,
contracted column axis 2) the result index (b,h,w) reads them at (b,h,k) and (b,w,k). -/

theorem lhsA_0 (i : S16x256x256.Idx) (q : dot_S16x32x256_S16x32x256_S16x256x256_1_1_2_2_0_0.contr.Idx) :
    (dot_S16x32x256_S16x32x256_S16x256x256_1_1_2_2_0_0.lhsIdx i q 0).val = (i 0).val := by
  unfold DotDims.lhsIdx
  rw [dif_pos (show (0 : Fin S16x32x256.rank) ∈ dot_S16x32x256_S16x32x256_S16x256x256_1_1_2_2_0_0.lhsBatch by decide)]
  rfl

theorem lhsA_1 (i : S16x256x256.Idx) (q : dot_S16x32x256_S16x32x256_S16x256x256_1_1_2_2_0_0.contr.Idx) :
    (dot_S16x32x256_S16x32x256_S16x256x256_1_1_2_2_0_0.lhsIdx i q 1).val = (q ⟨0, by decide⟩).val :=
  dot_S16x32x256_S16x32x256_S16x256x256_1_1_2_2_0_0.lhsIdx_val_of_single rfl i q

theorem lhsA_2 (i : S16x256x256.Idx) (q : dot_S16x32x256_S16x32x256_S16x256x256_1_1_2_2_0_0.contr.Idx) :
    (dot_S16x32x256_S16x32x256_S16x256x256_1_1_2_2_0_0.lhsIdx i q 2).val = (i 1).val := by
  unfold DotDims.lhsIdx
  rw [dif_neg (show ¬(2 : Fin S16x32x256.rank) ∈ dot_S16x32x256_S16x32x256_S16x256x256_1_1_2_2_0_0.lhsBatch by decide), dif_pos (show (2 : Fin S16x32x256.rank) ∈ dot_S16x32x256_S16x32x256_S16x256x256_1_1_2_2_0_0.lhsNonContracting by decide)]
  rfl

theorem rhsA_0 (i : S16x256x256.Idx) (q : dot_S16x32x256_S16x32x256_S16x256x256_1_1_2_2_0_0.contr.Idx) :
    (dot_S16x32x256_S16x32x256_S16x256x256_1_1_2_2_0_0.rhsIdx i q 0).val = (i 0).val := by
  unfold DotDims.rhsIdx
  rw [dif_pos (show (0 : Fin S16x32x256.rank) ∈ dot_S16x32x256_S16x32x256_S16x256x256_1_1_2_2_0_0.rhsBatch by decide)]
  rfl

theorem rhsA_1 (i : S16x256x256.Idx) (q : dot_S16x32x256_S16x32x256_S16x256x256_1_1_2_2_0_0.contr.Idx) :
    (dot_S16x32x256_S16x32x256_S16x256x256_1_1_2_2_0_0.rhsIdx i q 1).val = (q ⟨0, by decide⟩).val :=
  dot_S16x32x256_S16x32x256_S16x256x256_1_1_2_2_0_0.rhsIdx_val_of_single rfl i q

theorem rhsA_2 (i : S16x256x256.Idx) (q : dot_S16x32x256_S16x32x256_S16x256x256_1_1_2_2_0_0.contr.Idx) :
    (dot_S16x32x256_S16x32x256_S16x256x256_1_1_2_2_0_0.rhsIdx i q 2).val = (i 2).val := by
  unfold DotDims.rhsIdx
  rw [dif_neg (show ¬(2 : Fin S16x32x256.rank) ∈ dot_S16x32x256_S16x32x256_S16x256x256_1_1_2_2_0_0.rhsBatch by decide), dif_pos (show (2 : Fin S16x32x256.rank) ∈ dot_S16x32x256_S16x32x256_S16x256x256_1_1_2_2_0_0.rhsNonContracting by decide)]
  rfl

theorem lhsB_0 (i : S16x32x256.Idx) (q : dot_S16x32x256_S16x256x256_S16x32x256_2_2_1_1_0_0.contr.Idx) :
    (dot_S16x32x256_S16x256x256_S16x32x256_2_2_1_1_0_0.lhsIdx i q 0).val = (i 0).val := by
  unfold DotDims.lhsIdx
  rw [dif_pos (show (0 : Fin S16x32x256.rank) ∈ dot_S16x32x256_S16x256x256_S16x32x256_2_2_1_1_0_0.lhsBatch by decide)]
  rfl

theorem lhsB_1 (i : S16x32x256.Idx) (q : dot_S16x32x256_S16x256x256_S16x32x256_2_2_1_1_0_0.contr.Idx) :
    (dot_S16x32x256_S16x256x256_S16x32x256_2_2_1_1_0_0.lhsIdx i q 1).val = (i 1).val := by
  unfold DotDims.lhsIdx
  rw [dif_neg (show ¬(1 : Fin S16x32x256.rank) ∈ dot_S16x32x256_S16x256x256_S16x32x256_2_2_1_1_0_0.lhsBatch by decide), dif_pos (show (1 : Fin S16x32x256.rank) ∈ dot_S16x32x256_S16x256x256_S16x32x256_2_2_1_1_0_0.lhsNonContracting by decide)]
  rfl

theorem lhsB_2 (i : S16x32x256.Idx) (q : dot_S16x32x256_S16x256x256_S16x32x256_2_2_1_1_0_0.contr.Idx) :
    (dot_S16x32x256_S16x256x256_S16x32x256_2_2_1_1_0_0.lhsIdx i q 2).val = (q ⟨0, by decide⟩).val :=
  dot_S16x32x256_S16x256x256_S16x32x256_2_2_1_1_0_0.lhsIdx_val_of_single rfl i q

theorem rhsB_0 (i : S16x32x256.Idx) (q : dot_S16x32x256_S16x256x256_S16x32x256_2_2_1_1_0_0.contr.Idx) :
    (dot_S16x32x256_S16x256x256_S16x32x256_2_2_1_1_0_0.rhsIdx i q 0).val = (i 0).val := by
  unfold DotDims.rhsIdx
  rw [dif_pos (show (0 : Fin S16x256x256.rank) ∈ dot_S16x32x256_S16x256x256_S16x32x256_2_2_1_1_0_0.rhsBatch by decide)]
  rfl

theorem rhsB_1 (i : S16x32x256.Idx) (q : dot_S16x32x256_S16x256x256_S16x32x256_2_2_1_1_0_0.contr.Idx) :
    (dot_S16x32x256_S16x256x256_S16x32x256_2_2_1_1_0_0.rhsIdx i q 1).val = (i 2).val := by
  unfold DotDims.rhsIdx
  rw [dif_neg (show ¬(1 : Fin S16x256x256.rank) ∈ dot_S16x32x256_S16x256x256_S16x32x256_2_2_1_1_0_0.rhsBatch by decide), dif_pos (show (1 : Fin S16x256x256.rank) ∈ dot_S16x32x256_S16x256x256_S16x32x256_2_2_1_1_0_0.rhsNonContracting by decide)]
  rfl

theorem rhsB_2 (i : S16x32x256.Idx) (q : dot_S16x32x256_S16x256x256_S16x32x256_2_2_1_1_0_0.contr.Idx) :
    (dot_S16x32x256_S16x256x256_S16x32x256_2_2_1_1_0_0.rhsIdx i q 2).val = (q ⟨0, by decide⟩).val :=
  dot_S16x32x256_S16x256x256_S16x32x256_2_2_1_1_0_0.rhsIdx_val_of_single rfl i q

/-- The first product, contracted over the row axis h: entry (b,w,v) of the table is Σ_h a(b,h,w) · c(b,h,v). -/
theorem scoreMat_apply (a c : FVec Ideal S16x32x256 .f32) (b : Fin 16) (w v : Fin 256) :
    matmul dot_S16x32x256_S16x32x256_S16x256x256_1_1_2_2_0_0 none a c (constant (F := Ideal) S16x256x256 .f32 0x00000000#32) (ix3 b w v)
      = ∑ h : Fin 32, a (ix3 b h w) * c (ix3 b h v) := by
  refine (Ideal.matmul_constant_zero_apply dot_S16x32x256_S16x32x256_S16x256x256_1_1_2_2_0_0 none a c (ix3 b w v)).trans ?_
  rw [← Equiv.sum_comp (contrEquiv1 dot_S16x32x256_S16x32x256_S16x256x256_1_1_2_2_0_0 32 rfl rfl).symm]
  refine Finset.sum_congr rfl fun k _ => ?_
  have hk := contrEquiv1_symm_val dot_S16x32x256_S16x32x256_S16x256x256_1_1_2_2_0_0 32 rfl rfl k
  have el : dot_S16x32x256_S16x32x256_S16x256x256_1_1_2_2_0_0.lhsIdx (ix3 b w v) ((contrEquiv1 dot_S16x32x256_S16x32x256_S16x256x256_1_1_2_2_0_0 32 rfl rfl).symm k) = ix3 b k w :=
    funext fun ax => Fin.ext (by
      match ax with
      | ⟨0, _⟩ => exact lhsA_0 _ _
      | ⟨1, _⟩ => exact (lhsA_1 _ _).trans hk
      | ⟨2, _⟩ => exact lhsA_2 _ _)
  have er : dot_S16x32x256_S16x32x256_S16x256x256_1_1_2_2_0_0.rhsIdx (ix3 b w v) ((contrEquiv1 dot_S16x32x256_S16x32x256_S16x256x256_1_1_2_2_0_0 32 rfl rfl).symm k) = ix3 b k v :=
    funext fun ax => Fin.ext (by
      match ax with
      | ⟨0, _⟩ => exact rhsA_0 _ _
      | ⟨1, _⟩ => exact (rhsA_1 _ _).trans hk
      | ⟨2, _⟩ => exact rhsA_2 _ _)
  rw [el, er]

/-- The second product, contracted over the column axis v: entry (b,h,w) is Σ_v a(b,h,v) · p(b,w,v). -/
theorem outMat_apply (a : FVec Ideal S16x32x256 .f32) (p : FVec Ideal S16x256x256 .f32)
    (b : Fin 16) (h : Fin 32) (w : Fin 256) :
    matmul dot_S16x32x256_S16x256x256_S16x32x256_2_2_1_1_0_0 none a p (constant (F := Ideal) S16x32x256 .f32 0x00000000#32) (ix3 b h w)
      = ∑ v : Fin 256, a (ix3 b h v) * p (ix3 b w v) := by
  refine (Ideal.matmul_constant_zero_apply dot_S16x32x256_S16x256x256_S16x32x256_2_2_1_1_0_0 none a p (ix3 b h w)).trans ?_
  rw [← Equiv.sum_comp (contrEquiv1 dot_S16x32x256_S16x256x256_S16x32x256_2_2_1_1_0_0 256 rfl rfl).symm]
  refine Finset.sum_congr rfl fun k _ => ?_
  have hk := contrEquiv1_symm_val dot_S16x32x256_S16x256x256_S16x32x256_2_2_1_1_0_0 256 rfl rfl k
  have el : dot_S16x32x256_S16x256x256_S16x32x256_2_2_1_1_0_0.lhsIdx (ix3 b h w) ((contrEquiv1 dot_S16x32x256_S16x256x256_S16x32x256_2_2_1_1_0_0 256 rfl rfl).symm k) = ix3 b h k :=
    funext fun ax => Fin.ext (by
      match ax with
      | ⟨0, _⟩ => exact lhsB_0 _ _
      | ⟨1, _⟩ => exact lhsB_1 _ _
      | ⟨2, _⟩ => exact (lhsB_2 _ _).trans hk)
  have er : dot_S16x32x256_S16x256x256_S16x32x256_2_2_1_1_0_0.rhsIdx (ix3 b h w) ((contrEquiv1 dot_S16x32x256_S16x256x256_S16x32x256_2_2_1_1_0_0 256 rfl rfl).symm k) = ix3 b w k :=
    funext fun ax => Fin.ext (by
      match ax with
      | ⟨0, _⟩ => exact rhsB_0 _ _
      | ⟨1, _⟩ => exact rhsB_1 _ _
      | ⟨2, _⟩ => exact (rhsB_2 _ _).trans hk)
  rw [el, er]

/-- The block [16,1,32,256] viewed [16,32,256]: entry (b,h,w) is entry (b,0,h,w). -/
theorem cast_apply (x : Vec Ideal S16x1x32x256 .f32) (hc : S16x1x32x256.ShapeCasts S16x32x256)
    (b : Fin 16) (h : Fin 32) (w : Fin 256) :
    shapeCast S16x32x256 x hc (ix3 b h w) = x (ix4 b (0 : Fin 1) h w) :=
  shapeCast_apply x hc _ _ (by
    rw [Shape.rowMajor_val_four, Shape.rowMajor_val_three]
    show ((b.val * 1 + 0) * 32 + h.val) * 256 + w.val = (b.val * 32 + h.val) * 256 + w.val
    omega)

/-- Over a reduction along the last axis of [16,256,256], the source index above (b,w) with coordinate v is (b,w,v). -/
theorem lift2_eq (hr : S16x256x256.Reduces [2] S16x256) (b : Fin 16) (w v : Fin 256) :
    hr.lift (ix2 b w) v = ix3 b w v := by
  funext c
  apply Fin.ext
  match c with
  | ⟨0, _⟩ => rfl
  | ⟨1, _⟩ => rfl
  | ⟨2, _⟩ => rfl

/-- The word 0xFF800000 is −∞, the bottom of the extended reals. -/
theorem negInf_eq : Ideal.ofBits .f32 0xFF800000#32 = (⊥ : EReal) := by
  simp [Ideal.ofBits, Ideal.ieee]

/-- A lane maximum from −∞ along the last axis: the fold of max from ⊥ over the columns. -/
theorem laneMax_apply (s : FVec Ideal S16x256x256 .f32) (hr : S16x256x256.Reduces [2] S16x256)
    (hφ : FKind.Formats .f32) (hacc : (0xFF800000#32 : BitVec 32) = FKind.maximumf.neutral .f32 hφ)
    (b : Fin 16) (w : Fin 256) :
    multiReduction .maximumf [2] S16x256 s 0xFF800000#32 hr hφ hacc (ix2 b w)
      = (Finset.univ : Finset (Fin 256)).fold max ⊥ (fun v => s (ix3 b w v)) := by
  refine (Ideal.multiReduction_maximumf_single s _ hr hφ hacc (ix2 b w)).trans ?_
  show (Finset.univ : Finset (Fin 256)).fold max (Ideal.ofBits .f32 0xFF800000#32) (fun v => s (hr.lift (ix2 b w) v)) = _
  rw [negInf_eq]
  exact congrArg ((Finset.univ : Finset (Fin 256)).fold max ⊥) (funext fun v => congrArg s (lift2_eq hr b w v))

/-- A lane sum along the last axis: the sum over the columns. -/
theorem laneSum_apply (s : FVec Ideal S16x256x256 .f32) (hr : S16x256x256.Reduces [2] S16x256)
    (hφ : FKind.Formats .f32) (hacc : (0x00000000#32 : BitVec 32) = FKind.add.neutral .f32 hφ)
    (b : Fin 16) (w : Fin 256) :
    multiReduction .add [2] S16x256 s 0x00000000#32 hr hφ hacc (ix2 b w) = ∑ v : Fin 256, s (ix3 b w v) := by
  refine (Ideal.multiReduction_add_single s _ hr hφ hacc (ix2 b w)).trans ?_
  exact Finset.sum_congr rfl fun v _ => congrArg s (lift2_eq hr b w v)

/-- A per-row value [16,256] viewed [16,256,1] and spread along the columns reads its row's value everywhere. -/
theorem keepdims_apply (r : FVec Ideal S16x256 .f32) (hc : S16x256.ShapeCasts S16x256x1)
    (hb : S16x256x1.Broadcasts S16x256x256) (b : Fin 16) (w v : Fin 256) :
    broadcastTo S16x256x256 (shapeCast S16x256x1 r hc) hb (ix3 b w v) = r (ix2 b w) := by
  refine (broadcastTo_apply _ hb (ix3 b w v) (ix3 b w (0 : Fin 1)) fun ax => ?_).trans ?_
  · match ax with
    | ⟨0, _⟩ => rfl
    | ⟨1, _⟩ => rfl
    | ⟨2, _⟩ => rfl
  · exact shapeCast_apply r hc _ _ (by
      rw [Shape.rowMajor_val_two, Shape.rowMajor_val_three]
      show b.val * 256 + w.val = (b.val * 256 + w.val) * 1 + 0
      omega)

/-! ### The body's arithmetic, cut into its stages -/

/-- A loaded block [16,1,32,256] viewed [16,32,256]. -/
def blk (x : Vec Ideal S16x1x32x256 .f32) : FVec Ideal S16x32x256 .f32 :=
  shapeCast S16x32x256 x shapeCasts_S16x1x32x256_S16x32x256

/-- The table S of two blocks: the first product into the zero accumulator. -/
def scoreT (a c : FVec Ideal S16x32x256 .f32) : FVec Ideal S16x256x256 .f32 :=
  matmul dot_S16x32x256_S16x32x256_S16x256x256_1_1_2_2_0_0 none a c (constant (F := Ideal) S16x256x256 .f32 0x00000000#32)

/-- The row maxima m of a table: the lane maximum from −∞, joined once more with −∞. -/
def rowMaxT (s : FVec Ideal S16x256x256 .f32) : FVec Ideal S16x256 .f32 :=
  maximumf (broadcast S16x256 (Scalar.ofBits (F := Ideal) .f32 0xFF800000#32))
    (multiReduction .maximumf [2] S16x256 s 0xFF800000#32 reduces_S16x256x256_S16x256 (.inl rfl) rfl)

/-- E = exp(S − m), the row maximum spread along the columns. -/
def expT (s : FVec Ideal S16x256x256 .f32) : FVec Ideal S16x256x256 .f32 :=
  exp (subf s (broadcastTo S16x256x256 (shapeCast S16x256x1 (rowMaxT s) shapeCasts_S16x256_S16x256x1)
    broadcasts_S16x256x1_S16x256x256))

/-- P = E / Σ_v E, the row sum spread along the columns. -/
def probT (e : FVec Ideal S16x256x256 .f32) : FVec Ideal S16x256x256 .f32 :=
  divf e (broadcastTo S16x256x256 (shapeCast S16x256x1
    (multiReduction .add [2] S16x256 e 0x00000000#32 reduces_S16x256x256_S16x256 (.inl rfl) rfl)
    shapeCasts_S16x256_S16x256x1) broadcasts_S16x256x1_S16x256x256)

/-- The second product of a block with a table of weights into the zero accumulator, plus the block. -/
def outT (a : FVec Ideal S16x32x256 .f32) (p : FVec Ideal S16x256x256 .f32) : FVec Ideal S16x32x256 .f32 :=
  addf (matmul dot_S16x32x256_S16x256x256_S16x32x256_2_2_1_1_0_0 none a p (constant (F := Ideal) S16x32x256 .f32 0x00000000#32)) a

/-- The body's result is the second product of the third block with P(E(S)), plus the third block. -/
theorem pay6_eq (x0 x1 x2 : Vec Ideal S16x1x32x256 .f32) :
    k0_pay6 (F := Ideal) x0 x1 x2 = outT (blk x2) (probT (expT (scoreT (blk x0) (blk x1)))) := rfl

/-- A viewed block at (b,h,w) is the loaded block at (b,0,h,w). -/
theorem blk_apply (x : Vec Ideal S16x1x32x256 .f32) (b : Fin 16) (h : Fin 32) (w : Fin 256) :
    blk x (ix3 b h w) = x (ix4 b (0 : Fin 1) h w) :=
  cast_apply x shapeCasts_S16x1x32x256_S16x32x256 b h w

/-- S at (b,w,v). -/
theorem scoreT_apply (a c : FVec Ideal S16x32x256 .f32) (b : Fin 16) (w v : Fin 256) :
    scoreT a c (ix3 b w v) = ∑ h : Fin 32, a (ix3 b h w) * c (ix3 b h v) :=
  scoreMat_apply a c b w v

/-- The splat of the word 0xFF800000 reads ⊥ everywhere. -/
theorem bcast_negInf (b : Fin 16) (w : Fin 256) :
    broadcast S16x256 (Scalar.ofBits (F := Ideal) .f32 0xFF800000#32) (ix2 b w) = (⊥ : EReal) := negInf_eq

/-- The row maxima at (b,w): the fold of max from ⊥ over the row (max ⊥ x = x). -/
theorem rowMaxT_apply (s : FVec Ideal S16x256x256 .f32) (b : Fin 16) (w : Fin 256) :
    rowMaxT s (ix2 b w) = (Finset.univ : Finset (Fin 256)).fold max ⊥ (fun v => s (ix3 b w v)) := by
  unfold rowMaxT
  refine (maximumf_apply _ _ (ix2 b w)).trans ?_
  exact (congrArg₂ max (bcast_negInf b w) (laneMax_apply s _ _ _ b w)).trans (max_eq_right bot_le)

/-- E at (b,w,v). -/
theorem expT_apply (s : FVec Ideal S16x256x256 .f32) (b : Fin 16) (w v : Fin 256) :
    expT s (ix3 b w v)
      = Ideal.exp (s (ix3 b w v) - (Finset.univ : Finset (Fin 256)).fold max ⊥ (fun v' => s (ix3 b w v'))) := by
  show Ideal.exp (s (ix3 b w v) - broadcastTo S16x256x256 (shapeCast S16x256x1 (rowMaxT s) shapeCasts_S16x256_S16x256x1)
    broadcasts_S16x256x1_S16x256x256 (ix3 b w v)) = _
  rw [keepdims_apply, rowMaxT_apply]

/-- P at (b,w,v). -/
theorem probT_apply (e : FVec Ideal S16x256x256 .f32) (b : Fin 16) (w v : Fin 256) :
    probT e (ix3 b w v) = Ideal.div (e (ix3 b w v)) (∑ v' : Fin 256, e (ix3 b w v')) := by
  show Ideal.div (e (ix3 b w v)) (broadcastTo S16x256x256 (shapeCast S16x256x1
    (multiReduction .add [2] S16x256 e 0x00000000#32 reduces_S16x256x256_S16x256 (.inl rfl) rfl)
    shapeCasts_S16x256_S16x256x1) broadcasts_S16x256x1_S16x256x256 (ix3 b w v)) = _
  rw [keepdims_apply]
  exact congrArg (Ideal.div (e (ix3 b w v))) (laneSum_apply e _ _ _ b w)

/-- The result at (b,h,w). -/
theorem outT_apply (a : FVec Ideal S16x32x256 .f32) (p : FVec Ideal S16x256x256 .f32) (b : Fin 16) (h : Fin 32)
    (w : Fin 256) : outT a p (ix3 b h w) = (∑ v : Fin 256, a (ix3 b h v) * p (ix3 b w v)) + a (ix3 b h w) := by
  show matmul dot_S16x32x256_S16x256x256_S16x32x256_2_2_1_1_0_0 none a p (constant (F := Ideal) S16x32x256 .f32 0x00000000#32) (ix3 b h w) + a (ix3 b h w) = _
  rw [outMat_apply]

/-! ### The stages against the specification -/

section Spec
variable (x0 x1 : Vec Ideal S16x1x32x256 .f32) (Q K : A4.Idx → EReal) (c : Fin 64)
  (h0 : ∀ (b : Fin 16) (h : Fin 32) (w : Fin 256), x0 (ix4 b (0 : Fin 1) h w) = Q (ix4 b c h w))
  (h1 : ∀ (b : Fin 16) (h : Fin 32) (w : Fin 256), x1 (ix4 b (0 : Fin 1) h w) = K (ix4 b c h w))
include h0 h1

/-- S of the first two blocks is the specification's score at channel c. -/
theorem scoreT_spec (b : Fin 16) (w v : Fin 256) : scoreT (blk x0) (blk x1) (ix3 b w v) = score Q K b c w v := by
  rw [scoreT_apply]
  unfold score
  exact Finset.sum_congr rfl fun h _ => by rw [blk_apply, blk_apply, h0, h1]

/-- E(S) is the specification's exp(score − rowMax). -/
theorem expT_spec (b : Fin 16) (w v : Fin 256) :
    expT (scoreT (blk x0) (blk x1)) (ix3 b w v) = ex Q K b c w v := by
  rw [expT_apply]
  unfold ex rowMax
  simp only [scoreT_spec x0 x1 Q K c h0 h1]

/-- P(E(S)) is the specification's softmax weight. -/
theorem probT_spec (b : Fin 16) (w v : Fin 256) :
    probT (expT (scoreT (blk x0) (blk x1))) (ix3 b w v) = prob Q K b c w v := by
  rw [probT_apply]
  unfold prob den
  simp only [expT_spec x0 x1 Q K c h0 h1]

end Spec

end Cert.KernelIdeal.Pay.Attn

namespace Cert.KernelIdeal.Pay

open Cert.KernelIdeal Cert.KernelIdeal.Gen Cert.AttnBN Idealize.ShloMosaic Idealize.ShloMosaic.ValueIdx
open Cert.KernelIdeal.Pay.Attn

/-- THE ATTENTION BLOCK AT (b,h,w): when the three loaded blocks hold channel c of Q, K, V, the body's value
    Σ_v x2(b,h,v) · P(b,w,v) + x2(b,h,w) is the specification's Xc at (b,c,h,w). -/
theorem pay6_apply (x0 x1 x2 : Vec Ideal S16x1x32x256 .f32) (Q K V : A4.Idx → EReal) (c : Fin 64)
    (h0 : ∀ (b : Fin 16) (h : Fin 32) (w : Fin 256), x0 (ix4 b (0 : Fin 1) h w) = Q (ix4 b c h w))
    (h1 : ∀ (b : Fin 16) (h : Fin 32) (w : Fin 256), x1 (ix4 b (0 : Fin 1) h w) = K (ix4 b c h w))
    (h2 : ∀ (b : Fin 16) (h : Fin 32) (w : Fin 256), x2 (ix4 b (0 : Fin 1) h w) = V (ix4 b c h w))
    (b : Fin 16) (h : Fin 32) (w : Fin 256) :
    k0_pay6 (F := Ideal) x0 x1 x2 (ix3 b h w) = Xc Q K V b c h w := by
  rw [pay6_eq, outT_apply]
  unfold Xc
  rw [blk_apply, h2]
  refine congrArg (· + V (ix4 b c h w)) ?_
  exact Finset.sum_congr rfl fun v _ => by
    rw [blk_apply, h2, probT_spec x0 x1 Q K c h0 h1]

/-- The stored block [16,1,32,256] at (b,0,h,w): the same value, a unit axis put back. -/
theorem pay7_apply (x0 x1 x2 : Vec Ideal S16x1x32x256 .f32) (Q K V : A4.Idx → EReal) (c : Fin 64)
    (h0 : ∀ (b : Fin 16) (h : Fin 32) (w : Fin 256), x0 (ix4 b (0 : Fin 1) h w) = Q (ix4 b c h w))
    (h1 : ∀ (b : Fin 16) (h : Fin 32) (w : Fin 256), x1 (ix4 b (0 : Fin 1) h w) = K (ix4 b c h w))
    (h2 : ∀ (b : Fin 16) (h : Fin 32) (w : Fin 256), x2 (ix4 b (0 : Fin 1) h w) = V (ix4 b c h w))
    (b : Fin 16) (h : Fin 32) (w : Fin 256) :
    k0_pay7 (F := Ideal) x0 x1 x2 (ix4 b (0 : Fin 1) h w) = Xc Q K V b c h w := by
  unfold k0_pay7
  refine (shapeCast_apply (k0_pay6 (F := Ideal) x0 x1 x2) shapeCasts_S16x32x256_S16x1x32x256 _ (ix3 b h w) ?_).trans
    (pay6_apply x0 x1 x2 Q K V c h0 h1 h2 b h w)
  rw [Shape.rowMajor_val_four, Shape.rowMajor_val_three]
  show (b.val * 32 + h.val) * 256 + w.val = ((b.val * 1 + 0) * 32 + h.val) * 256 + w.val
  omega

end Cert.KernelIdeal.Pay
end
-- ==== Proof.PayStats.lean ====
/-
  The statistics arithmetic of the first kernel, read at an index over the extended reals.

  At grid coordinate t < 64 the lane vector [1,128] "lane = t" is the one-hot vector e_t (1 at lane t, 0 elsewhere):
  lanes are below 128 and t is below 64, so their 32-bit words are equal exactly when the numbers are.
  The two running statistics are updated lane by lane as  old + e_t · total, where the total is the sum of all
  16·32·256 entries of this channel's block (of the block itself, or of its entrywise square); a sum over every
  index of a [1,16,32,256] array is the triple sum over batch, row and column.  The initial vectors are zero.
-/
import proofs.«133421_j61701500174555_1_alg».proof.Proof.Gen.KernelIdeal.Skeleton
import proofs.«133421_j61701500174555_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Cert.AttnBN Idealize.ShloMosaic Idealize.ShloMosaic.ValueIdx

/-! ### A sum over every index of a rank-4 array -/

/-- A rank-4 index set is the product of its four coordinate ranges … -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat}
    (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ### The total of a [1,16,32,256] array -/

/-- The sum of every entry, as the kernel spells it: reduce over axes 1, 2, 3 into [1], view as [1,1,1,1], extract. -/
def tot (v31 : FVec Ideal S1x16x32x256 .f32) : EReal :=
  extractAt ![0, 0, 0, 0] (shapeCast S1x1x1x1 (multiReduction (F := Ideal) .add [1, 2, 3] S1 v31 0x00000000#32
    reduces_S1x16x32x256_S1 (.inl rfl) rfl) shapeCasts_S1_S1x1x1x1) inpos_S1x1x1x1_p0_0_0_0

/-- The total is the triple sum over batch, row and column. -/
theorem tot_eq (v31 : FVec Ideal S1x16x32x256 .f32) :
    tot v31 = ∑ b : Fin 16, ∑ h : Fin 32, ∑ w : Fin 256, v31 (ix4 (0 : Fin 1) b h w) := by
  unfold tot extractAt shapeCast
  refine (Ideal.multiReduction_add_total v31 0x00000000#32 reduces_S1x16x32x256_S1 (by decide) (.inl rfl) rfl _).trans ?_
  rw [sum_idx4, Fin.sum_univ_one]

/-- This channel's total: the sum over batch, row and column of the block. -/
theorem pay8_eq (x0 x1 x2 : Vec Ideal S16x1x32x256 .f32) (Q K V : A4.Idx → EReal) (c : Fin 64)
    (h6 : ∀ (b : Fin 16) (h : Fin 32) (w : Fin 256),
      k0_pay6 (F := Ideal) x0 x1 x2 (ix3 b h w) = Xc Q K V b c h w) :
    k0_pay8 (F := Ideal) x0 x1 x2 = chanSum (X Q K V) c := by
  unfold k0_pay8
  dsimp only
  refine (tot_eq _).trans ?_
  unfold chanSum
  refine Finset.sum_congr rfl fun b _ => Finset.sum_congr rfl fun h _ => Finset.sum_congr rfl fun w _ => ?_
  rw [shapeCast_abc_1abc_apply, h6 b h w]
  rfl

/-- The total of the entrywise square: the sum over batch, row and column of the squares. -/
theorem pay9_total (x0 x1 x2 : Vec Ideal S16x1x32x256 .f32) (Q K V : A4.Idx → EReal) (c : Fin 64)
    (h6 : ∀ (b : Fin 16) (h : Fin 32) (w : Fin 256),
      k0_pay6 (F := Ideal) x0 x1 x2 (ix3 b h w) = Xc Q K V b c h w) :
    tot (k0_pay9 (F := Ideal) x0 x1 x2) = chanSum (fun i => X Q K V i * X Q K V i) c := by
  rw [tot_eq]
  unfold chanSum
  refine Finset.sum_congr rfl fun b _ => Finset.sum_congr rfl fun h _ => Finset.sum_congr rfl fun w _ => ?_
  unfold k0_pay9
  dsimp only
  rw [shapeCast_abc_1abc_apply, mulf_apply, h6 b h w]
  rfl

/-! ### The one-hot lane vector of the grid coordinate -/

/-- For a lane l < 128 and a coordinate t < 64 the comparison word of their 32-bit words, widened and read as
    a signed integer, is 1 when l = t and 0 otherwise. -/
theorem onehot_word (t : ℕ) (ht : t < 64) (l : Fin 128) :
    (((IntOp.cmpi .eq (BitVec.ofNat 32 l.val) (BitVec.ofNat 32 t)).setWidth 32).toInt : ℝ)
      = if l.val = t then 1 else 0 := by
  have hl := l.isLt
  by_cases h : l.val = t
  · rw [if_pos h, h, (IntOp.cmpi_eq).2 rfl]
    norm_num
  · have hne : ¬ (BitVec.ofNat 32 l.val = BitVec.ofNat 32 t) := by
      intro e
      have := congrArg BitVec.toNat e
      simp only [BitVec.toNat_ofNat] at this
      omega
    have h0 : IntOp.cmpi .eq (BitVec.ofNat 32 l.val) (BitVec.ofNat 32 t) = 0#1 :=
      eq_zero_of_ne_one (fun e => hne ((IntOp.cmpi_eq).1 e))
    rw [if_neg h, h0]
    norm_num

theorem pay1_apply (t : ℕ) (ht : t < 64) (l : Fin 128) :
    k0_pay1 (F := Ideal) (BitVec.ofNat 32 t) (ix2 (0 : Fin 1) l) = if l.val = t then (1 : EReal) else 0 := by
  unfold k0_pay1
  dsimp only
  rw [sitofp_apply, extui_apply]
  show ((((IntOp.cmpi .eq (iota .tc S1x128 32 [1] iota_S1x128_d1_w32 (ix2 (0 : Fin 1) l))
      (BitVec.ofNat 32 t)).setWidth 32).toInt : ℝ) : EReal) = _
  rw [iota_single_apply]
  show ((((IntOp.cmpi .eq (BitVec.ofNat 32 l.val) (BitVec.ofNat 32 t)).setWidth 32).toInt : ℝ) : EReal) = _
  rw [onehot_word t ht l]
  split_ifs <;> simp

theorem pay2_apply (t : ℕ) (ht : t < 64) (v29 : EReal) (v40 : Vec Ideal S1x128 .f32) (l : Fin 128) :
    k0_pay2 (F := Ideal) (BitVec.ofNat 32 t) v29 v40 (ix2 (0 : Fin 1) l)
      = v40 (ix2 0 l) + (if l.val = t then (1 : EReal) else 0) * v29 := by
  have h1 := pay1_apply t ht l
  unfold k0_pay2
  rw [shapeCast_self, addf_apply, mulf_apply, broadcast_apply, h1]

theorem pay3_apply (t : ℕ) (ht : t < 64) (v31 : FVec Ideal S1x16x32x256 .f32) (v47 : Vec Ideal S1x128 .f32)
    (l : Fin 128) :
    k0_pay3 (F := Ideal) (BitVec.ofNat 32 t) v31 v47 (ix2 (0 : Fin 1) l)
      = v47 (ix2 0 l) + (if l.val = t then (1 : EReal) else 0) * tot v31 := by
  have h1 := pay1_apply t ht l
  unfold k0_pay3 tot
  rw [shapeCast_self, addf_apply, mulf_apply, broadcast_apply, h1]

theorem pay4_apply (i : S1x128.Idx) : k0_pay4 (F := Ideal) i = 0 := by
  unfold k0_pay4
  rw [shapeCast_self, broadcast_apply]
  exact Ideal.ofBits_zero_f32

theorem pay5_apply (i : S1x128.Idx) : k0_pay5 (F := Ideal) i = 0 := by
  unfold k0_pay5
  rw [shapeCast_self, broadcast_apply]
  exact Ideal.ofBits_zero_f32

end Cert.KernelIdeal.Pay

end
-- ==== Proof.KIValue0.lean ====
/-
  The first kernel's three result arrays as functions of the three arrays it reads, at the ideal instance.

  Grid point t handles channel t: every input block and the output block at t are the slab [16, 1, 32, 256] at channel t,
  so what point t writes back is channel t of the attention-plus-residual array X, and the 64 blocks tile it. The two
  statistics windows are written back once, after the last point, and hold what the two running-sum buffers hold then:
  lane l of the first is the sum of X over channel l (for l < 64, else 0), lane l of the second the sum of X² — by
  induction over the points: a point adds, on its own lane only, its channel's total.
-/
import proofs.«133421_j61701500174555_1_alg».proof.Proof.KIPieces
import proofs.«133421_j61701500174555_1_alg».proof.Proof.PayAttn
import proofs.«133421_j61701500174555_1_alg».proof.Proof.PayStats
import proofs.«133421_j61701500174555_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.Pay Cert.AttnBN
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The printed index maps, decided over the grid: at point t the four big windows' block index is t on the channel axis
    and 0 elsewhere; the two statistics windows' is 0; and the grid coordinate is t. -/
theorem idx_facts0 : ∀ t : Fin cfg0.N,
    (win0_0.index t (0 : Fin 4) = 0 ∧ win0_0.index t (1 : Fin 4) = t.val ∧ win0_0.index t (2 : Fin 4) = 0 ∧ win0_0.index t (3 : Fin 4) = 0)
    ∧ (win0_1.index t (0 : Fin 4) = 0 ∧ win0_1.index t (1 : Fin 4) = t.val ∧ win0_1.index t (2 : Fin 4) = 0 ∧ win0_1.index t (3 : Fin 4) = 0)
    ∧ (win0_2.index t (0 : Fin 4) = 0 ∧ win0_2.index t (1 : Fin 4) = t.val ∧ win0_2.index t (2 : Fin 4) = 0 ∧ win0_2.index t (3 : Fin 4) = 0)
    ∧ (win0_3.index t (0 : Fin 4) = 0 ∧ win0_3.index t (1 : Fin 4) = t.val ∧ win0_3.index t (2 : Fin 4) = 0 ∧ win0_3.index t (3 : Fin 4) = 0)
    ∧ (win0_4.index t (0 : Fin 2) = 0 ∧ win0_4.index t (1 : Fin 2) = 0)
    ∧ (win0_5.index t (0 : Fin 2) = 0 ∧ win0_5.index t (1 : Fin 2) = 0)
    ∧ ((grid0.coords t 0).val = t.val) :=
  (by decide +kernel : ∀ t : Fin grid0.N, _)

theorem N0 : cfg0.N = 64 := N_0

/-- Point t as a channel. -/
def chan (t : Fin cfg0.N) : Fin 64 := ⟨t.val, lt_of_lt_of_eq t.isLt N0⟩

/-- Each input block at point t is channel t of its array. -/
theorem iblk0_0_apply (c : Dev nD) (t : Fin cfg0.N) (b : Fin 16) (h : Fin 32) (w : Fin 256) :
    (iblk0 V c 0 t : Vec Ideal S16x1x32x256 .f32) (ix4 b (0 : Fin 1) h w) = (V c main_arg0 : S16x64x32x256.Idx → EReal) (ix4 b (chan t) h w) := by
  obtain ⟨⟨a0, a1, a2, a3⟩, -⟩ := idx_facts0 t
  show V c main_arg0 (((cfg0.win 0).blk t).view.emb (ix4 b (0 : Fin 1) h w)) = V c main_arg0 (ix4 b (chan t) h w)
  refine congrArg _ (funext fun a => Fin.ext ?_)
  match a with
  | ⟨0, _⟩ => show win0_0.index t (0 : Fin 4) * 16 + 1 * b.val = b.val; omega
  | ⟨1, _⟩ => show win0_0.index t (1 : Fin 4) * 1 + 1 * 0 = t.val; omega
  | ⟨2, _⟩ => show win0_0.index t (2 : Fin 4) * 32 + 1 * h.val = h.val; omega
  | ⟨3, _⟩ => show win0_0.index t (3 : Fin 4) * 256 + 1 * w.val = w.val; omega
theorem iblk0_1_apply (c : Dev nD) (t : Fin cfg0.N) (b : Fin 16) (h : Fin 32) (w : Fin 256) :
    (iblk0 V c 1 t : Vec Ideal S16x1x32x256 .f32) (ix4 b (0 : Fin 1) h w) = (V c main_arg1 : S16x64x32x256.Idx → EReal) (ix4 b (chan t) h w) := by
  obtain ⟨-, ⟨a0, a1, a2, a3⟩, -⟩ := idx_facts0 t
  show V c main_arg1 (((cfg0.win 1).blk t).view.emb (ix4 b (0 : Fin 1) h w)) = V c main_arg1 (ix4 b (chan t) h w)
  refine congrArg _ (funext fun a => Fin.ext ?_)
  match a with
  | ⟨0, _⟩ => show win0_1.index t (0 : Fin 4) * 16 + 1 * b.val = b.val; omega
  | ⟨1, _⟩ => show win0_1.index t (1 : Fin 4) * 1 + 1 * 0 = t.val; omega
  | ⟨2, _⟩ => show win0_1.index t (2 : Fin 4) * 32 + 1 * h.val = h.val; omega
  | ⟨3, _⟩ => show win0_1.index t (3 : Fin 4) * 256 + 1 * w.val = w.val; omega
theorem iblk0_2_apply (c : Dev nD) (t : Fin cfg0.N) (b : Fin 16) (h : Fin 32) (w : Fin 256) :
    (iblk0 V c 2 t : Vec Ideal S16x1x32x256 .f32) (ix4 b (0 : Fin 1) h w) = (V c main_arg2 : S16x64x32x256.Idx → EReal) (ix4 b (chan t) h w) := by
  obtain ⟨-, -, ⟨a0, a1, a2, a3⟩, -⟩ := idx_facts0 t
  show V c main_arg2 (((cfg0.win 2).blk t).view.emb (ix4 b (0 : Fin 1) h w)) = V c main_arg2 (ix4 b (chan t) h w)
  refine congrArg _ (funext fun a => Fin.ext ?_)
  match a with
  | ⟨0, _⟩ => show win0_2.index t (0 : Fin 4) * 16 + 1 * b.val = b.val; omega
  | ⟨1, _⟩ => show win0_2.index t (1 : Fin 4) * 1 + 1 * 0 = t.val; omega
  | ⟨2, _⟩ => show win0_2.index t (2 : Fin 4) * 32 + 1 * h.val = h.val; omega
  | ⟨3, _⟩ => show win0_2.index t (3 : Fin 4) * 256 + 1 * w.val = w.val; omega

/-- The attention-plus-residual array of the three arrays the kernel reads. -/
abbrev XV (c : Dev nD) : S16x64x32x256.Idx → EReal := X (V c main_arg0) (V c main_arg1) (V c main_arg2)

/-- The attention payload of point t's blocks at an entry is X at channel t. -/
theorem pay6_at (c : Dev nD) (t : Fin cfg0.N) (b : Fin 16) (h : Fin 32) (w : Fin 256) :
    k0_pay6 (F := Ideal) (iblk0 V c 0 t) (iblk0 V c 1 t) (iblk0 V c 2 t) (ix3 b h w)
      = Xc (V c main_arg0) (V c main_arg1) (V c main_arg2) b (chan t) h w :=
  pay6_apply (iblk0 V c 0 t) (iblk0 V c 1 t) (iblk0 V c 2 t) (V c main_arg0) (V c main_arg1) (V c main_arg2) (chan t)
    (iblk0_0_apply V c t) (iblk0_1_apply V c t) (iblk0_2_apply V c t) b h w

/-- What the output block holds after the body at point t, in either case: the attention payload of the point's blocks. -/
theorem after0_3_eq (c : Dev nD) (t : Fin cfg0.N) :
    (outsAt0 V c t.val t.isLt).1 = k0_pay7 (F := Ideal) (iblk0 V c 0 t) (iblk0 V c 1 t) (iblk0 V c 2 t) := by
  by_cases h0 : t.val = 0
  · rw [outsAt0_A V c t h0]; dsimp only; rw [out0_A_3_eq]
  · rw [outsAt0_B V c t h0]; dsimp only; rw [out0_B_3_eq]

/-- What point t writes back is block t of X. -/
theorem flushed0_3_eq (c : Dev nD) (t : Fin cfg0.N) :
    (dat0 (F := Ideal) V c).flushed 3 t = ((cfg0.win 3).blk t).view.read (Elt Ideal) (XV V c) := by
  show (cfg0.win 3).cut (grid0.coords t) ((dat0 (F := Ideal) V c).after 3 t) = _
  rw [after0_3, after0_3_eq]
  obtain ⟨-, -, -, ⟨a0, a1, a2, a3⟩, -⟩ := idx_facts0 t
  refine funext fun (j : S16x1x32x256.Idx) => ?_
  obtain ⟨b, k, h, w, rfl⟩ : ∃ (b : Fin 16) (k : Fin 1) (h : Fin 32) (w : Fin 256), j = ix4 b k h w :=
    ⟨j 0, j 1, j 2, j 3, eq_ix4 j⟩
  obtain rfl : k = 0 := Subsingleton.elim _ _
  show k0_pay7 (F := Ideal) (iblk0 V c 0 t) (iblk0 V c 1 t) (iblk0 V c 2 t) (ix4 b (0 : Fin 1) h w)
      = XV V c (((cfg0.win 3).blk t).view.emb (ix4 b (0 : Fin 1) h w))
  have hi : ((cfg0.win 3).blk t).view.emb (ix4 b (0 : Fin 1) h w) = (ix4 b (chan t) h w : S16x64x32x256.Idx) := by
    refine funext fun a => Fin.ext ?_
    match a with
    | ⟨0, _⟩ => show win0_3.index t (0 : Fin 4) * 16 + 1 * b.val = b.val; omega
    | ⟨1, _⟩ => show win0_3.index t (1 : Fin 4) * 1 + 1 * 0 = t.val; omega
    | ⟨2, _⟩ => show win0_3.index t (2 : Fin 4) * 32 + 1 * h.val = h.val; omega
    | ⟨3, _⟩ => show win0_3.index t (3 : Fin 4) * 256 + 1 * w.val = w.val; omega
  rw [hi]
  exact pay7_apply (iblk0 V c 0 t) (iblk0 V c 1 t) (iblk0 V c 2 t) (V c main_arg0) (V c main_arg1) (V c main_arg2) (chan t)
    (iblk0_0_apply V c t) (iblk0_1_apply V c t) (iblk0_2_apply V c t) b h w

theorem mem_blk0_3 (t : Fin cfg0.N) (i : S16x64x32x256.Idx) :
    i ∈ ((cfg0.win 3).blk t).view.set ↔ ∀ a : Fin 4, win0_3.index t a * S16x1x32x256.size a ≤ (i a).val ∧ (i a).val < win0_3.index t a * S16x1x32x256.size a + S16x1x32x256.size a := by
  show i ∈ ((View.whole main_v0_0).slice (win0_3.rect t)).set ↔ _
  rw [View.set_slice_whole, Rect.mem_set_unit]
  exact Iff.rfl

theorem cover0_3 (i : S16x64x32x256.Idx) : ∃ t : Fin cfg0.N, (cfg0.win 3).flush t = true ∧ i ∈ ((cfg0.win 3).blk t).view.set := by
  have h0 : (i 0).val < 16 := (i 0).isLt
  have h1 : (i 1).val < 64 := (i 1).isLt
  have h2 : (i 2).val < 32 := (i 2).isLt
  have h3 : (i 3).val < 256 := (i 3).isLt
  let t : Fin cfg0.N := ⟨(i 1).val, by rw [N0]; omega⟩
  obtain ⟨-, -, -, ⟨a0, a1, a2, a3⟩, -⟩ := idx_facts0 t
  have ht : t.val = (i 1).val := rfl
  refine ⟨t, flush0_3 t, ?_⟩
  rw [mem_blk0_3]
  intro a
  match a with
  | ⟨0, _⟩ => show win0_3.index t (0 : Fin 4) * 16 ≤ (i 0).val ∧ (i 0).val < win0_3.index t (0 : Fin 4) * 16 + 16; omega
  | ⟨1, _⟩ => show win0_3.index t (1 : Fin 4) * 1 ≤ (i 1).val ∧ (i 1).val < win0_3.index t (1 : Fin 4) * 1 + 1; omega
  | ⟨2, _⟩ => show win0_3.index t (2 : Fin 4) * 32 ≤ (i 2).val ∧ (i 2).val < win0_3.index t (2 : Fin 4) * 32 + 32; omega
  | ⟨3, _⟩ => show win0_3.index t (3 : Fin 4) * 256 ≤ (i 3).val ∧ (i 3).val < win0_3.index t (3 : Fin 4) * 256 + 256; omega

/-- The first kernel's first result array is X. -/
theorem final0_3 (c : Dev nD) : (dat0 (F := Ideal) V c).arrAt 3 cfg0.N = XV V c :=
  (dat0 (F := Ideal) V c).arrAt_eq_of_cover 3 (XV V c) (fun t _ => flushed0_3_eq V c t) cover0_3

/-! ## The running sums -/

/-- The sum of X over channel j (0 beyond the 64 channels), and of X². -/
def S1 (c : Dev nD) (j : ℕ) : EReal := if h : j < 64 then chanSum (XV V c) ⟨j, h⟩ else 0
def S2 (c : Dev nD) (j : ℕ) : EReal := if h : j < 64 then chanSum (fun i => XV V c i * XV V c i) ⟨j, h⟩ else 0

theorem tot1_at (c : Dev nD) (t : Fin cfg0.N) :
    k0_pay8 (F := Ideal) (iblk0 V c 0 t) (iblk0 V c 1 t) (iblk0 V c 2 t) = S1 V c t.val := by
  rw [pay8_eq (iblk0 V c 0 t) (iblk0 V c 1 t) (iblk0 V c 2 t) (V c main_arg0) (V c main_arg1) (V c main_arg2) (chan t) (pay6_at V c t)]
  unfold S1; rw [dif_pos (lt_of_lt_of_eq t.isLt N0)]; rfl
theorem tot2_at (c : Dev nD) (t : Fin cfg0.N) :
    tot (k0_pay9 (F := Ideal) (iblk0 V c 0 t) (iblk0 V c 1 t) (iblk0 V c 2 t)) = S2 V c t.val := by
  rw [pay9_total (iblk0 V c 0 t) (iblk0 V c 1 t) (iblk0 V c 2 t) (V c main_arg0) (V c main_arg1) (V c main_arg2) (chan t) (pay6_at V c t)]
  unfold S2; rw [dif_pos (lt_of_lt_of_eq t.isLt N0)]; rfl

theorem coord0 (t : Fin cfg0.N) : (grid0.coords t 0).val = t.val := (idx_facts0 t).2.2.2.2.2.2

/-- One step of a running sum on lane l: the previous value plus, on lane t only, the point's total. -/
theorem step_lane (prev tot' : EReal) (l t n : ℕ) (s : ℕ → EReal) (ht : t = n + 1) (htot : tot' = s t)
    (hprev : prev = if l ≤ n then s l else 0) :
    prev + (if l = t then (1 : EReal) else 0) * tot' = if l ≤ n + 1 then s l else 0 := by
  subst ht htot hprev
  by_cases h1 : l ≤ n
  · rw [if_pos h1, if_neg (by omega), zero_mul, add_zero, if_pos (by omega)]
  · rw [if_neg h1, zero_add]
    by_cases h2 : l = n + 1
    · rw [if_pos h2, one_mul, if_pos (by omega), h2]
    · rw [if_neg h2, zero_mul, if_neg (by omega)]

/-- After point n the first running-sum buffer holds, on lane l, channel l's total if l ≤ n and 0 otherwise; the second
    likewise with the totals of squares. -/
theorem acc_eq (c : Dev nD) : ∀ (n : ℕ) (hn : n < cfg0.N) (l : Fin 128),
    (outsAt0 V c n hn).2.2.2.1 (ix2 (0 : Fin 1) l) = (if l.val ≤ n then S1 V c l.val else 0)
    ∧ (outsAt0 V c n hn).2.2.2.2 (ix2 (0 : Fin 1) l) = (if l.val ≤ n then S2 V c l.val else 0)
  | 0, hn, l => by
    have hN : (0 : ℕ) < 64 := by decide
    rw [outsAt0_A V c ⟨0, hn⟩ rfl]; dsimp only
    rw [sout0_A_0_eq, sout0_A_1_eq, coord0 ⟨0, hn⟩]
    constructor
    · rw [pay2_apply 0 hN, pay4_apply, tot1_at V c ⟨0, hn⟩, zero_add]
      by_cases h : l.val = 0
      · rw [if_pos h, one_mul, if_pos (by omega), h]
      · rw [if_neg h, zero_mul, if_neg (by omega)]
    · rw [pay3_apply 0 hN, pay5_apply, tot2_at V c ⟨0, hn⟩, zero_add]
      by_cases h : l.val = 0
      · rw [if_pos h, one_mul, if_pos (by omega), h]
      · rw [if_neg h, zero_mul, if_neg (by omega)]
  | n + 1, hn, l => by
    have hN : n + 1 < 64 := lt_of_lt_of_eq hn N0
    have ih := acc_eq c n (Nat.lt_of_succ_lt hn) l
    rw [outsAt0_B V c ⟨n + 1, hn⟩ (Nat.succ_ne_zero n)]; dsimp only
    rw [sout0_B_0_eq, sout0_B_1_eq, coord0 ⟨n + 1, hn⟩]
    constructor
    · rw [pay2_apply (n + 1) hN]
      exact step_lane _ _ l.val (n + 1) n (S1 V c) rfl (tot1_at V c ⟨n + 1, hn⟩) ih.1
    · rw [pay3_apply (n + 1) hN]
      exact step_lane _ _ l.val (n + 1) n (S2 V c) rfl (tot2_at V c ⟨n + 1, hn⟩) ih.2

/-- Each statistics window holds, after the body at any point, what its running-sum buffer holds. -/
theorem stat_eq (c : Dev nD) (t : Fin cfg0.N) :
    (outsAt0 V c t.val t.isLt).2.1 = (outsAt0 V c t.val t.isLt).2.2.2.1
    ∧ (outsAt0 V c t.val t.isLt).2.2.1 = (outsAt0 V c t.val t.isLt).2.2.2.2 := by
  by_cases h0 : t.val = 0
  · rw [outsAt0_A V c t h0]; dsimp only; rw [out0_A_4_eq, out0_A_5_eq, sout0_A_0_eq, sout0_A_1_eq]; exact ⟨rfl, rfl⟩
  · rw [outsAt0_B V c t h0]; dsimp only; rw [out0_B_4_eq, out0_B_5_eq, sout0_B_0_eq, sout0_B_1_eq]; exact ⟨rfl, rfl⟩

/-- The last point. -/
def tLast : Fin cfg0.N := ⟨63, by rw [N0]; decide⟩

/-- The two statistics arrays after the kernel: what the last point left in the windows' buffers. -/
theorem flushed0_4_eq (c : Dev nD) (t : Fin cfg0.N) (hf : (cfg0.win 4).flush t = true) :
    (dat0 (F := Ideal) V c).flushed 4 t = ((cfg0.win 4).blk t).view.read (Elt Ideal) ((outsAt0 V c tLast.val tLast.isLt).2.1) := by
  have h1 : t.val = 63 := by have := (flush0_4 t).mp hf; have := lt_of_lt_of_eq t.isLt N0; omega
  obtain rfl : t = tLast := Fin.ext h1
  show (cfg0.win 4).cut (grid0.coords tLast) ((dat0 (F := Ideal) V c).after 4 tLast) = _
  rw [after0_4]
  have hz' : (fun a => win0_4.index tLast a * main_v0_1.ty.shape.size a) = fun _ => 0 := funext fun a => by fin_cases a <;> decide +kernel
  exact (Memref.read_access_unit_zero (Elt Ideal) main_v0_1 hz' (fun a => by rw [congrFun hz' a]; simp) _).symm
theorem flushed0_5_eq (c : Dev nD) (t : Fin cfg0.N) (hf : (cfg0.win 5).flush t = true) :
    (dat0 (F := Ideal) V c).flushed 5 t = ((cfg0.win 5).blk t).view.read (Elt Ideal) ((outsAt0 V c tLast.val tLast.isLt).2.2.1) := by
  have h1 : t.val = 63 := by have := (flush0_5 t).mp hf; have := lt_of_lt_of_eq t.isLt N0; omega
  obtain rfl : t = tLast := Fin.ext h1
  show (cfg0.win 5).cut (grid0.coords tLast) ((dat0 (F := Ideal) V c).after 5 tLast) = _
  rw [after0_5]
  have hz' : (fun a => win0_5.index tLast a * main_v0_2.ty.shape.size a) = fun _ => 0 := funext fun a => by fin_cases a <;> decide +kernel
  exact (Memref.read_access_unit_zero (Elt Ideal) main_v0_2 hz' (fun a => by rw [congrFun hz' a]; simp) _).symm

theorem cover0_4 (i : S1x128.Idx) : ∃ t : Fin cfg0.N, (cfg0.win 4).flush t = true ∧ i ∈ ((cfg0.win 4).blk t).view.set := by
  refine ⟨tLast, (flush0_4 tLast).mpr rfl, ?_⟩
  show i ∈ ((View.whole main_v0_1).slice (win0_4.rect tLast)).set
  rw [View.set_slice_whole, Rect.mem_set_unit]
  intro a
  have h0 : (i 0 : Nat) < 1 := (i 0).isLt
  have h1 : (i 1 : Nat) < 128 := (i 1).isLt
  match a with
  | ⟨0, _⟩ => show win0_4.index tLast 0 * win0_4.size 0 ≤ (i 0 : Nat) ∧ (i 0 : Nat) < win0_4.index tLast 0 * win0_4.size 0 + win0_4.xsize (grid0.coords tLast) 0
              rw [show win0_4.index tLast 0 * win0_4.size 0 = 0 from by decide +kernel, show win0_4.xsize (grid0.coords tLast) 0 = 1 from by decide +kernel]; omega
  | ⟨1, _⟩ => show win0_4.index tLast 1 * win0_4.size 1 ≤ (i 1 : Nat) ∧ (i 1 : Nat) < win0_4.index tLast 1 * win0_4.size 1 + win0_4.xsize (grid0.coords tLast) 1
              rw [show win0_4.index tLast 1 * win0_4.size 1 = 0 from by decide +kernel, show win0_4.xsize (grid0.coords tLast) 1 = 128 from by decide +kernel]; omega
theorem cover0_5 (i : S1x128.Idx) : ∃ t : Fin cfg0.N, (cfg0.win 5).flush t = true ∧ i ∈ ((cfg0.win 5).blk t).view.set := by
  refine ⟨tLast, (flush0_5 tLast).mpr rfl, ?_⟩
  show i ∈ ((View.whole main_v0_2).slice (win0_5.rect tLast)).set
  rw [View.set_slice_whole, Rect.mem_set_unit]
  intro a
  have h0 : (i 0 : Nat) < 1 := (i 0).isLt
  have h1 : (i 1 : Nat) < 128 := (i 1).isLt
  match a with
  | ⟨0, _⟩ => show win0_5.index tLast 0 * win0_5.size 0 ≤ (i 0 : Nat) ∧ (i 0 : Nat) < win0_5.index tLast 0 * win0_5.size 0 + win0_5.xsize (grid0.coords tLast) 0
              rw [show win0_5.index tLast 0 * win0_5.size 0 = 0 from by decide +kernel, show win0_5.xsize (grid0.coords tLast) 0 = 1 from by decide +kernel]; omega
  | ⟨1, _⟩ => show win0_5.index tLast 1 * win0_5.size 1 ≤ (i 1 : Nat) ∧ (i 1 : Nat) < win0_5.index tLast 1 * win0_5.size 1 + win0_5.xsize (grid0.coords tLast) 1
              rw [show win0_5.index tLast 1 * win0_5.size 1 = 0 from by decide +kernel, show win0_5.xsize (grid0.coords tLast) 1 = 128 from by decide +kernel]; omega

/-- Lane j < 64 of the first statistics array is the sum of X over channel j; of the second, the sum of X². -/
theorem final0_4 (c : Dev nD) (j : Fin 64) :
    ((dat0 (F := Ideal) V c).arrAt 4 cfg0.N : S1x128.Idx → EReal) (ix2 (0 : Fin 1) (Fin.castLE (by decide) j)) = chanSum (XV V c) j := by
  rw [(dat0 (F := Ideal) V c).arrAt_eq_of_cover 4 _ (flushed0_4_eq V c) cover0_4, (stat_eq V c tLast).1,
    (acc_eq V c tLast.val tLast.isLt (Fin.castLE (by decide) j)).1]
  have hj : j.val < 64 := j.isLt
  rw [if_pos (by show j.val ≤ 63; omega)]
  unfold S1; rw [dif_pos (show (Fin.castLE (by decide) j : Fin 128).val < 64 from hj)]; rfl
theorem final0_5 (c : Dev nD) (j : Fin 64) :
    ((dat0 (F := Ideal) V c).arrAt 5 cfg0.N : S1x128.Idx → EReal) (ix2 (0 : Fin 1) (Fin.castLE (by decide) j)) = chanSum (fun i => XV V c i * XV V c i) j := by
  rw [(dat0 (F := Ideal) V c).arrAt_eq_of_cover 5 _ (flushed0_5_eq V c) cover0_5, (stat_eq V c tLast).2,
    (acc_eq V c tLast.val tLast.isLt (Fin.castLE (by decide) j)).2]
  have hj : j.val < 64 := j.isLt
  rw [if_pos (by show j.val ≤ 63; omega)]
  unfold S2; rw [dif_pos (show (Fin.castLE (by decide) j : Fin 128).val < 64 from hj)]; rfl

end Cert.KernelIdeal.Hand

end
-- ==== Proof.KIValue1.lean ====
/-
  The second kernel's result array as one function of the arrays it finds.

  Its grid has eight points; point t handles channels 8t … 8t+7: the output block at t and the block of x at t are the
  channel slab [16, 8, 32, 256] at channel offset 8t, the scale's and the shift's blocks are the eight per-channel numbers
  [1, 8, 1, 1] at the same offset. The body maps every entry x to y · logistic y with y = x · scale + shift, scale and shift
  read at the entry's channel. So each point writes back the block of one whole-array function, and the eight blocks tile the
  array.
-/
import proofs.«133421_j61701500174555_1_alg».proof.Proof.KernelIdealR1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

theorem hz4 : (![0, 0, 0, 0] : Fin 4 → Nat) = fun _ => 0 := funext fun a => by fin_cases a <;> rfl

/-- y · logistic y with y = x · s + h, the scale s and the shift h read at the entry's channel. -/
def G1 (x : S16x64x32x256.Idx → EReal) (s h : S1x64x1x1.Idx → EReal) : S16x64x32x256.Idx → EReal := fun i =>
  (x i * s (ix4 0 (i 1) 0 0) + h (ix4 0 (i 1) 0 0)) * Ideal.logistic (x i * s (ix4 0 (i 1) 0 0) + h (ix4 0 (i 1) 0 0))

/-- A per-channel vector broadcast over the slab, read at an entry, is the vector at the entry's channel. -/
theorem bcast_chan (v : Vec Ideal S1x8x1x1 .f32) (b : Fin 16) (k : Fin 8) (r : Fin 32) (w : Fin 256) :
    broadcastTo S16x8x32x256 v broadcasts_S1x8x1x1_S16x8x32x256 (ix4 b k r w) = v (ix4 0 k 0 0) := by
  refine broadcastTo_apply v _ (ix4 b k r w) (ix4 0 k 0 0) fun a => ?_
  match a with
  | ⟨0, _⟩ => rfl
  | ⟨1, _⟩ => rfl
  | ⟨2, _⟩ => rfl
  | ⟨3, _⟩ => rfl

/-- The body's payload at an entry of the slab. -/
theorem pay1_apply (x0 : Vec Ideal S16x8x32x256 .f32) (x1 x2 : Vec Ideal S1x8x1x1 .f32) (b : Fin 16) (k : Fin 8) (r : Fin 32) (w : Fin 256) :
    k1_pay1 x0 x1 x2 (ix4 b k r w)
      = (x0 (ix4 b k r w) * x1 (ix4 0 k 0 0) + x2 (ix4 0 k 0 0)) * Ideal.logistic (x0 (ix4 b k r w) * x1 (ix4 0 k 0 0) + x2 (ix4 0 k 0 0)) := by
  unfold k1_pay1
  simp only [shapeCast_self]
  show (x0 (ix4 b k r w) * broadcastTo S16x8x32x256 x1 broadcasts_S1x8x1x1_S16x8x32x256 (ix4 b k r w) + broadcastTo S16x8x32x256 x2 broadcasts_S1x8x1x1_S16x8x32x256 (ix4 b k r w))
      * Ideal.logistic (x0 (ix4 b k r w) * broadcastTo S16x8x32x256 x1 broadcasts_S1x8x1x1_S16x8x32x256 (ix4 b k r w) + broadcastTo S16x8x32x256 x2 broadcasts_S1x8x1x1_S16x8x32x256 (ix4 b k r w)) = _
  rw [bcast_chan, bcast_chan]

/-- The printed index maps, decided over the grid: at point t every window's block index is t on the channel axis and 0 on
    the others. -/
theorem idx_facts1 : ∀ t : Fin cfg1.N,
    (win1_0.index t (0 : Fin 4) = 0 ∧ win1_0.index t (1 : Fin 4) = t.val ∧ win1_0.index t (2 : Fin 4) = 0 ∧ win1_0.index t (3 : Fin 4) = 0)
    ∧ (win1_1.index t (0 : Fin 4) = 0 ∧ win1_1.index t (1 : Fin 4) = t.val ∧ win1_1.index t (2 : Fin 4) = 0 ∧ win1_1.index t (3 : Fin 4) = 0)
    ∧ (win1_2.index t (0 : Fin 4) = 0 ∧ win1_2.index t (1 : Fin 4) = t.val ∧ win1_2.index t (2 : Fin 4) = 0 ∧ win1_2.index t (3 : Fin 4) = 0)
    ∧ (win1_3.index t (0 : Fin 4) = 0 ∧ win1_3.index t (1 : Fin 4) = t.val ∧ win1_3.index t (2 : Fin 4) = 0 ∧ win1_3.index t (3 : Fin 4) = 0) :=
  (by decide +kernel : ∀ t : Fin grid1.N, _)

/-- One entry of one point's block: when the three input blocks read, at the entry and at its channel, what the arrays
    x, s, h hold at the array index i and at i's channel, the payload there is G1 x s h at i. -/
theorem point1 (x : S16x64x32x256.Idx → EReal) (s h : S1x64x1x1.Idx → EReal)
    (x0 : Vec Ideal S16x8x32x256 .f32) (x1 x2 : Vec Ideal S1x8x1x1 .f32)
    (b : Fin 16) (k : Fin 8) (r : Fin 32) (w : Fin 256) (i : S16x64x32x256.Idx) (q1 q2 : S1x64x1x1.Idx)
    (e0 : x0 (ix4 b k r w) = x i) (e1 : x1 (ix4 0 k 0 0) = s q1) (e2 : x2 (ix4 0 k 0 0) = h q2)
    (hq1 : q1 = ix4 0 (i 1) 0 0) (hq2 : q2 = ix4 0 (i 1) 0 0) :
    k1_pay1 x0 x1 x2 (ix4 b k r w) = G1 x s h i := by
  rw [pay1_apply, e0, e1, e2, hq1, hq2]
  rfl

variable (V : (c : Dev nD) → (b : Ref sig .tc) → Buf (Elt Ideal) ((c : Thread nD τ).loc b))

/-- What point t writes back is block t of G1 of the arrays the kernel finds. -/
theorem flushed1_eq (c : Dev nD) (t : Fin cfg1.N) :
    (dat1 (F := Ideal) V c).flushed 3 t
      = ((cfg1.win 3).blk t).view.read (Elt Ideal) (G1 (V c main_v0_0) (V c main_v17) (V c main_v18)) := by
  show (cfg1.win 3).cut (grid1.coords t) ((dat1 (F := Ideal) V c).after 3 t) = _
  rw [after1_3]
  unfold out1_3
  rw [View.canon_unit_zero hz4]
  simp only [View.ld_unit_zero (S := S16x8x32x256) hz4, View.ld_unit_zero (S := S1x8x1x1) hz4]
  obtain ⟨⟨a00, a01, a02, a03⟩, ⟨a10, a11, a12, a13⟩, ⟨a20, a21, a22, a23⟩, ⟨a30, a31, a32, a33⟩⟩ := idx_facts1 t
  refine funext fun (j : S16x8x32x256.Idx) => ?_
  obtain ⟨b, k, r, w, rfl⟩ : ∃ (b : Fin 16) (k : Fin 8) (r : Fin 32) (w : Fin 256), j = ix4 b k r w :=
    ⟨j 0, j 1, j 2, j 3, eq_ix4 j⟩
  show k1_pay1 (iblk1 V c 0 t) (iblk1 V c 1 t) (iblk1 V c 2 t) (ix4 b k r w)
      = G1 (V c main_v0_0) (V c main_v17) (V c main_v18) (((cfg1.win 3).blk t).view.emb (ix4 b k r w))
  refine point1 (V c main_v0_0) (V c main_v17) (V c main_v18) (iblk1 V c 0 t) (iblk1 V c 1 t) (iblk1 V c 2 t) b k r w
    (((cfg1.win 3).blk t).view.emb (ix4 b k r w))
    (((cfg1.win 1).blk t).view.emb (ix4 0 k 0 0)) (((cfg1.win 2).blk t).view.emb (ix4 0 k 0 0)) ?_ ?_ ?_ ?_ ?_
  · show V c main_v0_0 (((cfg1.win 0).blk t).view.emb (ix4 b k r w)) = V c main_v0_0 (((cfg1.win 3).blk t).view.emb (ix4 b k r w))
    refine congrArg _ (funext fun a => Fin.ext ?_)
    match a with
    | ⟨0, _⟩ => show win1_0.index t (0 : Fin 4) * 16 + 1 * b.val = win1_3.index t (0 : Fin 4) * 16 + 1 * b.val; omega
    | ⟨1, _⟩ => show win1_0.index t (1 : Fin 4) * 8 + 1 * k.val = win1_3.index t (1 : Fin 4) * 8 + 1 * k.val; omega
    | ⟨2, _⟩ => show win1_0.index t (2 : Fin 4) * 32 + 1 * r.val = win1_3.index t (2 : Fin 4) * 32 + 1 * r.val; omega
    | ⟨3, _⟩ => show win1_0.index t (3 : Fin 4) * 256 + 1 * w.val = win1_3.index t (3 : Fin 4) * 256 + 1 * w.val; omega
  · rfl
  · rfl
  · refine funext fun a => Fin.ext ?_
    match a with
    | ⟨0, _⟩ => show win1_1.index t (0 : Fin 4) * 1 + 1 * 0 = 0; omega
    | ⟨1, _⟩ => show win1_1.index t (1 : Fin 4) * 8 + 1 * k.val = win1_3.index t (1 : Fin 4) * 8 + 1 * k.val; omega
    | ⟨2, _⟩ => show win1_1.index t (2 : Fin 4) * 1 + 1 * 0 = 0; omega
    | ⟨3, _⟩ => show win1_1.index t (3 : Fin 4) * 1 + 1 * 0 = 0; omega
  · refine funext fun a => Fin.ext ?_
    match a with
    | ⟨0, _⟩ => show win1_2.index t (0 : Fin 4) * 1 + 1 * 0 = 0; omega
    | ⟨1, _⟩ => show win1_2.index t (1 : Fin 4) * 8 + 1 * k.val = win1_3.index t (1 : Fin 4) * 8 + 1 * k.val; omega
    | ⟨2, _⟩ => show win1_2.index t (2 : Fin 4) * 1 + 1 * 0 = 0; omega
    | ⟨3, _⟩ => show win1_2.index t (3 : Fin 4) * 1 + 1 * 0 = 0; omega

/-- An index of the array is in point t's block iff each coordinate is in the block's range on its axis. -/
theorem mem_blk1 (t : Fin cfg1.N) (i : S16x64x32x256.Idx) :
    i ∈ ((cfg1.win 3).blk t).view.set ↔ ∀ a : Fin 4, win1_3.index t a * S16x8x32x256.size a ≤ (i a).val ∧ (i a).val < win1_3.index t a * S16x8x32x256.size a + S16x8x32x256.size a := by
  show i ∈ ((View.whole main_v19).slice (win1_3.rect t)).set ↔ _
  rw [View.set_slice_whole, Rect.mem_set_unit]
  exact Iff.rfl

/-- Every index of the array is in the block of the point its channel divided by eight names. -/
theorem cover1 (i : S16x64x32x256.Idx) : ∃ t : Fin cfg1.N, (cfg1.win 3).flush t = true ∧ i ∈ ((cfg1.win 3).blk t).view.set := by
  have h0 : (i 0).val < 16 := (i 0).isLt
  have h1 : (i 1).val < 64 := (i 1).isLt
  have h2 : (i 2).val < 32 := (i 2).isLt
  have h3 : (i 3).val < 256 := (i 3).isLt
  have hN : cfg1.N = 8 := rfl
  let t : Fin cfg1.N := ⟨(i 1).val / 8, by rw [hN]; omega⟩
  obtain ⟨-, -, -, ⟨a30, a31, a32, a33⟩⟩ := idx_facts1 t
  have ht : t.val = (i 1).val / 8 := rfl
  refine ⟨t, flush1_3 t, ?_⟩
  rw [mem_blk1]
  intro a
  match a with
  | ⟨0, _⟩ => show win1_3.index t (0 : Fin 4) * 16 ≤ (i 0).val ∧ (i 0).val < win1_3.index t (0 : Fin 4) * 16 + 16; omega
  | ⟨1, _⟩ => show win1_3.index t (1 : Fin 4) * 8 ≤ (i 1).val ∧ (i 1).val < win1_3.index t (1 : Fin 4) * 8 + 8; omega
  | ⟨2, _⟩ => show win1_3.index t (2 : Fin 4) * 32 ≤ (i 2).val ∧ (i 2).val < win1_3.index t (2 : Fin 4) * 32 + 32; omega
  | ⟨3, _⟩ => show win1_3.index t (3 : Fin 4) * 256 ≤ (i 3).val ∧ (i 3).val < win1_3.index t (3 : Fin 4) * 256 + 256; omega

/-- The second kernel's result array: G1 of the three arrays it finds. -/
theorem final1 (c : Dev nD) :
    (dat1 (F := Ideal) V c).arrAt 3 cfg1.N = G1 (V c main_v0_0) (V c main_v17) (V c main_v18) :=
  (dat1 (F := Ideal) V c).arrAt_eq_of_cover 3 (G1 (V c main_v0_0) (V c main_v17) (V c main_v18))
    (fun t _ => flushed1_eq V c t) cover1

end Cert.KernelIdeal.Hand

end
-- ==== Proof.KIHost.lean ====
/-
  The host operations between the two kernels, read at an index.

  From the two lane vectors S, T (the first kernel's per-channel sums of X and of X², one lane per channel, 64 of the 128 lanes
  used) and the two per-channel arguments g, b they compute, per channel j,
    mean = S j / N,  var = T j / N − mean²,  scale = g j · rsqrt (var + ε),  shift = b j − mean · scale
  and lay scale and shift out as [1, 64, 1, 1] arrays. The first kernel's array X is not written.
-/
import proofs.«133421_j61701500174555_1_alg».proof.Proof.Gen.KernelIdeal.Regions
import proofs.«133421_j61701500174555_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.AttnBN (cN cEps)

variable (W : Valuation τ sig (Elt Ideal))

/-- Channel j's lane of a 128-lane vector. -/
abbrev lane (j : Fin 64) : Fin 128 := Fin.castLE (by decide) j

/-- The first 64 lanes of a [1, 128] lane vector as a [64] vector. -/
def lanes (X : FVec Ideal S1x128 .f32) : FVec Ideal S64 .f32 :=
  shapeCast S64 (extractStridedSlice S1x64 ![0, 0] X slices_S1x128_S1x64_0_0) shapeCasts_S1x64_S64

/-- A scalar word broadcast over the 64 channels. -/
def chanConst (b : BitVec 32) : FVec Ideal S64 .f32 :=
  broadcastInDim S64 ![] bcast_S_S64 (constant (F := Ideal) S_ .f32 b)

/-- mean = S / N per channel. -/
def hMean (S : FVec Ideal S1x128 .f32) : FVec Ideal S64 .f32 :=
  Host.divf (F := Ideal) (lanes S) (chanConst 0x48000000#32)

/-- scale = g · rsqrt (T / N − mean² + ε) per channel. -/
def hScale (S T : FVec Ideal S1x128 .f32) (g : FVec Ideal S64 .f32) : FVec Ideal S64 .f32 :=
  mulf g (Host.rsqrt (F := Ideal) (addf (subf (Host.divf (F := Ideal) (lanes T) (chanConst 0x48000000#32)) (mulf (hMean S) (hMean S))) (chanConst 0x3727C5AC#32)))

/-- shift = b − mean · scale per channel. -/
def hShift (S T : FVec Ideal S1x128 .f32) (g b : FVec Ideal S64 .f32) : FVec Ideal S64 .f32 :=
  subf b (mulf (hMean S) (hScale S T g))

/-- The scale's array after the host operations: the composed term. -/
theorem host_v17_term :
    (StableHlo.after (hostOps1 (F := Ideal)) W (Proc.devRef .tc main_v17) : FVec Ideal S1x64x1x1 .f32)
      = shapeCast S1x64x1x1 (hScale (W main_v0_1) (W main_v0_2) (W main_arg3)) shapeCasts_S64_S1x64x1x1 := by
  after_results
  rfl

/-- The shift's array after the host operations: the composed term. -/
theorem host_v18_term :
    (StableHlo.after (hostOps1 (F := Ideal)) W (Proc.devRef .tc main_v18) : FVec Ideal S1x64x1x1 .f32)
      = shapeCast S1x64x1x1 (hShift (W main_v0_1) (W main_v0_2) (W main_arg3) (W main_arg4)) shapeCasts_S64_S1x64x1x1 := by
  after_results_simp
  rfl

/-- No host operation writes the first kernel's array. -/
theorem host_v0_0 : StableHlo.after (hostOps1 (F := Ideal)) W (Proc.devRef .tc main_v0_0) = W (Proc.devRef .tc main_v0_0) :=
  StableHlo.after_of_writes_sub hostOps1 W hostOps1_writes (by decide)

/-! ## The composed terms read at a channel -/

/-- scale at channel j as a number: g j · rsqrt ((T j / N − (S j / N)²) + ε), the sums read at j's lane. -/
def scaleAt (S T : FVec Ideal S1x128 .f32) (g : FVec Ideal S64 .f32) (j : Fin 64) : EReal :=
  g (ix1 j) * Ideal.rsqrt ((Ideal.div (T (ix2 0 (lane j))) cN - Ideal.div (S (ix2 0 (lane j))) cN * Ideal.div (S (ix2 0 (lane j))) cN) + cEps)

/-- shift at channel j as a number: b j − (S j / N) · scale j. -/
def shiftAt (S T : FVec Ideal S1x128 .f32) (g b : FVec Ideal S64 .f32) (j : Fin 64) : EReal :=
  b (ix1 j) - Ideal.div (S (ix2 0 (lane j))) cN * scaleAt S T g j

theorem scaleAt_eq (S T : FVec Ideal S1x128 .f32) (g : FVec Ideal S64 .f32) (j : Fin 64) :
    scaleAt S T g j = g (ix1 j) * Ideal.rsqrt ((Ideal.div (T (ix2 0 (lane j))) cN - Ideal.div (S (ix2 0 (lane j))) cN * Ideal.div (S (ix2 0 (lane j))) cN) + cEps) := rfl

theorem shiftAt_eq (S T : FVec Ideal S1x128 .f32) (g b : FVec Ideal S64 .f32) (j : Fin 64) :
    shiftAt S T g b j = b (ix1 j) - Ideal.div (S (ix2 0 (lane j))) cN * scaleAt S T g j := rfl

theorem lanes_apply (X : FVec Ideal S1x128 .f32) (j : Fin 64) : lanes X (ix1 j) = X (ix2 0 (lane j)) := by
  unfold lanes
  refine (shapeCast_1a_a_apply _ shapeCasts_S1x64_S64 j).trans ?_
  refine extractStridedSlice_apply ![0, 0] X slices_S1x128_S1x64_0_0 (ix2 (0 : Fin 1) j) (ix2 0 (lane j)) fun a => ?_
  match a with
  | ⟨0, _⟩ => rfl
  | ⟨1, _⟩ => show j.val = 0 + j.val; omega

theorem chanConst_apply (b : BitVec 32) (i : S64.Idx) : chanConst b i = Ideal.ofBits .f32 b := by
  unfold chanConst
  rw [broadcastInDim_scalar_apply]
  rfl

/-- A [64] vector laid out as [1, 64, 1, 1] reads, at channel j, the vector at j. -/
theorem chan4_apply (x : FVec Ideal S64 .f32) (j : Fin 64) :
    shapeCast S1x64x1x1 x shapeCasts_S64_S1x64x1x1 (ix4 0 j 0 0) = x (ix1 j) :=
  shapeCast_apply x shapeCasts_S64_S1x64x1x1 (ix4 0 j 0 0) (ix1 j) (by
    rw [Shape.rowMajor_val_one, Shape.rowMajor_val_four]
    show j.val = ((0 * 64 + j.val) * 1 + 0) * 1 + 0
    omega)

theorem hMean_apply (S : FVec Ideal S1x128 .f32) (j : Fin 64) :
    hMean S (ix1 j) = Ideal.div (S (ix2 0 (lane j))) cN := by
  unfold hMean
  rw [hostDivf_apply, lanes_apply, chanConst_apply]
  rfl

theorem hScale_apply (S T : FVec Ideal S1x128 .f32) (g : FVec Ideal S64 .f32) (j : Fin 64) :
    hScale S T g (ix1 j) = scaleAt S T g j := by
  unfold hScale
  show g (ix1 j) * Ideal.rsqrt ((Ideal.div (lanes T (ix1 j)) (chanConst 0x48000000#32 (ix1 j)) - hMean S (ix1 j) * hMean S (ix1 j)) + chanConst 0x3727C5AC#32 (ix1 j)) = _
  rw [hMean_apply, lanes_apply, chanConst_apply, chanConst_apply]
  rfl

theorem hShift_apply (S T : FVec Ideal S1x128 .f32) (g b : FVec Ideal S64 .f32) (j : Fin 64) :
    hShift S T g b (ix1 j) = shiftAt S T g b j := by
  unfold hShift
  show b (ix1 j) - hMean S (ix1 j) * hScale S T g (ix1 j) = _
  rw [hMean_apply, hScale_apply]
  rfl

/-! ## The two arrays the second kernel reads, at a channel -/

/-- scale at channel j, from the first kernel's lane sums S, T and the argument g. -/
theorem host_v17 (j : Fin 64) :
    (StableHlo.after (hostOps1 (F := Ideal)) W (Proc.devRef .tc main_v17) : FVec Ideal S1x64x1x1 .f32) (ix4 0 j 0 0)
      = scaleAt (W main_v0_1) (W main_v0_2) (W main_arg3) j := by
  rw [host_v17_term, chan4_apply, hScale_apply]

/-- shift at channel j. -/
theorem host_v18 (j : Fin 64) :
    (StableHlo.after (hostOps1 (F := Ideal)) W (Proc.devRef .tc main_v18) : FVec Ideal S1x64x1x1 .f32) (ix4 0 j 0 0)
      = shiftAt (W main_v0_1) (W main_v0_2) (W main_arg3) (W main_arg4) j := by
  rw [host_v18_term, chan4_apply, hShift_apply]

end Cert.KernelIdeal.Hand

end
-- ==== Proof.KIFinal.lean ====
/-
  The kernel program's result as one function of its five arguments, at the ideal instance: the second kernel maps X to
  y · logistic y with y = X · scale + shift per channel; X is the first kernel's attention-plus-residual array, which the
  host operations do not touch; scale and shift are what the host operations make of the first kernel's two statistics
  arrays (the per-channel sums of X and X²) and of γ and β. Spelled out, that is the one-pass form of the result.
-/
import proofs.«133421_j61701500174555_1_alg».proof.Proof.KernelIdealRun
import proofs.«133421_j61701500174555_1_alg».proof.Proof.KIValue0
import proofs.«133421_j61701500174555_1_alg».proof.Proof.KIValue1
import proofs.«133421_j61701500174555_1_alg».proof.Proof.KIHost
import proofs.«133421_j61701500174555_1_alg».proof.Proof.Spec

set_option maxRecDepth 16384

noncomputable section

namespace Cert.KernelIdeal.Hand

open Cert.KernelIdeal Cert.KernelIdeal.Gen Cert.AttnBN
open Idealize.ShloMosaic Idealize.ShloMosaic.TcCoe Idealize.ShloMosaic.ValueIdx
open Idealize.SL.Sem

/-- The host's scale, given what its inputs hold on channel j, is the one-pass scale. -/
theorem scaleAt_spec (Q K V : A4.Idx → EReal) (γ : A1.Idx → EReal) (S T : FVec Ideal S1x128 .f32) (g : FVec Ideal S64 .f32) (j : Fin 64)
    (hS : S (ix2 0 (lane j)) = chanSum (X Q K V) j) (hT : T (ix2 0 (lane j)) = chanSum (fun i => X Q K V i * X Q K V i) j)
    (hg : g (ix1 j) = γ (ix1 j)) : scaleAt S T g j = scaleK Q K V γ j := by
  unfold scaleAt scaleK varK msqK meanK
  rw [hS, hT, hg]

/-- The host's shift likewise. -/
theorem shiftAt_spec (Q K V : A4.Idx → EReal) (γ β : A1.Idx → EReal) (S T : FVec Ideal S1x128 .f32) (g b : FVec Ideal S64 .f32) (j : Fin 64)
    (hS : S (ix2 0 (lane j)) = chanSum (X Q K V) j) (hT : T (ix2 0 (lane j)) = chanSum (fun i => X Q K V i * X Q K V i) j)
    (hg : g (ix1 j) = γ (ix1 j)) (hb : b (ix1 j) = β (ix1 j)) : shiftAt S T g b j = shiftK Q K V γ β j := by
  unfold shiftAt shiftK
  rw [scaleAt_spec Q K V γ S T g j hS hT hg, hS, hb]
  rfl

/-- The second kernel's function at an entry, from what its three arrays hold there and on the entry's channel. -/
theorem G1_at (x : S16x64x32x256.Idx → EReal) (s h : S1x64x1x1.Idx → EReal) (i : S16x64x32x256.Idx) (X' sc sh : EReal)
    (hx : x i = X') (hs : s (ix4 0 (i 1) 0 0) = sc) (hh : h (ix4 0 (i 1) 0 0) = sh) :
    G1 x s h i = (X' * sc + sh) * Ideal.logistic (X' * sc + sh) := by
  subst hx hs hh; rfl

variable (m : (ℓ : Loc nD τ sig) → Buf (Elt Ideal) ℓ) (ρ : Dev nD → PrngReg)

/-- The array the second kernel reads as X is the first kernel's X. -/
theorem xarr (c : Dev nD) : W2 m ρ c (Proc.devRef .tc main_v0_0) = XV (U0 m ρ) c :=
  (host_v0_0 (W1 m ρ c)).trans ((W1_arr m ρ c 3).trans (final0_3 (U0 m ρ) c))

theorem stat1 (c : Dev nD) (j : Fin 64) :
    (W1 m ρ c (Proc.devRef .tc main_v0_1) : S1x128.Idx → EReal) (ix2 0 (lane j)) = chanSum (XV (U0 m ρ) c) j :=
  (congrFun (W1_arr m ρ c 4) _).trans (final0_4 (U0 m ρ) c j)
theorem stat2 (c : Dev nD) (j : Fin 64) :
    (W1 m ρ c (Proc.devRef .tc main_v0_2) : S1x128.Idx → EReal) (ix2 0 (lane j)) = chanSum (fun i => XV (U0 m ρ) c i * XV (U0 m ρ) c i) j :=
  (congrFun (W1_arr m ρ c 5) _).trans (final0_5 (U0 m ρ) c j)
theorem garg (c : Dev nD) (j : Fin 64) :
    (W1 m ρ c (Proc.devRef .tc main_arg3) : S64.Idx → EReal) (ix1 j) = (U0 m ρ c main_arg3 : S64.Idx → EReal) (ix1 j) :=
  congrFun (W1_of_ne m ρ c main_arg3 (by decide)) _
theorem barg (c : Dev nD) (j : Fin 64) :
    (W1 m ρ c (Proc.devRef .tc main_arg4) : S64.Idx → EReal) (ix1 j) = (U0 m ρ c main_arg4 : S64.Idx → EReal) (ix1 j) :=
  congrFun (W1_of_ne m ρ c main_arg4 (by decide)) _

theorem scale_eq (c : Dev nD) (j : Fin 64) :
    (W2 m ρ c (Proc.devRef .tc main_v17) : S1x64x1x1.Idx → EReal) (ix4 0 j 0 0)
      = scaleK (U0 m ρ c main_arg0) (U0 m ρ c main_arg1) (U0 m ρ c main_arg2) (U0 m ρ c main_arg3) j :=
  (host_v17 (W1 m ρ c) j).trans
    (scaleAt_spec (U0 m ρ c main_arg0) (U0 m ρ c main_arg1) (U0 m ρ c main_arg2) (U0 m ρ c main_arg3) _ _ _ j
      (stat1 m ρ c j) (stat2 m ρ c j) (garg m ρ c j))
theorem shift_eq (c : Dev nD) (j : Fin 64) :
    (W2 m ρ c (Proc.devRef .tc main_v18) : S1x64x1x1.Idx → EReal) (ix4 0 j 0 0)
      = shiftK (U0 m ρ c main_arg0) (U0 m ρ c main_arg1) (U0 m ρ c main_arg2) (U0 m ρ c main_arg3) (U0 m ρ c main_arg4) j :=
  (host_v18 (W1 m ρ c) j).trans
    (shiftAt_spec (U0 m ρ c main_arg0) (U0 m ρ c main_arg1) (U0 m ρ c main_arg2) (U0 m ρ c main_arg3) (U0 m ρ c main_arg4) _ _ _ _ j
      (stat1 m ρ c j) (stat2 m ρ c j) (garg m ρ c j) (barg m ρ c j))

/-- The result array of the kernel program is the one-pass form of the result. -/
theorem kernel_value' (c : Dev nD) :
    (dat1 (F := Ideal) (U2 m ρ) c).arrAt 3 cfg1.N
      = outK (U0 m ρ c main_arg0) (U0 m ρ c main_arg1) (U0 m ρ c main_arg2) (U0 m ρ c main_arg3) (U0 m ρ c main_arg4) := by
  rw [final1 (U2 m ρ) c]
  funext i
  refine (G1_at _ _ _ i _ _ _ (congrFun (xarr m ρ c) i) (scale_eq m ρ c (i 1)) (shift_eq m ρ c (i 1))).trans ?_
  rfl

theorem kernel_value (c : Dev nD) :
    (dat1 (F := Ideal) (U2 m ρ) c).arrAt 3 cfg1.N
      = outK (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) :=
  kernel_value' m ρ c

end Cert.KernelIdeal.Hand

end
-- ==== Proof.RefRun.lean ====
/-
  The reference program's run, read back.

  The reference is a straight line of seventy host operations once its two outlined functions are put in place of
  their calls (the per-channel variance, twenty operations plus the three of the select it calls, between the
  twenty-four operations before it and the twenty-three after).  `ops` lists them in order; `main_eq` says the
  program is that line; `run` says that every weakly fair execution terminates with the result buffer at
  `refTerm` of the five arguments' launch contents and the arguments unchanged.

  `refTerm` is the composition of the operations' functions, cut into named stages:
    tScore   the 256 × 256 table of scores per (batch, channel): a contraction over the row axis
    tRowMax  the maximum of a table along its last axis (folded from −∞, then joined with −∞ once more)
    tEx      exp (score − row maximum);  tDen  its sum along the last axis;  tProb  the quotient
    tX       the contraction of the values with the weights over the column axis, plus the values
    tSum     the sum over batch, row and column, per channel;  tMean  that sum over the count N
    tCen     an array minus its per-channel mean
    tCnt     N − 0, the zero an integer converted
    tVar     the per-channel sum of centred squares over N − 0, chosen by the test N − 0 > 0 (else a NaN)
    tXn      ((x − mean) · rsqrt (var + ε)) · γ + β
    tOut     y · (1 / (1 + exp (−y)))
-/
import proofs.«133421_j61701500174555_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The composed term, by stages -/

/-- score(b,c,w,v): the contraction of the queries with the keys over the row axis. -/
def tScore (q k : FVec F S16x64x32x256 .f32) : FVec F S16x64x256x256 .f32 :=
  Host.dotGeneral dot_S16x64x32x256_S16x64x32x256_S16x64x256x256_2_2_3_3_01_01 none q k

/-- The maximum of a table along its last axis: the fold from −∞, joined with −∞. -/
def tRowMax (s : FVec F S16x64x256x256 .f32) : FVec F S16x64x256 .f32 :=
  maximumf (broadcastInDim S16x64x256 ![] bcast_S_S16x64x256 (constant S_ .f32 0xFF800000#32))
    (Host.reduce FloatOps.maximumf s (constant S_ .f32 0xFF800000#32) reducesTo_S16x64x256x256_S16x64x256_d3 h_S_)

/-- exp (s − max of s along the last axis). -/
def tEx (s : FVec F S16x64x256x256 .f32) : FVec F S16x64x256x256 .f32 :=
  Host.exp (subf s (broadcastInDim S16x64x256x256 ![0, 1, 2, 3] bcast_S16x64x256x1_S16x64x256x256_0_1_2_3 (broadcastInDim S16x64x256x1 ![0, 1, 2] bcast_S16x64x256_S16x64x256x1_0_1_2 (tRowMax s))))

/-- The sum of a table along its last axis. -/
def tDen (e : FVec F S16x64x256x256 .f32) : FVec F S16x64x256 .f32 :=
  Host.reduceAdd e (constant S_ .f32 0x00000000#32) reducesTo_S16x64x256x256_S16x64x256_d3 h_S_

/-- The softmax of a table along its last axis. -/
def tProb (s : FVec F S16x64x256x256 .f32) : FVec F S16x64x256x256 .f32 :=
  Host.divf (tEx s) (broadcastInDim S16x64x256x256 ![0, 1, 2, 3] bcast_S16x64x256x1_S16x64x256x256_0_1_2_3 (broadcastInDim S16x64x256x1 ![0, 1, 2] bcast_S16x64x256_S16x64x256x1_0_1_2 (tDen (tEx s))))

/-- The attention output plus the residual. -/
def tX (q k v : FVec F S16x64x32x256 .f32) : FVec F S16x64x32x256 .f32 :=
  addf (Host.dotGeneral dot_S16x64x32x256_S16x64x256x256_S16x64x32x256_3_3_2_2_01_01 none v (tProb (tScore q k))) v

/-- The sum over batch, row and column, per channel. -/
def tSum (x : FVec F S16x64x32x256 .f32) : FVec F S64 .f32 :=
  Host.reduceAdd x (constant S_ .f32 0x00000000#32) reducesTo_S16x64x32x256_S64_d0_2_3 h_S_

/-- The per-channel mean: the sum over the count. -/
def tMean (x : FVec F S16x64x32x256 .f32) : FVec F S1x64x1x1 .f32 :=
  Host.divf (broadcastInDim S1x64x1x1 ![1] bcast_S64_S1x64x1x1_1 (tSum x)) (broadcastInDim S1x64x1x1 ![] bcast_S_S1x64x1x1 (constant S_ .f32 0x48000000#32))

/-- An array minus its per-channel mean. -/
def tCen (x : FVec F S16x64x32x256 .f32) : FVec F S16x64x32x256 .f32 :=
  subf x (broadcastInDim S16x64x32x256 ![0, 1, 2, 3] bcast_S1x64x1x1_S16x64x32x256_0_1_2_3 (tMean x))

/-- The count minus the integer zero converted. -/
def tCnt : FVec F S_ .f32 :=
  subf (constant S_ .f32 0x48000000#32) (sitofp .f32 (constantI S_ 32 0#32))

/-- The per-channel variance: the centred squares' sum over N − 0 where N − 0 > 0, a NaN otherwise. -/
def tVar (x : FVec F S16x64x32x256 .f32) : FVec F S1x64x1x1 .f32 :=
  select (broadcastInDim S1x64x1x1 ![] bcast_S_S1x64x1x1 (cmpf .ogt (tCnt (F := F)) (constant S_ .f32 0x00000000#32)))
    (Host.divf (broadcastInDim S1x64x1x1 ![1] bcast_S64_S1x64x1x1_1 (tSum (mulf (tCen x) (tCen x)))) (broadcastInDim S1x64x1x1 ![] bcast_S_S1x64x1x1 (tCnt (F := F))))
    (broadcastInDim S1x64x1x1 ![] bcast_S_S1x64x1x1 (id (constant S_ .f32 0x7FC00000#32)))

/-- The normalised array: ((x − mean) · rsqrt (var + ε)) · γ + β. -/
def tXn (x : FVec F S16x64x32x256 .f32) (g b : FVec F S64 .f32) : FVec F S16x64x32x256 .f32 :=
  addf (mulf (mulf (tCen x) (broadcastInDim S16x64x32x256 ![0, 1, 2, 3] bcast_S1x64x1x1_S16x64x32x256_0_1_2_3 (Host.rsqrt (addf (tVar x) (broadcastInDim S1x64x1x1 ![] bcast_S_S1x64x1x1 (constant S_ .f32 0x3727C5AC#32))))))
      (broadcastInDim S16x64x32x256 ![0, 1, 2, 3] bcast_S1x64x1x1_S16x64x32x256_0_1_2_3 (broadcastInDim S1x64x1x1 ![1] bcast_S64_S1x64x1x1_1 g)))
    (broadcastInDim S16x64x32x256 ![0, 1, 2, 3] bcast_S1x64x1x1_S16x64x32x256_0_1_2_3 (broadcastInDim S1x64x1x1 ![1] bcast_S64_S1x64x1x1_1 b))

/-- y · (1 / (1 + exp (−y))). -/
def tOut (y : FVec F S16x64x32x256 .f32) : FVec F S16x64x32x256 .f32 :=
  mulf y (Host.divf (broadcastInDim S16x64x32x256 ![] bcast_S_S16x64x32x256 (constant S_ .f32 0x3F800000#32))
    (addf (broadcastInDim S16x64x32x256 ![] bcast_S_S16x64x32x256 (constant S_ .f32 0x3F800000#32)) (Host.exp (Host.negf y))))

/-- What the reference computes from its five arguments' contents. -/
def refTerm (q k v : FVec F S16x64x32x256 .f32) (g b : FVec F S64 .f32) : FVec F S16x64x32x256 .f32 :=
  tOut (tXn (tX q k v) g b)

/-! ## The program as a line of operations -/

/-- The seventy operations, in order, the two calls unfolded: the variance function's twenty run into the buffers of
    the record `main_call0`, and in its last place the select function's three into `main_call0.call0`'s. -/
abbrev ops : List (HloOp τ sig (Elt F)) :=
  [ binary main_arg0 main_arg1 main_v0 ((fun l r => Host.dotGeneral dot_S16x64x32x256_S16x64x32x256_S16x64x256x256_2_2_3_3_01_01 none l r) : (⟨S16x64x32x256, .f32⟩ : BufTy).Contents (Elt F) → (⟨S16x64x32x256, .f32⟩ : BufTy).Contents (Elt F) → (⟨S16x64x256x256, .f32⟩ : BufTy).Contents (Elt F)),
    nullary main_cst (constant S_ .f32 0xFF800000#32),
    binary main_v0 main_cst main_v1 ((fun x v => Host.reduce FloatOps.maximumf x v reducesTo_S16x64x256x256_S16x64x256_d3 h_S_) : (⟨S16x64x256x256, .f32⟩ : BufTy).Contents (Elt F) → (⟨S_, .f32⟩ : BufTy).Contents (Elt F) → (⟨S16x64x256, .f32⟩ : BufTy).Contents (Elt F)),
    nullary main_cst_0 (constant S_ .f32 0xFF800000#32),
    unary main_cst_0 main_v2 (broadcastInDim S16x64x256 ![] bcast_S_S16x64x256 : (⟨S_, .f32⟩ : BufTy).Contents (Elt F) → (⟨S16x64x256, .f32⟩ : BufTy).Contents (Elt F)),
    binary main_v2 main_v1 main_v3 (maximumf : (⟨S16x64x256, .f32⟩ : BufTy).Contents (Elt F) → (⟨S16x64x256, .f32⟩ : BufTy).Contents (Elt F) → (⟨S16x64x256, .f32⟩ : BufTy).Contents (Elt F)),
    unary main_v3 main_v4 (broadcastInDim S16x64x256x1 ![0, 1, 2] bcast_S16x64x256_S16x64x256x1_0_1_2 : (⟨S16x64x256, .f32⟩ : BufTy).Contents (Elt F) → (⟨S16x64x256x1, .f32⟩ : BufTy).Contents (Elt F)),
    unary main_v4 main_v5 (broadcastInDim S16x64x256x256 ![0, 1, 2, 3] bcast_S16x64x256x1_S16x64x256x256_0_1_2_3 : (⟨S16x64x256x1, .f32⟩ : BufTy).Contents (Elt F) → (⟨S16x64x256x256, .f32⟩ : BufTy).Contents (Elt F)),
    binary main_v0 main_v5 main_v6 (subf : (⟨S16x64x256x256, .f32⟩ : BufTy).Contents (Elt F) → (⟨S16x64x256x256, .f32⟩ : BufTy).Contents (Elt F) → (⟨S16x64x256x256, .f32⟩ : BufTy).Contents (Elt F)),
    unary main_v6 main_v7 (Host.exp : (⟨S16x64x256x256, .f32⟩ : BufTy).Contents (Elt F) → (⟨S16x64x256x256, .f32⟩ : BufTy).Contents (Elt F)),
    nullary main_cst_1 (constant S_ .f32 0x00000000#32),
    binary main_v7 main_cst_1 main_v8 ((fun x v => Host.reduceAdd x v reducesTo_S16x64x256x256_S16x64x256_d3 h_S_) : (⟨S16x64x256x256, .f32⟩ : BufTy).Contents (Elt F) → (⟨S_, .f32⟩ : BufTy).Contents (Elt F) → (⟨S16x64x256, .f32⟩ : BufTy).Contents (Elt F)),
    unary main_v8 main_v9 (broadcastInDim S16x64x256x1 ![0, 1, 2] bcast_S16x64x256_S16x64x256x1_0_1_2 : (⟨S16x64x256, .f32⟩ : BufTy).Contents (Elt F) → (⟨S16x64x256x1, .f32⟩ : BufTy).Contents (Elt F)),
    unary main_v9 main_v10 (broadcastInDim S16x64x256x256 ![0, 1, 2, 3] bcast_S16x64x256x1_S16x64x256x256_0_1_2_3 : (⟨S16x64x256x1, .f32⟩ : BufTy).Contents (Elt F) → (⟨S16x64x256x256, .f32⟩ : BufTy).Contents (Elt F)),
    binary main_v7 main_v10 main_v11 (Host.divf : (⟨S16x64x256x256, .f32⟩ : BufTy).Contents (Elt F) → (⟨S16x64x256x256, .f32⟩ : BufTy).Contents (Elt F) → (⟨S16x64x256x256, .f32⟩ : BufTy).Contents (Elt F)),
    binary main_arg2 main_v11 main_v12 ((fun l r => Host.dotGeneral dot_S16x64x32x256_S16x64x256x256_S16x64x32x256_3_3_2_2_01_01 none l r) : (⟨S16x64x32x256, .f32⟩ : BufTy).Contents (Elt F) → (⟨S16x64x256x256, .f32⟩ : BufTy).Contents (Elt F) → (⟨S16x64x32x256, .f32⟩ : BufTy).Contents (Elt F)),
    binary main_v12 main_arg2 main_v13 (addf : (⟨S16x64x32x256, .f32⟩ : BufTy).Contents (Elt F) → (⟨S16x64x32x256, .f32⟩ : BufTy).Contents (Elt F) → (⟨S16x64x32x256, .f32⟩ : BufTy).Contents (Elt F)),
    nullary main_cst_2 (constant S_ .f32 0x00000000#32),
    binary main_v13 main_cst_2 main_v14 ((fun x v => Host.reduceAdd x v reducesTo_S16x64x32x256_S64_d0_2_3 h_S_) : (⟨S16x64x32x256, .f32⟩ : BufTy).Contents (Elt F) → (⟨S_, .f32⟩ : BufTy).Contents (Elt F) → (⟨S64, .f32⟩ : BufTy).Contents (Elt F)),
    unary main_v14 main_v15 (broadcastInDim S1x64x1x1 ![1] bcast_S64_S1x64x1x1_1 : (⟨S64, .f32⟩ : BufTy).Contents (Elt F) → (⟨S1x64x1x1, .f32⟩ : BufTy).Contents (Elt F)),
    nullary main_cst_3 (constant S_ .f32 0x48000000#32),
    unary main_cst_3 main_v16 (broadcastInDim S1x64x1x1 ![] bcast_S_S1x64x1x1 : (⟨S_, .f32⟩ : BufTy).Contents (Elt F) → (⟨S1x64x1x1, .f32⟩ : BufTy).Contents (Elt F)),
    binary main_v15 main_v16 main_v17 (Host.divf : (⟨S1x64x1x1, .f32⟩ : BufTy).Contents (Elt F) → (⟨S1x64x1x1, .f32⟩ : BufTy).Contents (Elt F) → (⟨S1x64x1x1, .f32⟩ : BufTy).Contents (Elt F)),
    nullary main_c (constantI S_ 32 0#32),
    TRef.nullary main_call0.cst (constant S_ .f32 0x00000000#32),
    TRef.binary (TRef.of (T := ⟨S16x64x32x256, .f32⟩) main_v13) main_call0.cst main_call0.v0 (fun x v => Host.reduceAdd x v reducesTo_S16x64x32x256_S64_d0_2_3 h_S_),
    TRef.unary main_call0.v0 main_call0.v1 (broadcastInDim S1x64x1x1 ![1] bcast_S64_S1x64x1x1_1),
    TRef.nullary main_call0.cst_0 (constant S_ .f32 0x48000000#32),
    TRef.unary main_call0.cst_0 main_call0.v2 (broadcastInDim S1x64x1x1 ![] bcast_S_S1x64x1x1),
    TRef.binary main_call0.v1 main_call0.v2 main_call0.v3 Host.divf,
    TRef.unary main_call0.v3 main_call0.v4 (broadcastInDim S16x64x32x256 ![0, 1, 2, 3] bcast_S1x64x1x1_S16x64x32x256_0_1_2_3),
    TRef.binary (TRef.of (T := ⟨S16x64x32x256, .f32⟩) main_v13) main_call0.v4 main_call0.v5 subf,
    TRef.binary main_call0.v5 main_call0.v5 main_call0.v6 mulf,
    TRef.unary (TRef.of (T := ⟨S_, .i32⟩) main_c) main_call0.v7 (sitofp .f32),
    TRef.nullary main_call0.cst_1 (constant S_ .f32 0x48000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S16x64x32x256_S64_d0_2_3 h_S_),
    TRef.unary main_call0.v9 main_call0.v10 (broadcastInDim S1x64x1x1 ![1] bcast_S64_S1x64x1x1_1),
    TRef.unary main_call0.v8 main_call0.v11 (broadcastInDim S1x64x1x1 ![] bcast_S_S1x64x1x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S1x64x1x1 ![] bcast_S_S1x64x1x1),
    TRef.ternary main_call0.v13 main_call0.v12 main_call0.call0.v1 main_call0.call0.v2 (fun p a b => select (broadcastInDim S1x64x1x1 ![] bcast_S_S1x64x1x1 p) a b),
    unary main_v17 main_v19 (broadcastInDim S16x64x32x256 ![0, 1, 2, 3] bcast_S1x64x1x1_S16x64x32x256_0_1_2_3 : (⟨S1x64x1x1, .f32⟩ : BufTy).Contents (Elt F) → (⟨S16x64x32x256, .f32⟩ : BufTy).Contents (Elt F)),
    binary main_v13 main_v19 main_v20 (subf : (⟨S16x64x32x256, .f32⟩ : BufTy).Contents (Elt F) → (⟨S16x64x32x256, .f32⟩ : BufTy).Contents (Elt F) → (⟨S16x64x32x256, .f32⟩ : BufTy).Contents (Elt F)),
    nullary main_cst_4 (constant S_ .f32 0x3727C5AC#32),
    unary main_cst_4 main_v21 (broadcastInDim S1x64x1x1 ![] bcast_S_S1x64x1x1 : (⟨S_, .f32⟩ : BufTy).Contents (Elt F) → (⟨S1x64x1x1, .f32⟩ : BufTy).Contents (Elt F)),
    binary main_v18 main_v21 main_v22 (addf : (⟨S1x64x1x1, .f32⟩ : BufTy).Contents (Elt F) → (⟨S1x64x1x1, .f32⟩ : BufTy).Contents (Elt F) → (⟨S1x64x1x1, .f32⟩ : BufTy).Contents (Elt F)),
    unary main_v22 main_v23 (Host.rsqrt : (⟨S1x64x1x1, .f32⟩ : BufTy).Contents (Elt F) → (⟨S1x64x1x1, .f32⟩ : BufTy).Contents (Elt F)),
    unary main_v23 main_v24 (broadcastInDim S16x64x32x256 ![0, 1, 2, 3] bcast_S1x64x1x1_S16x64x32x256_0_1_2_3 : (⟨S1x64x1x1, .f32⟩ : BufTy).Contents (Elt F) → (⟨S16x64x32x256, .f32⟩ : BufTy).Contents (Elt F)),
    binary main_v20 main_v24 main_v25 (mulf : (⟨S16x64x32x256, .f32⟩ : BufTy).Contents (Elt F) → (⟨S16x64x32x256, .f32⟩ : BufTy).Contents (Elt F) → (⟨S16x64x32x256, .f32⟩ : BufTy).Contents (Elt F)),
    unary main_arg3 main_v26 (broadcastInDim S1x64x1x1 ![1] bcast_S64_S1x64x1x1_1 : (⟨S64, .f32⟩ : BufTy).Contents (Elt F) → (⟨S1x64x1x1, .f32⟩ : BufTy).Contents (Elt F)),
    unary main_v26 main_v27 (broadcastInDim S16x64x32x256 ![0, 1, 2, 3] bcast_S1x64x1x1_S16x64x32x256_0_1_2_3 : (⟨S1x64x1x1, .f32⟩ : BufTy).Contents (Elt F) → (⟨S16x64x32x256, .f32⟩ : BufTy).Contents (Elt F)),
    binary main_v25 main_v27 main_v28 (mulf : (⟨S16x64x32x256, .f32⟩ : BufTy).Contents (Elt F) → (⟨S16x64x32x256, .f32⟩ : BufTy).Contents (Elt F) → (⟨S16x64x32x256, .f32⟩ : BufTy).Contents (Elt F)),
    unary main_arg4 main_v29 (broadcastInDim S1x64x1x1 ![1] bcast_S64_S1x64x1x1_1 : (⟨S64, .f32⟩ : BufTy).Contents (Elt F) → (⟨S1x64x1x1, .f32⟩ : BufTy).Contents (Elt F)),
    unary main_v29 main_v30 (broadcastInDim S16x64x32x256 ![0, 1, 2, 3] bcast_S1x64x1x1_S16x64x32x256_0_1_2_3 : (⟨S1x64x1x1, .f32⟩ : BufTy).Contents (Elt F) → (⟨S16x64x32x256, .f32⟩ : BufTy).Contents (Elt F)),
    binary main_v28 main_v30 main_v31 (addf : (⟨S16x64x32x256, .f32⟩ : BufTy).Contents (Elt F) → (⟨S16x64x32x256, .f32⟩ : BufTy).Contents (Elt F) → (⟨S16x64x32x256, .f32⟩ : BufTy).Contents (Elt F)),
    unary main_v31 main_v32 (Host.negf : (⟨S16x64x32x256, .f32⟩ : BufTy).Contents (Elt F) → (⟨S16x64x32x256, .f32⟩ : BufTy).Contents (Elt F)),
    unary main_v32 main_v33 (Host.exp : (⟨S16x64x32x256, .f32⟩ : BufTy).Contents (Elt F) → (⟨S16x64x32x256, .f32⟩ : BufTy).Contents (Elt F)),
    nullary main_cst_5 (constant S_ .f32 0x3F800000#32),
    unary main_cst_5 main_v34 (broadcastInDim S16x64x32x256 ![] bcast_S_S16x64x32x256 : (⟨S_, .f32⟩ : BufTy).Contents (Elt F) → (⟨S16x64x32x256, .f32⟩ : BufTy).Contents (Elt F)),
    binary main_v34 main_v33 main_v35 (addf : (⟨S16x64x32x256, .f32⟩ : BufTy).Contents (Elt F) → (⟨S16x64x32x256, .f32⟩ : BufTy).Contents (Elt F) → (⟨S16x64x32x256, .f32⟩ : BufTy).Contents (Elt F)),
    nullary main_cst_6 (constant S_ .f32 0x3F800000#32),
    unary main_cst_6 main_v36 (broadcastInDim S16x64x32x256 ![] bcast_S_S16x64x32x256 : (⟨S_, .f32⟩ : BufTy).Contents (Elt F) → (⟨S16x64x32x256, .f32⟩ : BufTy).Contents (Elt F)),
    binary main_v36 main_v35 main_v37 (Host.divf : (⟨S16x64x32x256, .f32⟩ : BufTy).Contents (Elt F) → (⟨S16x64x32x256, .f32⟩ : BufTy).Contents (Elt F) → (⟨S16x64x32x256, .f32⟩ : BufTy).Contents (Elt F)),
    binary main_v31 main_v37 main_v38 (mulf : (⟨S16x64x32x256, .f32⟩ : BufTy).Contents (Elt F) → (⟨S16x64x32x256, .f32⟩ : BufTy).Contents (Elt F) → (⟨S16x64x32x256, .f32⟩ : BufTy).Contents (Elt F)) ]

-- both sides unfold to one chain of seventy steps, one binder deep per operation
set_option maxRecDepth 8192 in
set_option maxHeartbeats 4000000 in
/-- The program is that line, by computation: a function's body grafted at its call is the sequencing of a free monad,
    which puts the continuation under each step, so both sides unfold to the same chain of seventy steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub .., binary_bufs_sub .., binary_bufs_sub .., nullary_bufs_sub ..,
    binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., nullary_bufs_sub .., unary_bufs_sub .., binary_bufs_sub ..,
    nullary_bufs_sub .., unary_bufs_sub .., binary_bufs_sub .., binary_bufs_sub ..⟩

/-! ## The fold of the line, read at the result and at the arguments -/

-- one rewrite per operation and buffer read, each inequality of references decided
set_option maxRecDepth 8192 in
set_option maxHeartbeats 8000000 in
/-- The line's fold at the result buffer is `refTerm` of the arguments' contents: each operation's result at its own
    buffer is its function of its operands' contents, at any other buffer what was there; what is left is the stages
    unfolded, with the identity transports the typed references of the two functions put around their operations. -/
theorem out_eq (V : Valuation τ sig (Elt F)) :
    after ops V (main_v38 : DevRef τ sig)
      = refTerm (V (main_arg0 : DevRef τ sig)) (V (main_arg1 : DevRef τ sig)) (V (main_arg2 : DevRef τ sig))
          (V (main_arg3 : DevRef τ sig)) (V (main_arg4 : DevRef τ sig)) := by
  after_results_simp <;> rfl

set_option maxRecDepth 8192 in
set_option maxHeartbeats 4000000 in
theorem arg0_eq (V : Valuation τ sig (Elt F)) :
    after ops V (main_arg0 : DevRef τ sig) = V (main_arg0 : DevRef τ sig) := by
  after_results_simp

set_option maxRecDepth 8192 in
set_option maxHeartbeats 4000000 in
theorem arg1_eq (V : Valuation τ sig (Elt F)) :
    after ops V (main_arg1 : DevRef τ sig) = V (main_arg1 : DevRef τ sig) := by
  after_results_simp

set_option maxRecDepth 8192 in
set_option maxHeartbeats 4000000 in
theorem arg2_eq (V : Valuation τ sig (Elt F)) :
    after ops V (main_arg2 : DevRef τ sig) = V (main_arg2 : DevRef τ sig) := by
  after_results_simp

set_option maxRecDepth 8192 in
set_option maxHeartbeats 4000000 in
theorem arg3_eq (V : Valuation τ sig (Elt F)) :
    after ops V (main_arg3 : DevRef τ sig) = V (main_arg3 : DevRef τ sig) := by
  after_results_simp

set_option maxRecDepth 8192 in
set_option maxHeartbeats 4000000 in
theorem arg4_eq (V : Valuation τ sig (Elt F)) :
    after ops V (main_arg4 : DevRef τ sig) = V (main_arg4 : DevRef τ sig) := by
  after_results_simp

/-! ## The run -/

set_option maxRecDepth 8192 in
/-- On every device, for any float values, from any memory with zero counters: every weakly fair execution of the
    reference terminates with its result at `refTerm` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v38)
          = refTerm (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v38).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.ReferenceIdeal.RefValue

end
-- ==== Proof.RefReadA.lean ====
/-
  The attention half of the reference read at an index, at the ideal values.

  Each stage of the composed term is read at an index given by its coordinates: the score as the sum over the row
  axis of the products, the row maximum as the fold of max from −∞, the exponential, its sum along the last axis, the
  quotient, and the contraction of the values with the weights plus the residual.  The two contractions have one
  contracted axis each: the sum over the contraction's index set is moved to the sum over that axis's coordinate, and
  the two operands' indices are computed axis by axis from the dimension numbers.
-/
import proofs.«133421_j61701500174555_1_alg».proof.Proof.RefRun
import proofs.«133421_j61701500174555_1_alg».proof.Proof.Spec
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx
open scoped BigOperators

/-- The dimension numbers of queries × keys (batch axes 0 and 1, the row axis contracted). -/
abbrev dotQK := dot_S16x64x32x256_S16x64x32x256_S16x64x256x256_2_2_3_3_01_01
/-- The dimension numbers of values × weights (batch axes 0 and 1, the last axis contracted). -/
abbrev dotVP := dot_S16x64x32x256_S16x64x256x256_S16x64x32x256_3_3_2_2_01_01

/-! ## The operands' indices of the two contractions, axis by axis -/

theorem qk_lhs_0 (i : S16x64x256x256.Idx) (q : dotQK.contr.Idx) : (dotQK.lhsIdx i q 0).val = (i 0).val := by
  unfold DotDims.lhsIdx
  rw [dif_pos (show (0 : Fin S16x64x32x256.rank) ∈ dotQK.lhsBatch by decide)]
  rfl
theorem qk_lhs_1 (i : S16x64x256x256.Idx) (q : dotQK.contr.Idx) : (dotQK.lhsIdx i q 1).val = (i 1).val := by
  unfold DotDims.lhsIdx
  rw [dif_pos (show (1 : Fin S16x64x32x256.rank) ∈ dotQK.lhsBatch by decide)]
  rfl
theorem qk_lhs_2 (i : S16x64x256x256.Idx) (q : dotQK.contr.Idx) : (dotQK.lhsIdx i q 2).val = (q ⟨0, by decide⟩).val :=
  dotQK.lhsIdx_val_of_single rfl i q
theorem qk_lhs_3 (i : S16x64x256x256.Idx) (q : dotQK.contr.Idx) : (dotQK.lhsIdx i q 3).val = (i 2).val := by
  unfold DotDims.lhsIdx
  rw [dif_neg (show ¬(3 : Fin S16x64x32x256.rank) ∈ dotQK.lhsBatch by decide),
    dif_pos (show (3 : Fin S16x64x32x256.rank) ∈ dotQK.lhsNonContracting by decide)]
  rfl
theorem qk_rhs_0 (i : S16x64x256x256.Idx) (q : dotQK.contr.Idx) : (dotQK.rhsIdx i q 0).val = (i 0).val := by
  unfold DotDims.rhsIdx
  rw [dif_pos (show (0 : Fin S16x64x32x256.rank) ∈ dotQK.rhsBatch by decide)]
  rfl
theorem qk_rhs_1 (i : S16x64x256x256.Idx) (q : dotQK.contr.Idx) : (dotQK.rhsIdx i q 1).val = (i 1).val := by
  unfold DotDims.rhsIdx
  rw [dif_pos (show (1 : Fin S16x64x32x256.rank) ∈ dotQK.rhsBatch by decide)]
  rfl
theorem qk_rhs_2 (i : S16x64x256x256.Idx) (q : dotQK.contr.Idx) : (dotQK.rhsIdx i q 2).val = (q ⟨0, by decide⟩).val :=
  dotQK.rhsIdx_val_of_single rfl i q
theorem qk_rhs_3 (i : S16x64x256x256.Idx) (q : dotQK.contr.Idx) : (dotQK.rhsIdx i q 3).val = (i 3).val := by
  unfold DotDims.rhsIdx
  rw [dif_neg (show ¬(3 : Fin S16x64x32x256.rank) ∈ dotQK.rhsBatch by decide),
    dif_pos (show (3 : Fin S16x64x32x256.rank) ∈ dotQK.rhsNonContracting by decide)]
  rfl

/-- The queries' index of score (b, c, w, v) at row h is (b, c, h, w). -/
theorem qk_lhs (b : Fin 16) (c : Fin 64) (w v : Fin 256) (h : Fin 32) :
    dotQK.lhsIdx (ix4 b c w v) ((contrEquiv1 dotQK 32 rfl rfl).symm h) = ix4 b c h w := by
  have hk := contrEquiv1_symm_val dotQK 32 rfl rfl h
  funext a
  refine Fin.ext ?_
  match a with
  | ⟨0, _⟩ => exact qk_lhs_0 _ _
  | ⟨1, _⟩ => exact qk_lhs_1 _ _
  | ⟨2, _⟩ => exact (qk_lhs_2 _ _).trans hk
  | ⟨3, _⟩ => exact qk_lhs_3 _ _

/-- The keys' index of score (b, c, w, v) at row h is (b, c, h, v). -/
theorem qk_rhs (b : Fin 16) (c : Fin 64) (w v : Fin 256) (h : Fin 32) :
    dotQK.rhsIdx (ix4 b c w v) ((contrEquiv1 dotQK 32 rfl rfl).symm h) = ix4 b c h v := by
  have hk := contrEquiv1_symm_val dotQK 32 rfl rfl h
  funext a
  refine Fin.ext ?_
  match a with
  | ⟨0, _⟩ => exact qk_rhs_0 _ _
  | ⟨1, _⟩ => exact qk_rhs_1 _ _
  | ⟨2, _⟩ => exact (qk_rhs_2 _ _).trans hk
  | ⟨3, _⟩ => exact qk_rhs_3 _ _

/-- The score read at (b, c, w, v): the sum over the rows of query times key. -/
theorem tScore_apply (q k : FVec Ideal S16x64x32x256 .f32) (b : Fin 16) (c : Fin 64) (w v : Fin 256) :
    tScore q k (ix4 b c w v) = ∑ h : Fin 32, q (ix4 b c h w) * k (ix4 b c h v) := by
  unfold tScore
  refine (Ideal.dotGeneral_apply dotQK none .single q k (ix4 b c w v)).trans ?_
  rw [← Equiv.sum_comp (contrEquiv1 dotQK 32 rfl rfl).symm]
  refine Finset.sum_congr rfl fun h _ => ?_
  rw [qk_lhs, qk_rhs]

/-! ## The values × weights contraction, axis by axis -/

theorem vp_lhs_0 (i : S16x64x32x256.Idx) (q : dotVP.contr.Idx) : (dotVP.lhsIdx i q 0).val = (i 0).val := by
  unfold DotDims.lhsIdx
  rw [dif_pos (show (0 : Fin S16x64x32x256.rank) ∈ dotVP.lhsBatch by decide)]
  rfl
theorem vp_lhs_1 (i : S16x64x32x256.Idx) (q : dotVP.contr.Idx) : (dotVP.lhsIdx i q 1).val = (i 1).val := by
  unfold DotDims.lhsIdx
  rw [dif_pos (show (1 : Fin S16x64x32x256.rank) ∈ dotVP.lhsBatch by decide)]
  rfl
theorem vp_lhs_2 (i : S16x64x32x256.Idx) (q : dotVP.contr.Idx) : (dotVP.lhsIdx i q 2).val = (i 2).val := by
  unfold DotDims.lhsIdx
  rw [dif_neg (show ¬(2 : Fin S16x64x32x256.rank) ∈ dotVP.lhsBatch by decide),
    dif_pos (show (2 : Fin S16x64x32x256.rank) ∈ dotVP.lhsNonContracting by decide)]
  rfl
theorem vp_lhs_3 (i : S16x64x32x256.Idx) (q : dotVP.contr.Idx) : (dotVP.lhsIdx i q 3).val = (q ⟨0, by decide⟩).val :=
  dotVP.lhsIdx_val_of_single rfl i q
theorem vp_rhs_0 (i : S16x64x32x256.Idx) (q : dotVP.contr.Idx) : (dotVP.rhsIdx i q 0).val = (i 0).val := by
  unfold DotDims.rhsIdx
  rw [dif_pos (show (0 : Fin S16x64x256x256.rank) ∈ dotVP.rhsBatch by decide)]
  rfl
theorem vp_rhs_1 (i : S16x64x32x256.Idx) (q : dotVP.contr.Idx) : (dotVP.rhsIdx i q 1).val = (i 1).val := by
  unfold DotDims.rhsIdx
  rw [dif_pos (show (1 : Fin S16x64x256x256.rank) ∈ dotVP.rhsBatch by decide)]
  rfl
theorem vp_rhs_2 (i : S16x64x32x256.Idx) (q : dotVP.contr.Idx) : (dotVP.rhsIdx i q 2).val = (i 3).val := by
  unfold DotDims.rhsIdx
  rw [dif_neg (show ¬(2 : Fin S16x64x256x256.rank) ∈ dotVP.rhsBatch by decide),
    dif_pos (show (2 : Fin S16x64x256x256.rank) ∈ dotVP.rhsNonContracting by decide)]
  rfl
theorem vp_rhs_3 (i : S16x64x32x256.Idx) (q : dotVP.contr.Idx) : (dotVP.rhsIdx i q 3).val = (q ⟨0, by decide⟩).val :=
  dotVP.rhsIdx_val_of_single rfl i q

/-- The values' index of output (b, c, h, w) at column u is (b, c, h, u). -/
theorem vp_lhs (b : Fin 16) (c : Fin 64) (h : Fin 32) (w u : Fin 256) :
    dotVP.lhsIdx (ix4 b c h w) ((contrEquiv1 dotVP 256 rfl rfl).symm u) = ix4 b c h u := by
  have hk := contrEquiv1_symm_val dotVP 256 rfl rfl u
  funext a
  refine Fin.ext ?_
  match a with
  | ⟨0, _⟩ => exact vp_lhs_0 _ _
  | ⟨1, _⟩ => exact vp_lhs_1 _ _
  | ⟨2, _⟩ => exact vp_lhs_2 _ _
  | ⟨3, _⟩ => exact (vp_lhs_3 _ _).trans hk

/-- The weights' index of output (b, c, h, w) at column u is (b, c, w, u). -/
theorem vp_rhs (b : Fin 16) (c : Fin 64) (h : Fin 32) (w u : Fin 256) :
    dotVP.rhsIdx (ix4 b c h w) ((contrEquiv1 dotVP 256 rfl rfl).symm u) = ix4 b c w u := by
  have hk := contrEquiv1_symm_val dotVP 256 rfl rfl u
  funext a
  refine Fin.ext ?_
  match a with
  | ⟨0, _⟩ => exact vp_rhs_0 _ _
  | ⟨1, _⟩ => exact vp_rhs_1 _ _
  | ⟨2, _⟩ => exact vp_rhs_2 _ _
  | ⟨3, _⟩ => exact (vp_rhs_3 _ _).trans hk

/-! ## The softmax stages at an index -/

/-- The word 0xFF800000 is −∞. -/
theorem ofBits_neg_inf : Ideal.ofBits .f32 0xFF800000#32 = ⊥ := by
  simp [Ideal.ofBits, Ideal.ieee]

/-- A per-row value broadcast back over the last axis (through the unit axis) reads the row's value. -/
theorem bcastRow {α : Type} (m : S16x64x256.Idx → α) (b : Fin 16) (c : Fin 64) (w v : Fin 256) :
    broadcastInDim S16x64x256x256 ![0, 1, 2, 3] bcast_S16x64x256x1_S16x64x256x256_0_1_2_3 (broadcastInDim S16x64x256x1 ![0, 1, 2] bcast_S16x64x256_S16x64x256x1_0_1_2 m) (ix4 b c w v) = m (ix3 b c w) := by
  refine (broadcastInDim_apply _ _ _ (ix4 b c w v) (ix4 b c w (0 : Fin 1)) fun a => ?_).trans ?_
  · match a with
    | ⟨0, _⟩ => rfl
    | ⟨1, _⟩ => rfl
    | ⟨2, _⟩ => rfl
    | ⟨3, _⟩ => rfl
  · refine broadcastInDim_apply _ _ _ (ix4 b c w (0 : Fin 1)) (ix3 b c w) fun a => ?_
    match a with
    | ⟨0, _⟩ => rfl
    | ⟨1, _⟩ => rfl
    | ⟨2, _⟩ => rfl

/-- The index (b, c, w) of a row with the column v inserted is (b, c, w, v). -/
theorem lift_row (hred : S16x64x256x256.Reduces [3] S16x64x256) (b : Fin 16) (c : Fin 64) (w v : Fin 256) :
    hred.lift (ix3 b c w) v = ix4 b c w v := by
  funext a
  refine Fin.ext ?_
  match a with
  | ⟨0, _⟩ => rfl
  | ⟨1, _⟩ => rfl
  | ⟨2, _⟩ => rfl
  | ⟨3, _⟩ => rfl

/-- The row maximum at (b, c, w): the fold of max from −∞ over the columns. -/
theorem tRowMax_apply (s : FVec Ideal S16x64x256x256 .f32) (b : Fin 16) (c : Fin 64) (w : Fin 256) :
    tRowMax s (ix3 b c w) = (Finset.univ : Finset (Fin 256)).fold max ⊥ (fun v => s (ix4 b c w v)) := by
  have hred : S16x64x256x256.Reduces [3] S16x64x256 := by decide
  unfold tRowMax
  refine (maximumf_apply _ _ _).trans ?_
  refine (congrArg (max _) (Host.reduce_eq_fold_single FloatOps.maximumf s _ _ hred h_S_ (ix3 b c w))).trans ?_
  have hfun : (s ∘ hred.lift (ix3 b c w)) = fun v : Fin 256 => s (ix4 b c w v) :=
    funext fun v => congrArg s (lift_row hred b c w v)
  rw [hfun]
  show max (Ideal.ofBits .f32 0xFF800000#32)
      ((Finset.univ : Finset (Fin 256)).fold max (Ideal.ofBits .f32 0xFF800000#32) fun v => s (ix4 b c w v)) = _
  rw [ofBits_neg_inf]
  exact max_eq_right bot_le

/-- exp (s − row maximum) at (b, c, w, v). -/
theorem tEx_apply (s : FVec Ideal S16x64x256x256 .f32) (b : Fin 16) (c : Fin 64) (w v : Fin 256) :
    tEx s (ix4 b c w v) = Ideal.exp (s (ix4 b c w v) - tRowMax s (ix3 b c w)) := by
  have h := bcastRow (tRowMax s) b c w v
  unfold tEx
  show Ideal.exp (s (ix4 b c w v) - _) = _
  rw [h]

/-- The sum along the last axis at (b, c, w). -/
theorem tDen_apply (e : FVec Ideal S16x64x256x256 .f32) (b : Fin 16) (c : Fin 64) (w : Fin 256) :
    tDen e (ix3 b c w) = ∑ v : Fin 256, e (ix4 b c w v) := by
  have hred : S16x64x256x256.Reduces [3] S16x64x256 := by decide
  unfold tDen
  show Ideal.hostReduceAdd reducesTo_S16x64x256x256_S16x64x256_d3 e (Ideal.ofBits .f32 0x00000000#32) (ix3 b c w) = _
  rw [Ideal.hostReduceAdd_single _ hred, Ideal.ofBits_zero_f32, zero_add]
  exact Finset.sum_congr rfl fun v _ => congrArg e (lift_row hred b c w v)

/-- The softmax weight at (b, c, w, v). -/
theorem tProb_apply (s : FVec Ideal S16x64x256x256 .f32) (b : Fin 16) (c : Fin 64) (w v : Fin 256) :
    tProb s (ix4 b c w v) = Ideal.div (tEx s (ix4 b c w v)) (tDen (tEx s) (ix3 b c w)) := by
  have h := bcastRow (tDen (tEx s)) b c w v
  unfold tProb
  show Ideal.div (tEx s (ix4 b c w v)) _ = _
  rw [h]

/-- The attention output plus residual at (b, c, h, w), over any weights. -/
theorem tX_apply (q k v : FVec Ideal S16x64x32x256 .f32) (b : Fin 16) (c : Fin 64) (h : Fin 32) (w : Fin 256) :
    tX q k v (ix4 b c h w)
      = (∑ u : Fin 256, v (ix4 b c h u) * tProb (tScore q k) (ix4 b c w u)) + v (ix4 b c h w) := by
  unfold tX
  generalize tProb (tScore q k) = p
  refine (addf_apply _ _ _).trans ?_
  refine congrArg (· + v (ix4 b c h w)) ?_
  refine (Ideal.dotGeneral_apply dotVP none .single v p (ix4 b c h w)).trans ?_
  rw [← Equiv.sum_comp (contrEquiv1 dotVP 256 rfl rfl).symm]
  refine Finset.sum_congr rfl fun u _ => ?_
  rw [vp_lhs, vp_rhs]

/-! ## The stages are the specification's -/

open Cert.AttnBN in
theorem score_eq (q k : FVec Ideal S16x64x32x256 .f32) (b : Fin 16) (c : Fin 64) (w v : Fin 256) :
    tScore q k (ix4 b c w v) = score q k b c w v := tScore_apply q k b c w v

open Cert.AttnBN in
theorem rowMax_eq (q k : FVec Ideal S16x64x32x256 .f32) (b : Fin 16) (c : Fin 64) (w : Fin 256) :
    tRowMax (tScore q k) (ix3 b c w) = rowMax q k b c w := by
  rw [tRowMax_apply]
  unfold rowMax
  exact congrArg (fun f : Fin 256 → EReal => (Finset.univ : Finset (Fin 256)).fold max ⊥ f)
    (funext fun v => score_eq q k b c w v)

open Cert.AttnBN in
theorem ex_eq (q k : FVec Ideal S16x64x32x256 .f32) (b : Fin 16) (c : Fin 64) (w v : Fin 256) :
    tEx (tScore q k) (ix4 b c w v) = ex q k b c w v := by
  rw [tEx_apply, score_eq, rowMax_eq]
  rfl

open Cert.AttnBN in
theorem den_eq (q k : FVec Ideal S16x64x32x256 .f32) (b : Fin 16) (c : Fin 64) (w : Fin 256) :
    tDen (tEx (tScore q k)) (ix3 b c w) = den q k b c w := by
  rw [tDen_apply]
  exact Finset.sum_congr rfl fun v _ => ex_eq q k b c w v

open Cert.AttnBN in
theorem prob_eq (q k : FVec Ideal S16x64x32x256 .f32) (b : Fin 16) (c : Fin 64) (w v : Fin 256) :
    tProb (tScore q k) (ix4 b c w v) = prob q k b c w v := by
  rw [tProb_apply, ex_eq, den_eq]
  rfl

open Cert.AttnBN in
/-- The reference's attention output plus residual is the specification's array X. -/
theorem tX_eq (q k v : FVec Ideal S16x64x32x256 .f32) : tX (F := Ideal) q k v = Cert.AttnBN.X q k v := by
  funext i
  obtain ⟨b, c, h, w, rfl⟩ : ∃ (b : Fin 16) (c : Fin 64) (h : Fin 32) (w : Fin 256), i = ix4 b c h w :=
    ⟨i 0, i 1, i 2, i 3, eq_ix4 i⟩
  rw [tX_apply]
  show _ = Xc q k v b c h w
  unfold Xc
  exact congrArg (· + v (ix4 b c h w))
    (Finset.sum_congr rfl fun u _ => congrArg (v (ix4 b c h u) * ·) (prob_eq q k b c w u))

end Cert.ReferenceIdeal.RefValue

end
-- ==== Proof.AlgConst.lean ====
/-
  The float literals of the two spellings as the reals their words denote:
  0x48000000 is 131072 = 2^17, 0x3F800000 is 1, 0x3727C5AC is 10995116 · 2^(−40) (about 10^(−5), positive),
  and the divisor N − 0 of the centred second moment is 131072 again.
-/
import proofs.«133421_j61701500174555_1_alg».proof.Proof.Spec

noncomputable section

namespace Cert.AttnBN

open Idealize.ShloMosaic

theorem cN_eq : cN = ((131072 : ℝ) : EReal) := by
  unfold cN
  simp [Ideal.ofBits, Ideal.ieee, -EReal.coe_mul]; norm_num

theorem cOne_eq : cOne = 1 := by
  unfold cOne
  simp [Ideal.ofBits, Ideal.ieee, -EReal.coe_mul]; norm_num

theorem cEps_eq : ∃ e : ℝ, 0 < e ∧ cEps = (e : EReal) := by
  refine ⟨10995116 * (2 : ℝ) ^ (-40 : ℤ), by positivity, ?_⟩
  unfold cEps
  simp [Ideal.ofBits, Ideal.ieee, -EReal.coe_mul]

theorem cN'_eq : cN' = ((131072 : ℝ) : EReal) := by
  unfold cN'
  rw [cN_eq]
  simp

end Cert.AttnBN

end
-- ==== Proof.AlgIdx.lean ====
/-
  Sums over the index set of a rank-4 array.

  The index set of an array of shape [n0, n1, n2, n3] is the product of its four coordinate ranges, so a sum over
  it is the fourfold sum over the coordinates; and the sum over the indices whose second coordinate is a given c
  is the triple sum over the other three coordinates.
-/
import Idealize.ShloMosaic.Lib.ValueIdx

noncomputable section

namespace Cert.AttnBN

open Idealize.ShloMosaic Idealize.ShloMosaic.ValueIdx

/-- A rank-4 index set is the product of its four coordinate ranges … -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat}
    (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- The sum over the indices selected by a predicate that holds exactly of those with second coordinate c is the
    triple sum over the other coordinates. -/
theorem sum_filter_axis1 {M : Type*} [AddCommMonoid M] {n0 n1 n2 n3 : Nat}
    (f : (⟨4, ![n0, n1, n2, n3]⟩ : Shape).Idx → M) (c : Fin n1)
    (p : (⟨4, ![n0, n1, n2, n3]⟩ : Shape).Idx → Prop) [DecidablePred p]
    (hp : ∀ i, p i ↔ (i 1).val = c.val) :
    ∑ i ∈ Finset.univ.filter p, f i = ∑ a : Fin n0, ∑ h : Fin n2, ∑ w : Fin n3, f (ix4 a c h w) := by
  rw [Finset.sum_filter, sum_idx4]
  refine Finset.sum_congr rfl fun a _ => ?_
  have key : ∀ b' : Fin n1,
      (∑ h : Fin n2, ∑ w : Fin n3, if p (ix4 a b' h w) then f (ix4 a b' h w) else 0)
        = if b' = c then ∑ h : Fin n2, ∑ w : Fin n3, f (ix4 a b' h w) else 0 := by
    intro b'
    by_cases hb : b' = c
    · rw [if_pos hb]
      refine Finset.sum_congr rfl fun h _ => Finset.sum_congr rfl fun w _ =>
        if_pos ((hp _).2 (congrArg Fin.val hb))
    · rw [if_neg hb]
      refine Finset.sum_eq_zero fun h _ => Finset.sum_eq_zero fun w _ =>
        if_neg fun hpi => hb (Fin.ext ((hp _).1 hpi))
  rw [Finset.sum_congr rfl fun b' _ => key b', Finset.sum_ite_eq' Finset.univ c, if_pos (Finset.mem_univ c)]

end Cert.AttnBN

end
-- ==== Proof.RefTail.lean ====
/-
  The reference's normalisation tail, read at an index over the extended reals.

  Given that the reference's attention stage is the array X, the rest of the reference is, entry by entry, the
  two-pass spelling: the per-channel sum over batch, row and column (the host sum over axes 0, 2, 3 selects the
  indices whose channel coordinate is c); the mean, that sum over N; the count N − 0 is positive, so the
  select takes the centred second moment over N − 0; then ((x − mean) · rsqrt (var + ε)) · γ + β and
  y · (1 / (1 + exp (−y))).  The per-channel arrays of shape [64] reach an entry (b, c, h, w) through the
  broadcasts [64] → [1, 64, 1, 1] → [16, 64, 32, 256], which read channel c.
-/
import proofs.«133421_j61701500174555_1_alg».proof.Proof.RefRun
import proofs.«133421_j61701500174555_1_alg».proof.Proof.Spec
import proofs.«133421_j61701500174555_1_alg».proof.Proof.AlgConst
import proofs.«133421_j61701500174555_1_alg».proof.Proof.AlgIdx
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Gen Cert.AttnBN Idealize.ShloMosaic Idealize.ShloMosaic.ValueIdx

namespace Tail

/-! ### The layout operations at an index -/

/-- A per-channel array [1, 64, 1, 1] broadcast to [16, 64, 32, 256] reads channel c at (b, c, h, w). -/
theorem bcast_chan_apply {α : Type} (z : S1x64x1x1.Idx → α) (b : Fin 16) (c : Fin 64) (h : Fin 32) (w : Fin 256) :
    broadcastInDim S16x64x32x256 ![0, 1, 2, 3] bcast_S1x64x1x1_S16x64x32x256_0_1_2_3 z (ix4 b c h w)
      = z (ix4 (0 : Fin 1) c (0 : Fin 1) (0 : Fin 1)) := by
  refine broadcastInDim_apply _ _ z (ix4 b c h w) (ix4 (0 : Fin 1) c (0 : Fin 1) (0 : Fin 1)) fun a => ?_
  match a with
  | ⟨0, _⟩ => rfl
  | ⟨1, _⟩ => rfl
  | ⟨2, _⟩ => rfl
  | ⟨3, _⟩ => rfl

/-- A vector [64] viewed as [1, 64, 1, 1] reads its entry c at (0, c, 0, 0). -/
theorem bcast_vec_apply {α : Type} (y : S64.Idx → α) (c : Fin 64) :
    broadcastInDim S1x64x1x1 ![1] bcast_S64_S1x64x1x1_1 y (ix4 (0 : Fin 1) c (0 : Fin 1) (0 : Fin 1))
      = y (ix1 c) := by
  refine broadcastInDim_apply _ _ y (ix4 (0 : Fin 1) c (0 : Fin 1) (0 : Fin 1)) (ix1 c) fun a => ?_
  match a with
  | ⟨0, _⟩ => rfl

/-- The host's reciprocal square root, exponential and negation at an index. -/
theorem hostRsqrt_apply {s : Shape} (y : FVec Ideal s .f32) (j : s.Idx) : Host.rsqrt y j = Ideal.rsqrt (y j) := rfl
theorem hostExp_apply {s : Shape} (y : FVec Ideal s .f32) (j : s.Idx) : Host.exp y j = Ideal.exp (y j) := rfl
theorem hostNegf_apply {s : Shape} (y : FVec Ideal s .f32) (j : s.Idx) : Host.negf y j = -(y j) := rfl

/-! ### The per-channel sum -/

/-- The host sum over batch, row and column reads, at channel c, the triple sum. -/
theorem tSum_apply (x : FVec Ideal S16x64x32x256 .f32) (c : Fin 64) :
    tSum (F := Ideal) x (ix1 c) = chanSum x c := by
  unfold tSum
  rw [hostReduceAdd_apply]
  unfold Ideal.hostReduceAdd chanSum
  rw [constant_apply, Ideal.ofBits_zero_f32, zero_add]
  refine sum_filter_axis1 x c _ fun i => ⟨fun e => ?_, fun e => funext fun a => ?_⟩
  · have h0 := congrArg (fun j : S64.Idx => (j 0).val) e
    exact (reducesTo_S16x64x32x256_S64_d0_2_3.drop_apply_val_of_eq i 0 1).symm.trans h0
  · match a with
    | ⟨0, _⟩ => exact Fin.ext ((reducesTo_S16x64x32x256_S64_d0_2_3.drop_apply_val_of_eq i 0 1).trans e)

/-! ### Mean, centring, count and variance, per channel -/

/-- The mean of channel c: the channel sum over N. -/
theorem tMean_apply (x : FVec Ideal S16x64x32x256 .f32) (c : Fin 64) :
    tMean (F := Ideal) x (ix4 (0 : Fin 1) c (0 : Fin 1) (0 : Fin 1)) = Ideal.div (chanSum x c) cN := by
  unfold tMean cN
  rw [hostDivf_apply, bcast_vec_apply, broadcastInDim_scalar_apply, constant_apply, tSum_apply]

/-- An entry minus its channel's mean. -/
theorem tCen_apply (x : FVec Ideal S16x64x32x256 .f32) (b : Fin 16) (c : Fin 64) (h : Fin 32) (w : Fin 256) :
    tCen (F := Ideal) x (ix4 b c h w) = x (ix4 b c h w) - Ideal.div (chanSum x c) cN := by
  unfold tCen
  rw [subf_apply, bcast_chan_apply, tMean_apply]

/-- The count N − 0. -/
theorem tCnt_eq : tCnt (F := Ideal) ix0 = cN' := by
  unfold tCnt cN' cN
  rw [subf_apply, constant_apply, sitofp_apply]
  rfl

/-- The count is positive: the test N − 0 > 0 answers 1. -/
theorem cnt_pos : FloatOps.cmpf (F := Ideal) (φ := .f32) .ogt cN' (Ideal.ofBits .f32 0x00000000#32) = 1#1 := by
  rw [Ideal.cmpf_def, cN'_eq, Ideal.ofBits_zero_f32]
  unfold Ideal.cmp
  simp

/-- The variance of channel c: the select takes the centred second moment over N − 0. -/
theorem tVar_apply (x : FVec Ideal S16x64x32x256 .f32) (c : Fin 64) :
    tVar (F := Ideal) x (ix4 (0 : Fin 1) c (0 : Fin 1) (0 : Fin 1))
      = Ideal.div (∑ b : Fin 16, ∑ h : Fin 32, ∑ w : Fin 256,
          (x (ix4 b c h w) - Ideal.div (chanSum x c) cN) * (x (ix4 b c h w) - Ideal.div (chanSum x c) cN)) cN' := by
  unfold tVar
  rw [select_apply, broadcastInDim_scalar_apply, cmpf_apply, tCnt_eq, constant_apply, cnt_pos, select_one,
    hostDivf_apply, bcast_vec_apply, broadcastInDim_scalar_apply, tCnt_eq, tSum_apply]
  unfold chanSum
  refine congrArg (fun s => Ideal.div s cN') ?_
  refine Finset.sum_congr rfl fun b _ => Finset.sum_congr rfl fun h _ => Finset.sum_congr rfl fun w _ => ?_
  rw [mulf_apply, tCen_apply]
  rfl

/-! ### The normalised entry and the last step -/

/-- The reference's normalised entry at (b, c, h, w), in the two-pass spelling. -/
theorem tXn_apply (q k v : FVec Ideal S16x64x32x256 .f32) (g bb : FVec Ideal S64 .f32)
    (b : Fin 16) (c : Fin 64) (h : Fin 32) (w : Fin 256) :
    tXn (F := Ideal) (X q k v) g bb (ix4 b c h w) = xnR q k v g bb (ix4 b c h w) := by
  show _ = ((X q k v (ix4 b c h w) - meanR q k v c) * Ideal.rsqrt (varR q k v c + cEps)) * g (ix1 c) + bb (ix1 c)
  unfold tXn
  rw [addf_apply, mulf_apply, mulf_apply, tCen_apply, bcast_chan_apply, bcast_chan_apply, bcast_chan_apply,
    bcast_vec_apply, bcast_vec_apply, hostRsqrt_apply, addf_apply, tVar_apply, broadcastInDim_scalar_apply,
    constant_apply]
  rfl

/-- The last step y · (1 / (1 + exp (−y))) at an index. -/
theorem tOut_apply (y : FVec Ideal S16x64x32x256 .f32) (i : S16x64x32x256.Idx) :
    tOut (F := Ideal) y i = y i * Ideal.div cOne (cOne + Ideal.exp (-(y i))) := by
  unfold tOut cOne
  rw [mulf_apply, hostDivf_apply, broadcastInDim_scalar_apply, constant_apply, addf_apply,
    broadcastInDim_scalar_apply, constant_apply, hostExp_apply, hostNegf_apply]

/-- The reference's result at (b, c, h, w), given that its attention stage is X. -/
theorem refTerm_apply (q k v : FVec Ideal S16x64x32x256 .f32) (g bb : FVec Ideal S64 .f32)
    (hx : tX (F := Ideal) q k v = X q k v) (b : Fin 16) (c : Fin 64) (h : Fin 32) (w : Fin 256) :
    refTerm (F := Ideal) q k v g bb (ix4 b c h w) = outR q k v g bb (ix4 b c h w) := by
  unfold refTerm outR
  rw [hx, tOut_apply, tXn_apply]

end Tail

/-- Given that the reference's attention stage is X, the reference computes the two-pass spelling. -/
theorem refTerm_eq_of_tX (q k v : FVec Ideal S16x64x32x256 .f32) (g b : FVec Ideal S64 .f32)
    (hx : tX (F := Ideal) q k v = Cert.AttnBN.X q k v) :
    refTerm (F := Ideal) q k v g b = Cert.AttnBN.outR q k v g b := by
  funext i
  exact (congrArg (refTerm (F := Ideal) q k v g b) (eq_ix4 i)).trans
    ((Tail.refTerm_apply q k v g b hx (i 0) (i 1) (i 2) (i 3)).trans
      (congrArg (outR q k v g b) (eq_ix4 i)).symm)

end Cert.ReferenceIdeal.RefValue

end
-- ==== Proof.RefRead.lean ====
/-
  The reference's composed term is the specification's two-pass result.

  The attention half (the array X: scores, softmax along the last axis, the contraction with the values, the residual)
  is read stage by stage in the attention module; the normalisation and the last step y · (1 / (1 + exp (−y))) are read, for any array that is X,
  in the tail module.  Together: the reference's result is `outR`.
-/
import proofs.«133421_j61701500174555_1_alg».proof.Proof.RefReadA
import proofs.«133421_j61701500174555_1_alg».proof.Proof.RefTail

noncomputable section

namespace Cert.ReferenceIdeal.RefValue

open Cert.ReferenceIdeal Idealize.ShloMosaic

/-- At the ideal values the reference computes the two-pass spelling of the result, index by index. -/
theorem refTerm_eq (q k v : FVec Ideal S16x64x32x256 .f32) (g b : FVec Ideal S64 .f32) :
    refTerm (F := Ideal) q k v g b = Cert.AttnBN.outR q k v g b :=
  refTerm_eq_of_tX q k v g b (tX_eq q k v)

end Cert.ReferenceIdeal.RefValue

end
-- ==== Proof.AlgReal.lean ====
/-
  Facts about real numbers and their images in the extended reals that the comparison of the two
  batch-normalisation spellings rests on: a finite sum of reals is the sum of the images; the variance
  identity  (Σ x²)/N − (Σ x / N)² = (Σ (x − Σ x / N)²)/N  for a family of N ≠ 0 entries; its sign.
-/
import Idealize.ShloMosaic.PureOps.Ideal

noncomputable section

namespace Cert.AttnBN

open Idealize.ShloMosaic

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of extended reals each of which is a real is a real. -/
theorem sum_real {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_sum]; exact Finset.sum_congr rfl fun i _ => hg i⟩

/-- The quotient of two reals with a nonzero divisor is the real quotient. -/
theorem div_coe (a b : ℝ) (hb : b ≠ 0) : Ideal.div (a : EReal) (b : EReal) = ((a / b : ℝ) : EReal) := by
  have hb' : (b : EReal) ≠ 0 := by exact_mod_cast hb
  rw [Ideal.div, if_neg hb', ← EReal.coe_inv, ← EReal.coe_mul, div_eq_mul_inv]

/-- The reciprocal square root of a positive real. -/
theorem rsqrt_pos (r : ℝ) (h : 0 < r) : Ideal.rsqrt (r : EReal) = (((Real.sqrt r)⁻¹ : ℝ) : EReal) := by
  rw [Ideal.rsqrt_coe, if_neg (not_lt.mpr h.le), if_neg h.ne']

/-- Expanding the centred squares: Σ (x − m)² = Σ x² − 2 m Σ x + N m². -/
theorem sum_centred_sq {ι : Type*} (s : Finset ι) (f : ι → ℝ) (m : ℝ) :
    ∑ i ∈ s, (f i - m) * (f i - m)
      = ∑ i ∈ s, f i * f i - 2 * m * ∑ i ∈ s, f i + (s.card : ℝ) * (m * m) := by
  have h : ∀ i, (f i - m) * (f i - m) = f i * f i - 2 * m * f i + m * m := fun i => by ring
  simp only [h, Finset.sum_add_distrib, Finset.sum_sub_distrib, ← Finset.mul_sum, Finset.sum_const,
    nsmul_eq_mul]
  ring

/-- The variance identity for a family of N ≠ 0 reals: mean of squares minus squared mean is the mean of
    the centred squares. -/
theorem var_identity {ι : Type*} (s : Finset ι) (f : ι → ℝ) (N : ℝ) (hN : (s.card : ℝ) = N) (hN0 : N ≠ 0) :
    (∑ i ∈ s, f i * f i) / N - (∑ i ∈ s, f i) / N * ((∑ i ∈ s, f i) / N)
      = (∑ i ∈ s, (f i - (∑ i ∈ s, f i) / N) * (f i - (∑ i ∈ s, f i) / N)) / N := by
  rw [sum_centred_sq, hN]
  field_simp
  ring

/-- A triple sum over the batch, row and column coordinates as one sum over the triples. -/
theorem sum3 (F : Fin 16 → Fin 32 → Fin 256 → ℝ) :
    ∑ b, ∑ h, ∑ w, F b h w = ∑ p : Fin 16 × Fin 32 × Fin 256, F p.1 p.2.1 p.2.2 := by
  rw [Fintype.sum_prod_type]
  refine Finset.sum_congr rfl fun b _ => ?_
  rw [Fintype.sum_prod_type]

/-- The variance identity for the 16·32·256 = 131072 entries of one channel. -/
theorem var3 (f : Fin 16 → Fin 32 → Fin 256 → ℝ) :
    (∑ b, ∑ h, ∑ w, f b h w * f b h w) / 131072
        - (∑ b, ∑ h, ∑ w, f b h w) / 131072 * ((∑ b, ∑ h, ∑ w, f b h w) / 131072)
      = (∑ b, ∑ h, ∑ w, (f b h w - (∑ b, ∑ h, ∑ w, f b h w) / 131072)
            * (f b h w - (∑ b, ∑ h, ∑ w, f b h w) / 131072)) / 131072 := by
  rw [sum3 (fun b h w => f b h w * f b h w), sum3 f,
    sum3 (fun b h w => (f b h w - (∑ p : Fin 16 × Fin 32 × Fin 256, f p.1 p.2.1 p.2.2) / 131072)
            * (f b h w - (∑ p : Fin 16 × Fin 32 × Fin 256, f p.1 p.2.1 p.2.2) / 131072))]
  exact var_identity Finset.univ (fun p : Fin 16 × Fin 32 × Fin 256 => f p.1 p.2.1 p.2.2) 131072
    (by simp) (by norm_num)

/-- The mean of the centred squares is not negative. -/
theorem var3_nonneg (f : Fin 16 → Fin 32 → Fin 256 → ℝ) (m : ℝ) :
    0 ≤ (∑ b, ∑ h, ∑ w, (f b h w - m) * (f b h w - m)) / 131072 :=
  div_nonneg (Finset.sum_nonneg fun _ _ => Finset.sum_nonneg fun _ _ => Finset.sum_nonneg fun _ _ =>
    mul_self_nonneg _) (by norm_num)

end Cert.AttnBN

end
-- ==== Proof.AlgX.lean ====
/-
  With real inputs every entry of the attention output X is a real:
  a score is a finite sum of products of reals; the row maximum of 256 real scores is one of them;
  exp(score − max) is a positive real; the softmax denominator, a sum of 256 positive reals, is a
  positive real, so the quotient is the real quotient; and X is a finite sum of products of reals
  plus a real.
-/
import proofs.«133421_j61701500174555_1_alg».proof.Proof.Spec
import proofs.«133421_j61701500174555_1_alg».proof.Proof.AlgReal

noncomputable section

namespace Cert.AttnBN

open Idealize.ShloMosaic Idealize.ShloMosaic.ValueIdx

/-- The maximum, folded from −∞, of a family of reals: −∞ for the empty family, a real otherwise. -/
theorem fold_max_real {ι : Type*} (s : Finset ι) (f : ι → ℝ) :
    (s = ∅ ∧ s.fold max (⊥ : EReal) (fun v => (f v : EReal)) = ⊥)
      ∨ ∃ r : ℝ, s.fold max (⊥ : EReal) (fun v => (f v : EReal)) = (r : EReal) := by
  classical
  induction s using Finset.induction_on with
  | empty => exact Or.inl ⟨rfl, Finset.fold_empty⟩
  | insert a s ha ih =>
    right
    rw [Finset.fold_insert ha]
    rcases ih with ⟨_, h⟩ | ⟨r, h⟩
    · rw [h]; exact ⟨f a, max_bot_right _⟩
    · rw [h]; exact ⟨max (f a) r, (EReal.coe_strictMono.monotone.map_max).symm⟩

variable (Q K V : A4.Idx → EReal)
variable (hQ : ∀ i, ∃ r : ℝ, Q i = (r : EReal)) (hK : ∀ i, ∃ r : ℝ, K i = (r : EReal))
  (hV : ∀ i, ∃ r : ℝ, V i = (r : EReal))

include hQ hK in
theorem score_real (b : Fin 16) (c : Fin 64) (w v : Fin 256) : ∃ r : ℝ, score Q K b c w v = (r : EReal) := by
  unfold score
  refine sum_real _ _ fun h => ?_
  obtain ⟨q, hq⟩ := hQ (ix4 b c h w)
  obtain ⟨k, hk⟩ := hK (ix4 b c h v)
  exact ⟨q * k, by rw [hq, hk, EReal.coe_mul]⟩

include hQ hK in
theorem rowMax_real (b : Fin 16) (c : Fin 64) (w : Fin 256) : ∃ r : ℝ, rowMax Q K b c w = (r : EReal) := by
  choose s hs using fun v => score_real Q K hQ hK b c w v
  have hfun : (fun v => score Q K b c w v) = fun v => (s v : EReal) := funext hs
  unfold rowMax
  rw [hfun]
  rcases fold_max_real (Finset.univ : Finset (Fin 256)) s with ⟨h, _⟩ | h
  · exact absurd h Finset.univ_nonempty.ne_empty
  · exact h

include hQ hK in
theorem ex_real (b : Fin 16) (c : Fin 64) (w v : Fin 256) :
    ∃ r : ℝ, 0 < r ∧ ex Q K b c w v = (r : EReal) := by
  obtain ⟨s, hs⟩ := score_real Q K hQ hK b c w v
  obtain ⟨M, hM⟩ := rowMax_real Q K hQ hK b c w
  refine ⟨Real.exp (s - M), Real.exp_pos _, ?_⟩
  unfold ex
  rw [hs, hM, ← EReal.coe_sub, Ideal.exp_coe]

include hQ hK in
theorem den_real (b : Fin 16) (c : Fin 64) (w : Fin 256) :
    ∃ r : ℝ, 0 < r ∧ den Q K b c w = (r : EReal) := by
  choose e he0 he using fun v => ex_real Q K hQ hK b c w v
  refine ⟨∑ v, e v, Finset.sum_pos (fun v _ => he0 v) Finset.univ_nonempty, ?_⟩
  unfold den
  rw [coe_sum]
  exact Finset.sum_congr rfl fun v _ => he v

include hQ hK in
theorem prob_real (b : Fin 16) (c : Fin 64) (w v : Fin 256) : ∃ r : ℝ, prob Q K b c w v = (r : EReal) := by
  obtain ⟨e, _, he⟩ := ex_real Q K hQ hK b c w v
  obtain ⟨d, hd0, hd⟩ := den_real Q K hQ hK b c w
  exact ⟨e / d, by unfold prob; rw [he, hd, div_coe _ _ hd0.ne']⟩

include hQ hK hV in
theorem Xc_real (b : Fin 16) (c : Fin 64) (h : Fin 32) (w : Fin 256) :
    ∃ r : ℝ, Xc Q K V b c h w = (r : EReal) := by
  obtain ⟨s, hs⟩ := sum_real Finset.univ (fun v => V (ix4 b c h v) * prob Q K b c w v) (fun v => by
    obtain ⟨x, hx⟩ := hV (ix4 b c h v)
    obtain ⟨p, hp⟩ := prob_real Q K hQ hK b c w v
    exact ⟨x * p, by rw [hx, hp, EReal.coe_mul]⟩)
  obtain ⟨x, hx⟩ := hV (ix4 b c h w)
  exact ⟨s + x, by unfold Xc; rw [hs, hx, EReal.coe_add]⟩

include hQ hK hV in
/-- Every entry of X is a real. -/
theorem X_real : ∃ x : A4.Idx → ℝ, ∀ i, X Q K V i = (x i : EReal) := by
  choose x hx using fun i : A4.Idx => Xc_real Q K V hQ hK hV (i 0) (i 1) (i 2) (i 3)
  exact ⟨x, fun i => hx i⟩

end Cert.AttnBN

end
-- ==== Proof.Algebra.lean ====
/-
  The two spellings of the batch normalisation give the same array when every input entry is a real.

  Every entry of X is then a real x.  Per channel, over the reals, with N = 131072 entries:
    mean = (Σ x)/N in both spellings;
    the one-pass variance (Σ x²)/N − mean² equals the two-pass variance (Σ (x − mean)²)/N  (the variance identity),
    and it is ≥ 0, so variance + ε > 0 and its reciprocal square root is the real ρ = (√(variance + ε))⁻¹;
    x·(γ·ρ) + (β − mean·(γ·ρ)) = ((x − mean)·ρ)·γ + β  by distributivity.
  The normalised values agree, and the last step x ↦ x · logistic x is the same function in both spellings
  (logistic y is 1 / (1 + exp(−y)) by definition, and the word 0x3F800000 is 1).
-/
import proofs.«133421_j61701500174555_1_alg».proof.Proof.Spec
import proofs.«133421_j61701500174555_1_alg».proof.Proof.AlgReal
import proofs.«133421_j61701500174555_1_alg».proof.Proof.AlgConst
import proofs.«133421_j61701500174555_1_alg».proof.Proof.AlgX

noncomputable section

namespace Cert.AttnBN

open Idealize.ShloMosaic Idealize.ShloMosaic.ValueIdx

/-- The channel sum of an array of reals is the real triple sum. -/
theorem chanSum_coe (f : A4.Idx → EReal) (r : A4.Idx → ℝ) (hf : ∀ i, f i = (r i : EReal)) (c : Fin 64) :
    chanSum f c = ((∑ b : Fin 16, ∑ h : Fin 32, ∑ w : Fin 256, r (ix4 b c h w) : ℝ) : EReal) := by
  unfold chanSum
  rw [coe_sum]; refine Finset.sum_congr rfl fun b _ => ?_
  rw [coe_sum]; refine Finset.sum_congr rfl fun h _ => ?_
  rw [coe_sum]; exact Finset.sum_congr rfl fun w _ => hf _

/-- The real channel sum. -/
def SR (x : A4.Idx → ℝ) (c : Fin 64) : ℝ := ∑ b : Fin 16, ∑ h : Fin 32, ∑ w : Fin 256, x (ix4 b c h w)
/-- The real channel mean. -/
def mR (x : A4.Idx → ℝ) (c : Fin 64) : ℝ := SR x c / 131072
/-- The real channel variance, as the mean of the centred squares. -/
def vR (x : A4.Idx → ℝ) (c : Fin 64) : ℝ :=
  (∑ b : Fin 16, ∑ h : Fin 32, ∑ w : Fin 256,
    (x (ix4 b c h w) - mR x c) * (x (ix4 b c h w) - mR x c)) / 131072

theorem vR_nonneg (x : A4.Idx → ℝ) (c : Fin 64) : 0 ≤ vR x c :=
  var3_nonneg (fun b h w => x (ix4 b c h w)) (mR x c)

/-- The variance identity for one channel. -/
theorem var_chan (x : A4.Idx → ℝ) (c : Fin 64) :
    SR (fun i => x i * x i) c / 131072 - mR x c * mR x c = vR x c :=
  var3 (fun b h w => x (ix4 b c h w))

variable (Q K V : A4.Idx → EReal) (γ β : A1.Idx → EReal)
variable (x : A4.Idx → ℝ) (hx : ∀ i, X Q K V i = (x i : EReal))

include hx in
theorem meanK_eq (c : Fin 64) : meanK Q K V c = (mR x c : EReal) := by
  unfold meanK mR SR
  rw [chanSum_coe (X Q K V) x hx c, cN_eq, div_coe _ _ (by norm_num)]

include hx in
theorem meanR_eq (c : Fin 64) : meanR Q K V c = (mR x c : EReal) := meanK_eq Q K V x hx c

include hx in
theorem varK_eq (c : Fin 64) : varK Q K V c = (vR x c : EReal) := by
  have hsq : ∀ i, (fun i => X Q K V i * X Q K V i) i = (((fun i => x i * x i) i : ℝ) : EReal) := fun i => by
    show X Q K V i * X Q K V i = ((x i * x i : ℝ) : EReal)
    rw [hx i, EReal.coe_mul]
  unfold varK msqK
  rw [meanK_eq Q K V x hx c, chanSum_coe _ _ hsq c, cN_eq, div_coe _ _ (by norm_num), ← EReal.coe_mul,
    ← EReal.coe_sub]
  exact congrArg _ (var_chan x c)

include hx in
theorem varR_eq (c : Fin 64) : varR Q K V c = (vR x c : EReal) := by
  have hsq : ∀ i : A4.Idx, (fun i : A4.Idx => (X Q K V i - meanR Q K V (i 1)) * (X Q K V i - meanR Q K V (i 1))) i
      = (((fun i : A4.Idx => (x i - mR x (i 1)) * (x i - mR x (i 1))) i : ℝ) : EReal) := fun i => by
    show (X Q K V i - meanR Q K V (i 1)) * (X Q K V i - meanR Q K V (i 1))
      = (((x i - mR x (i 1)) * (x i - mR x (i 1)) : ℝ) : EReal)
    rw [hx i, meanR_eq Q K V x hx (i 1), EReal.coe_mul, EReal.coe_sub]
  unfold varR
  rw [chanSum_coe _ _ hsq c, cN'_eq, div_coe _ _ (by norm_num)]
  rfl

include hx in
/-- The reciprocal square root of variance + ε is the same real in both spellings. -/
theorem rsqrt_eq (c : Fin 64) : ∃ ρ : ℝ, Ideal.rsqrt (varK Q K V c + cEps) = (ρ : EReal)
    ∧ Ideal.rsqrt (varR Q K V c + cEps) = (ρ : EReal) := by
  obtain ⟨e, he0, he⟩ := cEps_eq
  have hpos : 0 < vR x c + e := add_pos_of_nonneg_of_pos (vR_nonneg x c) he0
  refine ⟨(Real.sqrt (vR x c + e))⁻¹, ?_, ?_⟩
  · rw [varK_eq Q K V x hx c, he, ← EReal.coe_add, rsqrt_pos _ hpos]
  · rw [varR_eq Q K V x hx c, he, ← EReal.coe_add, rsqrt_pos _ hpos]

variable (g bb : A1.Idx → ℝ) (hg : ∀ i, γ i = (g i : EReal)) (hb : ∀ i, β i = (bb i : EReal))

include hx hg hb in
/-- The normalised values agree entry by entry. -/
theorem xn_eq (b : Fin 16) (c : Fin 64) (h : Fin 32) (w : Fin 256) :
    xnK Q K V γ β (ix4 b c h w) = xnR Q K V γ β (ix4 b c h w) := by
  obtain ⟨ρ, hρK, hρR⟩ := rsqrt_eq Q K V x hx c
  show X Q K V (ix4 b c h w) * scaleK Q K V γ c + shiftK Q K V γ β c
    = ((X Q K V (ix4 b c h w) - meanR Q K V c) * Ideal.rsqrt (varR Q K V c + cEps)) * γ (ix1 c) + β (ix1 c)
  unfold shiftK scaleK
  rw [hρK, hρR, hx, meanK_eq Q K V x hx c, meanR_eq Q K V x hx c, hg, hb]
  simp only [← EReal.coe_mul, ← EReal.coe_sub, ← EReal.coe_add]
  refine congrArg _ ?_
  ring

include hx hg hb in
theorem out_eq (b : Fin 16) (c : Fin 64) (h : Fin 32) (w : Fin 256) :
    outK Q K V γ β (ix4 b c h w) = outR Q K V γ β (ix4 b c h w) := by
  show xnK Q K V γ β (ix4 b c h w) * Ideal.logistic (xnK Q K V γ β (ix4 b c h w))
    = xnR Q K V γ β (ix4 b c h w) * Ideal.div cOne (cOne + Ideal.exp (-(xnR Q K V γ β (ix4 b c h w))))
  rw [xn_eq Q K V γ β x hx g bb hg hb b c h w, cOne_eq]
  rfl

omit x hx g bb hg hb in
/-- With real inputs the one-pass and the two-pass spellings denote the same array. -/
theorem outK_eq_outR
    (hQ : ∀ i, ∃ r : ℝ, Q i = (r : EReal)) (hK : ∀ i, ∃ r : ℝ, K i = (r : EReal))
    (hV : ∀ i, ∃ r : ℝ, V i = (r : EReal))
    (hγ : ∀ i, ∃ r : ℝ, γ i = (r : EReal)) (hβ : ∀ i, ∃ r : ℝ, β i = (r : EReal)) :
    outK Q K V γ β = outR Q K V γ β := by
  obtain ⟨x, hx⟩ := X_real Q K V hQ hK hV
  choose g hg using hγ
  choose bb hb using hβ
  funext i
  rw [eq_ix4 i]
  exact out_eq Q K V γ β x hx g bb hg hb (i 0) (i 1) (i 2) (i 3)

end Cert.AttnBN

end
-- ==== Proof.Finite.lean ====
/-
  From the printed precondition to "every input entry is a real".

  The predicate is the conjunction, over the five inputs, of  all(|x| < +∞).  A conjunction of one-bit words
  is 1 exactly when each is; an all-reduction by "and" that is 1 had a 1 at every entry; and
  |a| = max a (−a) < +∞ excludes a = +∞ and a = −∞ (whose negative is +∞), so a is a real.
-/
import proofs.«133421_j61701500174555_1_alg».proof.Pre_finite_inputs
import proofs.«133421_j61701500174555_1_alg».proof.Proof.Gen.Pre_finite_inputs
import Idealize.ShloMosaic.Lib.ReduceAll
import Idealize.ShloMosaic.PureOps.Ideal
import Idealize.ShloMosaic.Lib.ValueIdx

noncomputable section

namespace Cert.AttnBN

open Idealize.ShloMosaic

/-- The scalar shape has one index. -/
instance : Subsingleton Cert.Pre_finite_inputs.S_.Idx := ⟨fun a b => funext fun d => d.elim0⟩

/-- The word 0x7F800000 denotes +∞. -/
theorem ofBits_inf : Ideal.ofBits .f32 0x7F800000#32 = ⊤ := by
  simp [Ideal.ofBits, Ideal.ieee]

/-- An extended real whose absolute value is below +∞ is a real. -/
theorem real_of_abs_lt_inf (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | coe r => exact ⟨r, rfl⟩
  | top => simp [Ideal.cmp] at h

theorem finite_of_pre (q k v : FVec Ideal Cert.Pre_finite_inputs.S16x64x32x256 .f32)
    (g b : FVec Ideal Cert.Pre_finite_inputs.S64 .f32)
    (h : Cert.Pre_finite_inputs.fn (F := Ideal) q k v g b = fun _ => 1#1) :
    (∀ i, ∃ r : ℝ, q i = (r : EReal)) ∧ (∀ i, ∃ r : ℝ, k i = (r : EReal)) ∧ (∀ i, ∃ r : ℝ, v i = (r : EReal))
      ∧ (∀ i, ∃ r : ℝ, g i = (r : EReal)) ∧ (∀ i, ∃ r : ℝ, b i = (r : EReal)) := by
  have h0 := congrFun h ValueIdx.ix0
  dsimp only [Cert.Pre_finite_inputs.fn, Cert.Pre_finite_inputs.fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  refine ⟨fun i => ?_, fun i => ?_, fun i => ?_, fun i => ?_, fun i => ?_⟩
  · have hi := Host.reduce_andi_all _ _ _ _ _ h1 i
    exact real_of_abs_lt_inf (q i) hi
  · have hi := Host.reduce_andi_all _ _ _ _ _ h2 i
    exact real_of_abs_lt_inf (k i) hi
  · have hi := Host.reduce_andi_all _ _ _ _ _ h3 i
    exact real_of_abs_lt_inf (v i) hi
  · have hi := Host.reduce_andi_all _ _ _ _ _ h4 i
    exact real_of_abs_lt_inf (g i) hi
  · have hi := Host.reduce_andi_all _ _ _ _ _ h5 i
    exact real_of_abs_lt_inf (b i) hi

end Cert.AttnBN

end
-- ==== Proof.lean ====
/-
  The certificate. A per-channel attention block — scores Σ_h Q·K, a softmax along the last axis, the weighted sum of V plus
  V itself — followed by a batch normalisation over batch, row and column and the map x ↦ x · logistic x, computed two ways.
  The kernel program makes one pass per channel (keeping the channel sums of X and X² in two lane vectors carried across
  the 64 grid points), folds mean and variance into a per-channel scale and shift on the host, and applies them in a second
  kernel; the reference centres X first and normalises last. Over the extended reals, from finite inputs, both results are
  the same function of the five arguments: every X entry is a real number, Σ(X − mean)²/N = ΣX²/N − mean² ≥ 0, so the
  reciprocal square root is a positive real and the affine maps agree by distributivity; the logistic is 1/(1 + e^(−x)) on
  both sides. The three programs run to the end from any memory, leaving their arguments unchanged; the ideal pass rewrote
  nothing.
-/
import proofs.«133421_j61701500174555_1_alg».proof.Defs
import proofs.«133421_j61701500174555_1_alg».proof.Proof.Gen.Kernel
import proofs.«133421_j61701500174555_1_alg».proof.Proof.Gen.KernelIdeal
import proofs.«133421_j61701500174555_1_alg».proof.Proof.Gen.ReferenceIdeal
import proofs.«133421_j61701500174555_1_alg».proof.Proof.Gen.Pre_finite_inputs
import proofs.«133421_j61701500174555_1_alg».proof.Proof.KernelRun
import proofs.«133421_j61701500174555_1_alg».proof.Proof.KernelIdealRun
import proofs.«133421_j61701500174555_1_alg».proof.Proof.KIFinal
import proofs.«133421_j61701500174555_1_alg».proof.Proof.RefRun
import proofs.«133421_j61701500174555_1_alg».proof.Proof.RefRead
import proofs.«133421_j61701500174555_1_alg».proof.Proof.Algebra
import proofs.«133421_j61701500174555_1_alg».proof.Proof.Finite

noncomputable section

namespace Cert.Proof

open Idealize.ShloMosaic Idealize.ShloMosaic.TcCoe Idealize.SL.Sem

theorem frame_k : Cert.frame_Kernel := fun m ρ _ =>
  (θ_run Cert.Kernel.defs _ _).mono (fun _ h c => (h c).2) (Cert.Kernel.Hand.run (F := Bits) m ρ)

theorem frame_ki : Cert.frame_KernelIdeal := fun m ρ _ =>
  (θ_run Cert.KernelIdeal.defs _ _).mono (fun _ h c => (h c).2) (Cert.KernelIdeal.Hand.run (F := Ideal) m ρ)

theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Both idealized programs end at the one-pass spelling of the result: the kernel's by its two kernels' values and the host
    operations between them, the reference's because its two-pass spelling is the same function on finite inputs. -/
theorem algebraic : Cert.algebraic_KernelIdeal_ReferenceIdeal := by
  intro m ρ m' ρ' hpre hagree
  refine ⟨fun c => Cert.AttnBN.outK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Hand.kernel_value m ρ c), (h c).2⟩)
      (Cert.KernelIdeal.Hand.run (F := Ideal) m ρ)
  · refine (θ_run Cert.ReferenceIdeal.defs _ _).mono (fun _ h c => ⟨(h c).1.trans ?_, (h c).2⟩)
      (Cert.ReferenceIdeal.RefValue.run (F := Ideal) m' ρ')
    rw [(hagree c).1, (hagree c).2.1, (hagree c).2.2.1, (hagree c).2.2.2.1, (hagree c).2.2.2.2,
      Cert.ReferenceIdeal.RefValue.refTerm_eq]
    obtain ⟨hq, hk, hv, hg, hb⟩ := Cert.AttnBN.finite_of_pre _ _ _ _ _ (hpre c)
    exact (Cert.AttnBN.outK_eq_outR _ _ _ _ _ hq hk hv hg hb).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
